-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_26" .f32 0x3D1D89D9#32 ((1 / 26 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S19683x64 : Shape := ⟨2, ![19683, 64]⟩
abbrev S19683x26x64 : Shape := ⟨3, ![19683, 26, 64]⟩
abbrev S128x32 : Shape := ⟨2, ![128, 32]⟩
abbrev S32 : Shape := ⟨1, ![32]⟩
abbrev S32x3 : Shape := ⟨2, ![32, 3]⟩
abbrev S3 : Shape := ⟨1, ![3]⟩
abbrev S128x64 : Shape := ⟨2, ![128, 64]⟩
abbrev S64 : Shape := ⟨1, ![64]⟩
abbrev S96x64 : Shape := ⟨2, ![96, 64]⟩
abbrev S_ : Shape := ⟨0, ![]⟩

class Facts : Prop where
  bcast_S_S19683x64 : S_.BroadcastsInDim S19683x64 (![] : Fin 0 → Fin S19683x64.rank)
  reducesTo_S19683x64_S_d0_1 : S19683x64.ReducesTo [0, 1] S_
  h_S_ : 0 < S_.numel
  bcast_S_S19683x26x64 : S_.BroadcastsInDim S19683x26x64 (![] : Fin 0 → Fin S19683x26x64.rank)
  reducesTo_S19683x26x64_S_d0_1_2 : S19683x26x64.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x64 : S_.BroadcastsInDim S96x64 (![] : Fin 0 → Fin S96x64.rank)
  reducesTo_S96x64_S_d0_1 : S96x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S128x64 .f32) (main_arg13 : FVec F S64 .f32) (main_v48 : IVec S_ 1) (main_v49 : FVec F S96x64 .f32) (main_v50 : FVec F S96x64 .f32) : IVec S_ 1 :=
  let main_v51 : IVec S96x64 1 := cmpf .olt main_v49 main_v50
  let main_c_19 : IVec S_ 1 := constantI S_ 1 1#1
  let main_v52 : IVec S_ 1 := (fun x v => Host.reduce IntOp.andi x v reducesTo_S96x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S64 .f32) (main_arg8 : FVec F S128x32 .f32) (main_arg9 : FVec F S32 .f32) (main_arg10 : FVec F S96x64 .f32) (main_arg11 : FVec F S64 .f32) (main_arg12 : FVec F S128x64 .f32) (main_arg13 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S96x64 .f32 := Host.absf main_arg10
  let main_cst_18 : FVec F S_ .f32 := constant S_ .f32 0x7F800000#32
  let main_v50 : FVec F S96x64 .f32 := broadcastInDim S96x64 ![] bcast_S_S96x64 main_cst_18
  fn_part3 (F := F) main_arg11 main_arg12 main_arg13 main_v48 main_v49 main_v50

def fn_part1 {F : FTy → Type} [FloatOps F] (main_arg4 : FVec F S32x3 .f32) (main_arg5 : FVec F S3 .f32) (main_arg6 : FVec F S128x64 .f32) (main_arg7 : FVec F S64 .f32) (main_arg8 : FVec F S128x32 .f32) (main_arg9 : FVec F S32 .f32) (main_arg10 : FVec F S96x64 .f32) (main_arg11 : FVec F S64 .f32) (main_arg12 : FVec F S128x64 .f32) (main_arg13 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x3 .f32 := Host.absf main_arg4
  let main_cst_6 : FVec F S_ .f32 := constant S_ .f32 0x7F800000#32
  let main_v20 : FVec F S32x3 .f32 := broadcastInDim S32x3 ![] bcast_S_S32x3 main_cst_6
  let main_v21 : IVec S32x3 1 := cmpf .olt main_v19 main_v20
  let main_c_7 : IVec S_ 1 := constantI S_ 1 1#1
  let main_v22 : IVec S_ 1 := (fun x v => Host.reduce IntOp.andi x v reducesTo_S32x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S19683x64 .f32) (main_arg1 : FVec F S19683x26x64 .f32) (main_arg2 : FVec F S128x32 .f32) (main_arg3 : FVec F S32 .f32) (main_arg4 : FVec F S32x3 .f32) (main_arg5 : FVec F S3 .f32) (main_arg6 : FVec F S128x64 .f32) (main_arg7 : FVec F S64 .f32) (main_arg8 : FVec F S128x32 .f32) (main_arg9 : FVec F S32 .f32) (main_arg10 : FVec F S96x64 .f32) (main_arg11 : FVec F S64 .f32) (main_arg12 : FVec F S128x64 .f32) (main_arg13 : FVec F S64 .f32) : IVec S_ 1 :=
  let main_v0 : FVec F S19683x64 .f32 := Host.absf main_arg0
  let main_cst : FVec F S_ .f32 := constant S_ .f32 0x7F800000#32
  let main_v1 : FVec F S19683x64 .f32 := broadcastInDim S19683x64 ![] bcast_S_S19683x64 main_cst
  let main_v2 : IVec S19683x64 1 := cmpf .olt main_v0 main_v1
  let main_c : IVec S_ 1 := constantI S_ 1 1#1
  let main_v3 : IVec S_ 1 := (fun x v => Host.reduce IntOp.andi x v reducesTo_S19683x64_S_d0_1 h_S_) main_v2 main_c
  let main_v4 : FVec F S19683x26x64 .f32 := Host.absf main_arg1
  let main_cst_0 : FVec F S_ .f32 := constant S_ .f32 0x7F800000#32
  let main_v5 : FVec F S19683x26x64 .f32 := broadcastInDim S19683x26x64 ![] bcast_S_S19683x26x64 main_cst_0
  let main_v6 : IVec S19683x26x64 1 := cmpf .olt main_v4 main_v5
  let main_c_1 : IVec S_ 1 := constantI S_ 1 1#1
  let main_v7 : IVec S_ 1 := (fun x v => Host.reduce IntOp.andi x v reducesTo_S19683x26x64_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_v13 main_v16
-- ==== Kernel.lean ====
abbrev S19683x64 : Shape := ⟨2, ![19683, 64]⟩
abbrev S19683x26x64 : Shape := ⟨3, ![19683, 26, 64]⟩
abbrev S128x32 : Shape := ⟨2, ![128, 32]⟩
abbrev S32 : Shape := ⟨1, ![32]⟩
abbrev S32x3 : Shape := ⟨2, ![32, 3]⟩
abbrev S3 : Shape := ⟨1, ![3]⟩
abbrev S128x64 : Shape := ⟨2, ![128, 64]⟩
abbrev S64 : Shape := ⟨1, ![64]⟩
abbrev S96x64 : Shape := ⟨2, ![96, 64]⟩
abbrev S26x64x19683 : Shape := ⟨3, ![26, 64, 19683]⟩
abbrev S64x19683 : Shape := ⟨2, ![64, 19683]⟩
abbrev S64x32 : Shape := ⟨2, ![64, 32]⟩
abbrev S32x64 : Shape := ⟨2, ![32, 64]⟩
abbrev S32x1 : Shape := ⟨2, ![32, 1]⟩
abbrev S3x32 : Shape := ⟨2, ![3, 32]⟩
abbrev S3x1 : Shape := ⟨2, ![3, 1]⟩
abbrev S64x64 : Shape := ⟨2, ![64, 64]⟩
abbrev S64x1 : Shape := ⟨2, ![64, 1]⟩
abbrev S3x19683 : Shape := ⟨2, ![3, 19683]⟩
abbrev S19683x3 : Shape := ⟨2, ![19683, 3]⟩
abbrev S26x64x2048 : Shape := ⟨3, ![26, 64, 2048]⟩
abbrev S64x2048 : Shape := ⟨2, ![64, 2048]⟩
abbrev S3x2048 : Shape := ⟨2, ![3, 2048]⟩
abbrev S1x64x2048 : Shape := ⟨3, ![1, 64, 2048]⟩
abbrev S32x2048 : Shape := ⟨2, ![32, 2048]⟩
abbrev S2048 : Shape := ⟨1, ![2048]⟩
abbrev S1x2048 : Shape := ⟨2, ![1, 2048]⟩

abbrev nBuf : Space → Nat
  | .hbm => 47
  | .vmem => 25
  | .smem => 0
  | _ => 0

abbrev bufTy : (tb : Table) → Fin (tcTables nBuf tb) → BufTy
  | .hbm, ⟨0, _⟩ => ⟨S19683x64, .f32⟩
  | .hbm, ⟨1, _⟩ => ⟨S19683x26x64, .f32⟩
  | .hbm, ⟨2, _⟩ => ⟨S128x32, .f32⟩
  | .hbm, ⟨3, _⟩ => ⟨S32, .f32⟩
  | .hbm, ⟨4, _⟩ => ⟨S32x3, .f32⟩
  | .hbm, ⟨5, _⟩ => ⟨S3, .f32⟩
  | .hbm, ⟨6, _⟩ => ⟨S128x64, .f32⟩
  | .hbm, ⟨7, _⟩ => ⟨S64, .f32⟩
  | .hbm, ⟨8, _⟩ => ⟨S128x32, .f32⟩
  | .hbm, ⟨9, _⟩ => ⟨S32, .f32⟩
  | .hbm, ⟨10, _⟩ => ⟨S96x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S26x64x19683, .f32⟩
  | .hbm, ⟨15, _⟩ => ⟨S64x19683, .f32⟩
  | .hbm, ⟨16, _⟩ => ⟨S64x32, .f32⟩
  | .hbm, ⟨17, _⟩ => ⟨S32x64, .f32⟩
  | .hbm, ⟨18, _⟩ => ⟨S64x32, .f32⟩
  | .hbm, ⟨19, _⟩ => ⟨S32x64, .f32⟩
  | .hbm, ⟨20, _⟩ => ⟨S32x1, .f32⟩
  | .hbm, ⟨21, _⟩ => ⟨S3x32, .f32⟩
  | .hbm, ⟨22, _⟩ => ⟨S3x1, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x1, .f32⟩
  | .hbm, ⟨28, _⟩ => ⟨S64x32, .f32⟩
  | .hbm, ⟨29, _⟩ => ⟨S32x64, .f32⟩
  | .hbm, ⟨30, _⟩ => ⟨S64x32, .f32⟩
  | .hbm, ⟨31, _⟩ => ⟨S32x64, .f32⟩
  | .hbm, ⟨32, _⟩ => ⟨S32x1, .f32⟩
  | .hbm, ⟨33, _⟩ => ⟨S64x64, .f32⟩
  | .hbm, ⟨34, _⟩ => ⟨S64x64, .f32⟩
  | .hbm, ⟨35, _⟩ => ⟨S32x64, .f32⟩
  | .hbm, ⟨36, _⟩ => ⟨S64x32, .f32⟩
  | .hbm, ⟨37, _⟩ => ⟨S64x1, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x1, .f32⟩
  | .hbm, ⟨43, _⟩ => ⟨S64x19683, .f32⟩
  | .hbm, ⟨44, _⟩ => ⟨S3x19683, .f32⟩
  | .hbm, ⟨45, _⟩ => ⟨S19683x64, .f32⟩
  | .hbm, ⟨46, _⟩ => ⟨S19683x3, .f32⟩
  | .local _ .vmem, ⟨0, _⟩ => ⟨S26x64x2048, .f32⟩
  | .local _ .vmem, ⟨1, _⟩ => ⟨S26x64x2048, .f32⟩
  | .local _ .vmem, ⟨2, _⟩ => ⟨S64x2048, .f32⟩
  | .local _ .vmem, ⟨3, _⟩ => ⟨S64x2048, .f32⟩
  | .local _ .vmem, ⟨4, _⟩ => ⟨S32x64, .f32⟩
  | .local _ .vmem, ⟨5, _⟩ => ⟨S32x64, .f32⟩
  | .local _ .vmem, ⟨6, _⟩ => ⟨S32x1, .f32⟩
  | .local _ .vmem, ⟨7, _⟩ => ⟨S3x32, .f32⟩
  | .local _ .vmem, ⟨8, _⟩ => ⟨S3x1, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S32x64, .f32⟩
  | .local _ .vmem, ⟨13, _⟩ => ⟨S32x64, .f32⟩
  | .local _ .vmem, ⟨14, _⟩ => ⟨S32x1, .f32⟩
  | .local _ .vmem, ⟨15, _⟩ => ⟨S64x64, .f32⟩
  | .local _ .vmem, ⟨16, _⟩ => ⟨S64x32, .f32⟩
  | .local _ .vmem, ⟨17, _⟩ => ⟨S64x1, .f32⟩
  | .local _ .vmem, ⟨18, _⟩ => ⟨S64x64, .f32⟩
  | .local _ .vmem, ⟨19, _⟩ => ⟨S64x64, .f32⟩
  | .local _ .vmem, ⟨20, _⟩ => ⟨S64x1, .f32⟩
  | .local _ .vmem, ⟨21, _⟩ => ⟨S64x2048, .f32⟩
  | .local _ .vmem, ⟨22, _⟩ => ⟨S64x2048, .f32⟩
  | .local _ .vmem, ⟨23, _⟩ => ⟨S3x2048, .f32⟩
  | .local _ .vmem, ⟨24, _⟩ => ⟨S3x2048, .f32⟩
  | _, _ => ⟨S19683x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29_0 : Ref sig .tc := ⟨.hbm, 43, rfl⟩
abbrev main_call0_v29_1 : Ref sig .tc := ⟨.hbm, 44, rfl⟩
abbrev main_v0_0 : Ref sig .tc := ⟨.hbm, 45, rfl⟩
abbrev main_v0_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S26x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S64x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S3x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  transposes_S19683x26x64_S26x64x19683_1_2_0 : S19683x26x64.Transposes [1, 2, 0] S26x64x19683
  transposes_S19683x64_S64x19683_1_0 : S19683x64.Transposes [1, 0] S64x19683
  slices_S128x32_S64x32_0_0 : S128x32.Slices ![0, 0] S64x32
  transposes_S64x32_S32x64_1_0 : S64x32.Transposes [1, 0] S32x64
  slices_S128x32_S64x32_64_0 : S128x32.Slices ![64, 0] S64x32
  shapeCasts_S32_S32x1 : S32.ShapeCasts S32x1
  transposes_S32x3_S3x32_1_0 : S32x3.Transposes [1, 0] S3x32
  shapeCasts_S3_S3x1 : S3.ShapeCasts S3x1
  slices_S128x64_S64x64_0_0 : S128x64.Slices ![0, 0] S64x64
  transposes_S64x64_S64x64_1_0 : S64x64.Transposes [1, 0] S64x64
  slices_S128x64_S64x64_64_0 : S128x64.Slices ![64, 0] S64x64
  shapeCasts_S64_S64x1 : S64.ShapeCasts S64x1
  slices_S96x64_S64x64_0_0 : S96x64.Slices ![0, 0] S64x64
  slices_S96x64_S32x64_64_0 : S96x64.Slices ![64, 0] S32x64
  transposes_S32x64_S64x32_1_0 : S32x64.Transposes [1, 0] S64x32
  transposes_S64x19683_S19683x64_1_0 : S64x19683.Transposes [1, 0] S19683x64
  transposes_S3x19683_S19683x3_1_0 : S3x19683.Transposes [1, 0] S19683x3
  inb_S26x64x2048_S1x64x2048_0_0_0 : ∀ a, (![0, 0, 0] : Fin 3 → Nat) a + S1x64x2048.size a ≤ S26x64x2048.size a
  h_S1x64x2048 : 0 < S1x64x2048.numel
  shapeCasts_S1x64x2048_S64x2048 : S1x64x2048.ShapeCasts S64x2048
  inb_S26x64x2048_S1x64x2048_1_0_0 : ∀ a, (![1, 0, 0] : Fin 3 → Nat) a + S1x64x2048.size a ≤ S26x64x2048.size a
  inb_S26x64x2048_S1x64x2048_2_0_0 : ∀ a, (![2, 0, 0] : Fin 3 → Nat) a + S1x64x2048.size a ≤ S26x64x2048.size a
  inb_S26x64x2048_S1x64x2048_3_0_0 : ∀ a, (![3, 0, 0] : Fin 3 → Nat) a + S1x64x2048.size a ≤ S26x64x2048.size a
  inb_S26x64x2048_S1x64x2048_4_0_0 : ∀ a, (![4, 0, 0] : Fin 3 → Nat) a + S1x64x2048.size a ≤ S26x64x2048.size a
  inb_S26x64x2048_S1x64x2048_5_0_0 : ∀ a, (![5, 0, 0] : Fin 3 → Nat) a + S1x64x2048.size a ≤ S26x64x2048.size a
  inb_S26x64x2048_S1x64x2048_6_0_0 : ∀ a, (![6, 0, 0] : Fin 3 → Nat) a + S1x64x2048.size a ≤ S26x64x2048.size a
  inb_S26x64x2048_S1x64x2048_7_0_0 : ∀ a, (![7, 0, 0] : Fin 3 → Nat) a + S1x64x2048.size a ≤ S26x64x2048.size a
  inb_S26x64x2048_S1x64x2048_8_0_0 : ∀ a, (![8, 0, 0] : Fin 3 → Nat) a + S1x64x2048.size a ≤ S26x64x2048.size a
  inb_S26x64x2048_S1x64x2048_9_0_0 : ∀ a, (![9, 0, 0] : Fin 3 → Nat) a + S1x64x2048.size a ≤ S26x64x2048.size a
  inb_S26x64x2048_S1x64x2048_10_0_0 : ∀ a, (![10, 0, 0] : Fin 3 → Nat) a + S1x64x2048.size a ≤ S26x64x2048.size a
  inb_S26x64x2048_S1x64x2048_11_0_0 : ∀ a, (![11, 0, 0] : Fin 3 → Nat) a + S1x64x2048.size a ≤ S26x64x2048.size a
  inb_S26x64x2048_S1x64x2048_12_0_0 : ∀ a, (![12, 0, 0] : Fin 3 → Nat) a + S1x64x2048.size a ≤ S26x64x2048.size a
  inb_S26x64x2048_S1x64x2048_13_0_0 : ∀ a, (![13, 0, 0] : Fin 3 → Nat) a + S1x64x2048.size a ≤ S26x64x2048.size a
  inb_S26x64x2048_S1x64x2048_14_0_0 : ∀ a, (![14, 0, 0] : Fin 3 → Nat) a + S1x64x2048.size a ≤ S26x64x2048.size a
  inb_S26x64x2048_S1x64x2048_15_0_0 : ∀ a, (![15, 0, 0] : Fin 3 → Nat) a + S1x64x2048.size a ≤ S26x64x2048.size a
  inb_S26x64x2048_S1x64x2048_16_0_0 : ∀ a, (![16, 0, 0] : Fin 3 → Nat) a + S1x64x2048.size a ≤ S26x64x2048.size a
  inb_S26x64x2048_S1x64x2048_17_0_0 : ∀ a, (![17, 0, 0] : Fin 3 → Nat) a + S1x64x2048.size a ≤ S26x64x2048.size a
  inb_S26x64x2048_S1x64x2048_18_0_0 : ∀ a, (![18, 0, 0] : Fin 3 → Nat) a + S1x64x2048.size a ≤ S26x64x2048.size a
  inb_S26x64x2048_S1x64x2048_19_0_0 : ∀ a, (![19, 0, 0] : Fin 3 → Nat) a + S1x64x2048.size a ≤ S26x64x2048.size a
  inb_S26x64x2048_S1x64x2048_20_0_0 : ∀ a, (![20, 0, 0] : Fin 3 → Nat) a + S1x64x2048.size a ≤ S26x64x2048.size a
  inb_S26x64x2048_S1x64x2048_21_0_0 : ∀ a, (![21, 0, 0] : Fin 3 → Nat) a + S1x64x2048.size a ≤ S26x64x2048.size a
  inb_S26x64x2048_S1x64x2048_22_0_0 : ∀ a, (![22, 0, 0] : Fin 3 → Nat) a + S1x64x2048.size a ≤ S26x64x2048.size a
  inb_S26x64x2048_S1x64x2048_23_0_0 : ∀ a, (![23, 0, 0] : Fin 3 → Nat) a + S1x64x2048.size a ≤ S26x64x2048.size a
  inb_S26x64x2048_S1x64x2048_24_0_0 : ∀ a, (![24, 0, 0] : Fin 3 → Nat) a + S1x64x2048.size a ≤ S26x64x2048.size a
  inb_S26x64x2048_S1x64x2048_25_0_0 : ∀ a, (![25, 0, 0] : Fin 3 → Nat) a + S1x64x2048.size a ≤ S26x64x2048.size a
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x2048 : S3x1.Broadcasts S3x2048
  reduces_S3x2048_S2048 : S3x2048.Reduces [0] S2048
  shapeCasts_S2048_S1x2048 : S2048.ShapeCasts S1x2048
  broadcasts_S1x2048_S3x2048 : S1x2048.Broadcasts S3x2048
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S64x32_S64x32_0_0 : ∀ a, (![0, 0] : Fin 2 → Nat) a + S64x32.size a ≤ S64x32.size a
  h_S64x32 : 0 < S64x32.numel
  shapeCasts_S64x32_S64x32 : S64x32.ShapeCasts S64x32
  slices_S3x2048_o0_0_S1x2048 : S3x2048.Slices ![0, 0] S1x2048
  broadcasts_S1x2048_S64x2048 : S1x2048.Broadcasts S64x2048
  slices_S3x2048_o1_0_S1x2048 : S3x2048.Slices ![1, 0] S1x2048
  slices_S3x2048_o2_0_S1x2048 : S3x2048.Slices ![2, 0] S1x2048
  inb_S3x2048_S3x2048_0_0 : ∀ a, (![0, 0] : Fin 2 → Nat) a + S3x2048.size a ≤ S3x2048.size a
  h_S3x2048 : 0 < S3x2048.numel
  dot_S32x64_S64x2048_S32x2048_1_0_0_1_n_n_wf : DotDims.WF S32x64 S64x2048 S32x2048 [1] [0] [0] [1] [] []
  dot_S3x32_S32x2048_S3x2048_1_0_0_1_n_n_wf : DotDims.WF S3x32 S32x2048 S3x2048 [1] [0] [0] [1] [] []
  dot_S64x64_S64x2048_S64x2048_1_0_0_1_n_n_wf : DotDims.WF S64x64 S64x2048 S64x2048 [1] [0] [0] [1] [] []
  dot_S64x32_S32x2048_S64x2048_1_0_0_1_n_n_wf : DotDims.WF S64x32 S32x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S26x64x2048.size a < S26x64x19683.size a
  hwx0_0 : ∀ i : grid0.Coords, EltTy.bits .f32 = 32 ∨ (Rect.unit (s := S26x64x19683) (fun a => cc0_transform_0 i a * S26x64x2048.size a) (fun a => (Pipeline.Clip.of (cc0_transform_0 i a) (S26x64x2048.size a) (S26x64x19683.size a)).extent (S26x64x2048.size a)) fun a => Pipeline.Clip.inb (Pipeline.Clip.ok_of (hstart0_0 i a))).WholeWords (EltTy.packing .f32)
  hwxs0_0 : ∀ i : grid0.Coords, EltTy.bits .f32 = 32 ∨ (Rect.unit (s := S26x64x2048) (fun _ => 0) (fun a => (Pipeline.Clip.of (cc0_transform_0 i a) (S26x64x2048.size a) (S26x64x19683.size a)).extent (S26x64x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x2048.size a < S64x19683.size a
  hwx0_1 : ∀ i : grid0.Coords, EltTy.bits .f32 = 32 ∨ (Rect.unit (s := S64x19683) (fun a => cc0_transform_1 i a * S64x2048.size a) (fun a => (Pipeline.Clip.of (cc0_transform_1 i a) (S64x2048.size a) (S64x19683.size a)).extent (S64x2048.size a)) fun a => Pipeline.Clip.inb (Pipeline.Clip.ok_of (hstart0_1 i a))).WholeWords (EltTy.packing .f32)
  hwxs0_1 : ∀ i : grid0.Coords, EltTy.bits .f32 = 32 ∨ (Rect.unit (s := S64x2048) (fun _ => 0) (fun a => (Pipeline.Clip.of (cc0_transform_1 i a) (S64x2048.size a) (S64x19683.size a)).extent (S64x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .f32 = 32 ∨ (Rect.block (s := S3x32) S3x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x64.size a ≤ S32x64.size a
  hwx0_10 : ∀ i : grid0.Coords, EltTy.bits .f32 = 32 ∨ (Rect.block (s := S32x64) S32x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x64.size a ≤ S32x64.size a
  hwx0_11 : ∀ i : grid0.Coords, EltTy.bits .f32 = 32 ∨ (Rect.block (s := S32x64) S32x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1.size a ≤ S32x1.size a
  hwx0_12 : ∀ i : grid0.Coords, EltTy.bits .f32 = 32 ∨ (Rect.block (s := S32x1) S32x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .f32 = 32 ∨ (Rect.block (s := S64x64) S64x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x32.size a ≤ S64x32.size a
  hwx0_14 : ∀ i : grid0.Coords, EltTy.bits .f32 = 32 ∨ (Rect.block (s := S64x32) S64x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x1.size a ≤ S64x1.size a
  hwx0_15 : ∀ i : grid0.Coords, EltTy.bits .f32 = 32 ∨ (Rect.block (s := S64x1) S64x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x64.size a ≤ S64x64.size a
  hwx0_16 : ∀ i : grid0.Coords, EltTy.bits .f32 = 32 ∨ (Rect.block (s := S64x64) S64x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .f32 = 32 ∨ (Rect.block (s := S64x64) S64x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x1.size a ≤ S64x1.size a
  hwx0_18 : ∀ i : grid0.Coords, EltTy.bits .f32 = 32 ∨ (Rect.block (s := S64x1) S64x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hstart0_19 : ∀ (i : grid0.Coords) a, cc0_transform_19 i a * S64x2048.size a < S64x19683.size a
  hwx0_19 : ∀ i : grid0.Coords, EltTy.bits .f32 = 32 ∨ (Rect.unit (s := S64x19683) (fun a => cc0_transform_19 i a * S64x2048.size a) (fun a => (Pipeline.Clip.of (cc0_transform_19 i a) (S64x2048.size a) (S64x19683.size a)).extent (S64x2048.size a)) fun a => Pipeline.Clip.inb (Pipeline.Clip.ok_of (hstart0_19 i a))).WholeWords (EltTy.packing .f32)
  hwxs0_19 : ∀ i : grid0.Coords, EltTy.bits .f32 = 32 ∨ (Rect.unit (s := S64x2048) (fun _ => 0) (fun a => (Pipeline.Clip.of (cc0_transform_19 i a) (S64x2048.size a) (S64x19683.size a)).extent (S64x2048.size a)) fun a => (Nat.zero_add _).trans_le (Pipeline.Clip.extent_le (Pipeline.Clip.ok_of (hstart0_19 i a)))).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hstart0_20 : ∀ (i : grid0.Coords) a, cc0_transform_20 i a * S3x2048.size a < S3x19683.size a
  hwx0_20 : ∀ i : grid0.Coords, EltTy.bits .f32 = 32 ∨ (Rect.unit (s := S3x19683) (fun a => cc0_transform_20 i a * S3x2048.size a) (fun a => (Pipeline.Clip.of (cc0_transform_20 i a) (S3x2048.size a) (S3x19683.size a)).extent (S3x2048.size a)) fun a => Pipeline.Clip.inb (Pipeline.Clip.ok_of (hstart0_20 i a))).WholeWords (EltTy.packing .f32)
  hwxs0_20 : ∀ i : grid0.Coords, EltTy.bits .f32 = 32 ∨ (Rect.unit (s := S3x2048) (fun _ => 0) (fun a => (Pipeline.Clip.of (cc0_transform_20 i a) (S3x2048.size a) (S3x19683.size a)).extent (S3x2048.size a)) fun a => (Nat.zero_add _).trans_le (Pipeline.Clip.extent_le (Pipeline.Clip.ok_of (hstart0_20 i a)))).WholeWords (EltTy.packing .f32)

variable [Facts₀]

def dot_S32x64_S64x2048_S32x2048_1_0_0_1_n_n : DotDims S32x64 S64x2048 S32x2048 where
  lhsContracting := [1]
  rhsContracting := [0]
  lhsNonContracting := [0]
  rhsNonContracting := [1]
  lhsBatch := []
  rhsBatch := []
  wf := dot_S32x64_S64x2048_S32x2048_1_0_0_1_n_n_wf
def dot_S3x32_S32x2048_S3x2048_1_0_0_1_n_n : DotDims S3x32 S32x2048 S3x2048 where
  lhsContracting := [1]
  rhsContracting := [0]
  lhsNonContracting := [0]
  rhsNonContracting := [1]
  lhsBatch := []
  rhsBatch := []
  wf := dot_S3x32_S32x2048_S3x2048_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S64x32_S32x2048_S64x2048_1_0_0_1_n_n : DotDims S64x32 S32x2048 S64x2048 where
  lhsContracting := [1]
  rhsContracting := [0]
  lhsNonContracting := [0]
  rhsNonContracting := [1]
  lhsBatch := []
  rhsBatch := []
  wf := dot_S64x32_S32x2048_S64x2048_1_0_0_1_n_n_wf

abbrev win0_0 : Pipeline.Window sig grid0 :=
  Pipeline.Window.ofSpecClip (Memref.whole main_call0_v0) S26x64x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S64x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v10) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v12) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v13) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v15) S32x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v17) S32x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v18) S32x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v20) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v22) S64x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v23) S64x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v25) S64x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_call0_v27) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_call0_v28) S64x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpecClip (Memref.whole main_call0_v29_0) S64x2048.size cc0_transform_19 reads0_19 true false 2 stage0_19 sem0_19
    hrank0 hreads0_19 hstart0_19 nbuf0_19 (Memref.isWhole_whole _) hwx0_19 hwxs0_19 hstage0_19

abbrev win0_20 : Pipeline.Window sig grid0 :=
  Pipeline.Window.ofSpecClip (Memref.whole main_call0_v29_1) S3x2048.size cc0_transform_20 reads0_20 true false 2 stage0_20 sem0_20
    hrank0 hreads0_20 hstart0_20 nbuf0_20 (Memref.isWhole_whole _) hwx0_20 hwxs0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S19683x64 : Shape := ⟨2, ![19683, 64]⟩
abbrev S19683x26x64 : Shape := ⟨3, ![19683, 26, 64]⟩
abbrev S128x32 : Shape := ⟨2, ![128, 32]⟩
abbrev S32 : Shape := ⟨1, ![32]⟩
abbrev S32x3 : Shape := ⟨2, ![32, 3]⟩
abbrev S3 : Shape := ⟨1, ![3]⟩
abbrev S128x64 : Shape := ⟨2, ![128, 64]⟩
abbrev S64 : Shape := ⟨1, ![64]⟩
abbrev S96x64 : Shape := ⟨2, ![96, 64]⟩
abbrev S_ : Shape := ⟨0, ![]⟩
abbrev S19683x128 : Shape := ⟨2, ![19683, 128]⟩
abbrev S19683x32 : Shape := ⟨2, ![19683, 32]⟩
abbrev S1x32 : Shape := ⟨2, ![1, 32]⟩
abbrev S19683x3 : Shape := ⟨2, ![19683, 3]⟩
abbrev S1x3 : Shape := ⟨2, ![1, 3]⟩
abbrev S19683 : Shape := ⟨1, ![19683]⟩
abbrev S19683x1 : Shape := ⟨2, ![19683, 1]⟩
abbrev S1x64 : Shape := ⟨2, ![1, 64]⟩
abbrev S19683x96 : Shape := ⟨2, ![19683, 96]⟩

abbrev nBuf : Space → Nat
  | .hbm => 100
  | .vmem => 0
  | .smem => 0
  | _ => 0

abbrev bufTy : (tb : Table) → Fin (tcTables nBuf tb) → BufTy
  | .hbm, ⟨0, _⟩ => ⟨S19683x64, .f32⟩
  | .hbm, ⟨1, _⟩ => ⟨S19683x26x64, .f32⟩
  | .hbm, ⟨2, _⟩ => ⟨S128x32, .f32⟩
  | .hbm, ⟨3, _⟩ => ⟨S32, .f32⟩
  | .hbm, ⟨4, _⟩ => ⟨S32x3, .f32⟩
  | .hbm, ⟨5, _⟩ => ⟨S3, .f32⟩
  | .hbm, ⟨6, _⟩ => ⟨S128x64, .f32⟩
  | .hbm, ⟨7, _⟩ => ⟨S64, .f32⟩
  | .hbm, ⟨8, _⟩ => ⟨S128x32, .f32⟩
  | .hbm, ⟨9, _⟩ => ⟨S32, .f32⟩
  | .hbm, ⟨10, _⟩ => ⟨S96x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S_, .f32⟩
  | .hbm, ⟨15, _⟩ => ⟨S19683x64, .f32⟩
  | .hbm, ⟨16, _⟩ => ⟨S_, .f32⟩
  | .hbm, ⟨17, _⟩ => ⟨S19683x64, .f32⟩
  | .hbm, ⟨18, _⟩ => ⟨S19683x64, .f32⟩
  | .hbm, ⟨19, _⟩ => ⟨S19683x128, .f32⟩
  | .hbm, ⟨20, _⟩ => ⟨S19683x32, .f32⟩
  | .hbm, ⟨21, _⟩ => ⟨S1x32, .f32⟩
  | .hbm, ⟨22, _⟩ => ⟨S19683x32, .f32⟩
  | .hbm, ⟨23, _⟩ => ⟨S19683x32, .f32⟩
  | .hbm, ⟨24, _⟩ => ⟨S19683x32, .f32⟩
  | .hbm, ⟨25, _⟩ => ⟨S19683x3, .f32⟩
  | .hbm, ⟨26, _⟩ => ⟨S1x3, .f32⟩
  | .hbm, ⟨27, _⟩ => ⟨S19683x3, .f32⟩
  | .hbm, ⟨28, _⟩ => ⟨S19683x3, .f32⟩
  | .hbm, ⟨29, _⟩ => ⟨S_, .f32⟩
  | .hbm, ⟨30, _⟩ => ⟨S19683, .f32⟩
  | .hbm, ⟨31, _⟩ => ⟨S_, .f32⟩
  | .hbm, ⟨32, _⟩ => ⟨S19683, .f32⟩
  | .hbm, ⟨33, _⟩ => ⟨S19683, .f32⟩
  | .hbm, ⟨34, _⟩ => ⟨S19683x1, .f32⟩
  | .hbm, ⟨35, _⟩ => ⟨S19683x3, .f32⟩
  | .hbm, ⟨36, _⟩ => ⟨S19683x3, .f32⟩
  | .hbm, ⟨37, _⟩ => ⟨S19683x3, .f32⟩
  | .hbm, ⟨38, _⟩ => ⟨S_, .f32⟩
  | .hbm, ⟨39, _⟩ => ⟨S19683, .f32⟩
  | .hbm, ⟨40, _⟩ => ⟨S19683x1, .f32⟩
  | .hbm, ⟨41, _⟩ => ⟨S19683x3, .f32⟩
  | .hbm, ⟨42, _⟩ => ⟨S19683x3, .f32⟩
  | .hbm, ⟨43, _⟩ => ⟨S19683x64, .f32⟩
  | .hbm, ⟨44, _⟩ => ⟨S1x64, .f32⟩
  | .hbm, ⟨45, _⟩ => ⟨S19683x64, .f32⟩
  | .hbm, ⟨46, _⟩ => ⟨S19683x64, .f32⟩
  | .hbm, ⟨47, _⟩ => ⟨S19683x64, .f32⟩
  | .hbm, ⟨48, _⟩ => ⟨S19683x32, .f32⟩
  | .hbm, ⟨49, _⟩ => ⟨S1x32, .f32⟩
  | .hbm, ⟨50, _⟩ => ⟨S19683x32, .f32⟩
  | .hbm, ⟨51, _⟩ => ⟨S19683x32, .f32⟩
  | .hbm, ⟨52, _⟩ => ⟨S19683x32, .f32⟩
  | .hbm, ⟨53, _⟩ => ⟨S19683x96, .f32⟩
  | .hbm, ⟨54, _⟩ => ⟨S19683x64, .f32⟩
  | .hbm, ⟨55, _⟩ => ⟨S1x64, .f32⟩
  | .hbm, ⟨56, _⟩ => ⟨S19683x64, .f32⟩
  | .hbm, ⟨57, _⟩ => ⟨S19683x64, .f32⟩
  | .hbm, ⟨58, _⟩ => ⟨S19683x64, .f32⟩
  | .hbm, ⟨59, _⟩ => ⟨S19683x128, .f32⟩
  | .hbm, ⟨60, _⟩ => ⟨S19683x64, .f32⟩
  | .hbm, ⟨61, _⟩ => ⟨S1x64, .f32⟩
  | .hbm, ⟨62, _⟩ => ⟨S19683x64, .f32⟩
  | .hbm, ⟨63, _⟩ => ⟨S19683x64, .f32⟩
  | .hbm, ⟨64, _⟩ => ⟨S19683x64, .f32⟩
  | .hbm, ⟨65, _⟩ => ⟨S_, .f32⟩
  | .hbm, ⟨66, _⟩ => ⟨S19683x64, .f32⟩
  | .hbm, ⟨67, _⟩ => ⟨S19683x64, .f32⟩
  | .hbm, ⟨68, _⟩ => ⟨S19683x64, .f32⟩
  | .hbm, ⟨69, _⟩ => ⟨S19683x128, .f32⟩
  | .hbm, ⟨70, _⟩ => ⟨S19683x64, .f32⟩
  | .hbm, ⟨71, _⟩ => ⟨S1x64, .f32⟩
  | .hbm, ⟨72, _⟩ => ⟨S19683x64, .f32⟩
  | .hbm, ⟨73, _⟩ => ⟨S19683x64, .f32⟩
  | .hbm, ⟨74, _⟩ => ⟨S19683x64, .f32⟩
  | .hbm, ⟨75, _⟩ => ⟨S_, .f32⟩
  | .hbm, ⟨76, _⟩ => ⟨S19683x64, .f32⟩
  | .hbm, ⟨77, _⟩ => ⟨S19683x64, .f32⟩
  | .hbm, ⟨78, _⟩ => ⟨S19683x64, .f32⟩
  | .hbm, ⟨79, _⟩ => ⟨S19683x128, .f32⟩
  | .hbm, ⟨80, _⟩ => ⟨S19683x64, .f32⟩
  | .hbm, ⟨81, _⟩ => ⟨S1x64, .f32⟩
  | .hbm, ⟨82, _⟩ => ⟨S19683x64, .f32⟩
  | .hbm, ⟨83, _⟩ => ⟨S19683x64, .f32⟩
  | .hbm, ⟨84, _⟩ => ⟨S19683x64, .f32⟩
  | .hbm, ⟨85, _⟩ => ⟨S_, .f32⟩
  | .hbm, ⟨86, _⟩ => ⟨S19683x64, .f32⟩
  | .hbm, ⟨87, _⟩ => ⟨S19683x64, .f32⟩
  | .hbm, ⟨88, _⟩ => ⟨S19683x64, .f32⟩
  | .hbm, ⟨89, _⟩ => ⟨S19683x1, .f32⟩
  | .hbm, ⟨90, _⟩ => ⟨S19683x64, .f32⟩
  | .hbm, ⟨91, _⟩ => ⟨S19683x64, .f32⟩
  | .hbm, ⟨92, _⟩ => ⟨S19683x1, .f32⟩
  | .hbm, ⟨93, _⟩ => ⟨S19683x64, .f32⟩
  | .hbm, ⟨94, _⟩ => ⟨S19683x64, .f32⟩
  | .hbm, ⟨95, _⟩ => ⟨S19683x64, .f32⟩
  | .hbm, ⟨96, _⟩ => ⟨S19683x1, .f32⟩
  | .hbm, ⟨97, _⟩ => ⟨S19683x64, .f32⟩
  | .hbm, ⟨98, _⟩ => ⟨S19683x64, .f32⟩
  | .hbm, ⟨99, _⟩ => ⟨S19683x64, .f32⟩
  | _, _ => ⟨S19683x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]

class Facts₀ : Prop where
  reducesTo_S19683x26x64_S19683x64_d1 : S19683x26x64.ReducesTo [1] S19683x64
  h_S_ : 0 < S_.numel
  bcast_S_S19683x64 : S_.BroadcastsInDim S19683x64 (![] : Fin 0 → Fin S19683x64.rank)
  concatenates_S19683x64_S19683x64_S19683x128_d1 : Shape.Concatenates [S19683x64, S19683x64] S19683x128 1
  bcast_S32_S1x32_1 : S32.BroadcastsInDim S1x32 (![1] : Fin 1 → Fin S1x32.rank)
  bcast_S1x32_S19683x32_0_1 : S1x32.BroadcastsInDim S19683x32 (![0, 1] : Fin 2 → Fin S19683x32.rank)
  bcast_S3_S1x3_1 : S3.BroadcastsInDim S1x3 (![1] : Fin 1 → Fin S1x3.rank)
  bcast_S1x3_S19683x3_0_1 : S1x3.BroadcastsInDim S19683x3 (![0, 1] : Fin 2 → Fin S19683x3.rank)
  reducesTo_S19683x3_S19683_d1 : S19683x3.ReducesTo [1] S19683
  bcast_S_S19683 : S_.BroadcastsInDim S19683 (![] : Fin 0 → Fin S19683.rank)
  bcast_S19683_S19683x1_0 : S19683.BroadcastsInDim S19683x1 (![0] : Fin 1 → Fin S19683x1.rank)
  bcast_S19683x1_S19683x3_0_1 : S19683x1.BroadcastsInDim S19683x3 (![0, 1] : Fin 2 → Fin S19683x3.rank)
  bcast_S64_S1x64_1 : S64.BroadcastsInDim S1x64 (![1] : Fin 1 → Fin S1x64.rank)
  bcast_S1x64_S19683x64_0_1 : S1x64.BroadcastsInDim S19683x64 (![0, 1] : Fin 2 → Fin S19683x64.rank)
  concatenates_S19683x64_S19683x32_S19683x96_d1 : Shape.Concatenates [S19683x64, S19683x32] S19683x96 1
  slices_S19683x3_S19683x1_0_0 : S19683x3.Slices ![0, 0] S19683x1
  bcast_S19683x1_S19683x64_0_1 : S19683x1.BroadcastsInDim S19683x64 (![0, 1] : Fin 2 → Fin S19683x64.rank)
  slices_S19683x3_S19683x1_0_1 : S19683x3.Slices ![0, 1] S19683x1
  slices_S19683x3_S19683x1_0_2 : S19683x3.Slices ![0, 2] S19683x1
  dot_S19683x128_S128x32_S19683x32_1_0_0_1_n_n_wf : DotDims.WF S19683x128 S128x32 S19683x32 [1] [0] [0] [1] [] []
  dot_S19683x32_S32x3_S19683x3_1_0_0_1_n_n_wf : DotDims.WF S19683x32 S32x3 S19683x3 [1] [0] [0] [1] [] []
  dot_S19683x128_S128x64_S19683x64_1_0_0_1_n_n_wf : DotDims.WF S19683x128 S128x64 S19683x64 [1] [0] [0] [1] [] []
  dot_S19683x96_S96x64_S19683x64_1_0_0_1_n_n_wf : DotDims.WF S19683x96 S96x64 S19683x64 [1] [0] [0] [1] [] []

variable [Facts₀]

def dot_S19683x128_S128x32_S19683x32_1_0_0_1_n_n : DotDims S19683x128 S128x32 S19683x32 where
  lhsContracting := [1]
  rhsContracting := [0]
  lhsNonContracting := [0]
  rhsNonContracting := [1]
  lhsBatch := []
  rhsBatch := []
  wf := dot_S19683x128_S128x32_S19683x32_1_0_0_1_n_n_wf
def dot_S19683x32_S32x3_S19683x3_1_0_0_1_n_n : DotDims S19683x32 S32x3 S19683x3 where
  lhsContracting := [1]
  rhsContracting := [0]
  lhsNonContracting := [0]
  rhsNonContracting := [1]
  lhsBatch := []
  rhsBatch := []
  wf := dot_S19683x32_S32x3_S19683x3_1_0_0_1_n_n_wf
def dot_S19683x128_S128x64_S19683x64_1_0_0_1_n_n : DotDims S19683x128 S128x64 S19683x64 where
  lhsContracting := [1]
  rhsContracting := [0]
  lhsNonContracting := [0]
  rhsNonContracting := [1]
  lhsBatch := []
  rhsBatch := []
  wf := dot_S19683x128_S128x64_S19683x64_1_0_0_1_n_n_wf
def dot_S19683x96_S96x64_S19683x64_1_0_0_1_n_n : DotDims S19683x96 S96x64 S19683x64 where
  lhsContracting := [1]
  rhsContracting := [0]
  lhsNonContracting := [0]
  rhsNonContracting := [1]
  lhsBatch := []
  rhsBatch := []
  wf := dot_S19683x96_S96x64_S19683x64_1_0_0_1_n_n_wf

class Facts : Prop extends Facts₀ where

variable [Facts]
-- ==== Proof.BitsBlock.lean ====
/-
  One grid step of the cell update, as a pure function of the blocks the step holds.

  A step holds a block of 2048 cells laid along the lanes: the neighbours' states `[26, 64, 2048]`, the cells' states
  `[64, 2048]`, and the seventeen weight blocks (each matrix half `[out, in]`, each bias a column). It reads the 26
  neighbour slabs one by one and adds them in order, scales the sum to the mean, applies the three experts and the
  gate, and stores the mixed state `[64, 2048]` and the gate weights `[3, 2048]`, each whole. `mixBlock` and
  `gateBlock` name what those two stores hold as functions of the nineteen input blocks.
  Nothing here depends on which numbers the floats are: it is stated for every reading of the float operations.
-/
import proofs.«168256_g38233798869014_cont_8to1_b_1562_16_alg».proof.Proof.Gen.Kernel.Skeleton
import proofs.«168256_g38233798869014_cont_8to1_b_1562_16_alg».proof.Proof.Gen.Kernel.Launch
import proofs.«168256_g38233798869014_cont_8to1_b_1562_16_alg».proof.Proof.Gen.Kernel.Points
import proofs.«168256_g38233798869014_cont_8to1_b_1562_16_alg».proof.Proof.Gen.Kernel.Frame
import Idealize.ShloMosaic.Lib.Pipeline.FrameBody
import Idealize.ShloMosaic.Lib.Pipeline.FrameSuffix
import Idealize.ShloMosaic.Lib.Tactic

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the step reads and writes -/

/-- Neighbour `k`'s slab of the neighbours' block: `[1, 64, 2048]` at offset `(k, 0, 0)`. -/
abbrev slab0 : Rect S26x64x2048 := Rect.unit (s := S26x64x2048) ![0, 0, 0] S1x64x2048.size inb_S26x64x2048_S1x64x2048_0_0_0
abbrev slab1 : Rect S26x64x2048 := Rect.unit (s := S26x64x2048) ![1, 0, 0] S1x64x2048.size inb_S26x64x2048_S1x64x2048_1_0_0
abbrev slab2 : Rect S26x64x2048 := Rect.unit (s := S26x64x2048) ![2, 0, 0] S1x64x2048.size inb_S26x64x2048_S1x64x2048_2_0_0
abbrev slab3 : Rect S26x64x2048 := Rect.unit (s := S26x64x2048) ![3, 0, 0] S1x64x2048.size inb_S26x64x2048_S1x64x2048_3_0_0
abbrev slab4 : Rect S26x64x2048 := Rect.unit (s := S26x64x2048) ![4, 0, 0] S1x64x2048.size inb_S26x64x2048_S1x64x2048_4_0_0
abbrev slab5 : Rect S26x64x2048 := Rect.unit (s := S26x64x2048) ![5, 0, 0] S1x64x2048.size inb_S26x64x2048_S1x64x2048_5_0_0
abbrev slab6 : Rect S26x64x2048 := Rect.unit (s := S26x64x2048) ![6, 0, 0] S1x64x2048.size inb_S26x64x2048_S1x64x2048_6_0_0
abbrev slab7 : Rect S26x64x2048 := Rect.unit (s := S26x64x2048) ![7, 0, 0] S1x64x2048.size inb_S26x64x2048_S1x64x2048_7_0_0
abbrev slab8 : Rect S26x64x2048 := Rect.unit (s := S26x64x2048) ![8, 0, 0] S1x64x2048.size inb_S26x64x2048_S1x64x2048_8_0_0
abbrev slab9 : Rect S26x64x2048 := Rect.unit (s := S26x64x2048) ![9, 0, 0] S1x64x2048.size inb_S26x64x2048_S1x64x2048_9_0_0
abbrev slab10 : Rect S26x64x2048 := Rect.unit (s := S26x64x2048) ![10, 0, 0] S1x64x2048.size inb_S26x64x2048_S1x64x2048_10_0_0
abbrev slab11 : Rect S26x64x2048 := Rect.unit (s := S26x64x2048) ![11, 0, 0] S1x64x2048.size inb_S26x64x2048_S1x64x2048_11_0_0
abbrev slab12 : Rect S26x64x2048 := Rect.unit (s := S26x64x2048) ![12, 0, 0] S1x64x2048.size inb_S26x64x2048_S1x64x2048_12_0_0
abbrev slab13 : Rect S26x64x2048 := Rect.unit (s := S26x64x2048) ![13, 0, 0] S1x64x2048.size inb_S26x64x2048_S1x64x2048_13_0_0
abbrev slab14 : Rect S26x64x2048 := Rect.unit (s := S26x64x2048) ![14, 0, 0] S1x64x2048.size inb_S26x64x2048_S1x64x2048_14_0_0
abbrev slab15 : Rect S26x64x2048 := Rect.unit (s := S26x64x2048) ![15, 0, 0] S1x64x2048.size inb_S26x64x2048_S1x64x2048_15_0_0
abbrev slab16 : Rect S26x64x2048 := Rect.unit (s := S26x64x2048) ![16, 0, 0] S1x64x2048.size inb_S26x64x2048_S1x64x2048_16_0_0
abbrev slab17 : Rect S26x64x2048 := Rect.unit (s := S26x64x2048) ![17, 0, 0] S1x64x2048.size inb_S26x64x2048_S1x64x2048_17_0_0
abbrev slab18 : Rect S26x64x2048 := Rect.unit (s := S26x64x2048) ![18, 0, 0] S1x64x2048.size inb_S26x64x2048_S1x64x2048_18_0_0
abbrev slab19 : Rect S26x64x2048 := Rect.unit (s := S26x64x2048) ![19, 0, 0] S1x64x2048.size inb_S26x64x2048_S1x64x2048_19_0_0
abbrev slab20 : Rect S26x64x2048 := Rect.unit (s := S26x64x2048) ![20, 0, 0] S1x64x2048.size inb_S26x64x2048_S1x64x2048_20_0_0
abbrev slab21 : Rect S26x64x2048 := Rect.unit (s := S26x64x2048) ![21, 0, 0] S1x64x2048.size inb_S26x64x2048_S1x64x2048_21_0_0
abbrev slab22 : Rect S26x64x2048 := Rect.unit (s := S26x64x2048) ![22, 0, 0] S1x64x2048.size inb_S26x64x2048_S1x64x2048_22_0_0
abbrev slab23 : Rect S26x64x2048 := Rect.unit (s := S26x64x2048) ![23, 0, 0] S1x64x2048.size inb_S26x64x2048_S1x64x2048_23_0_0
abbrev slab24 : Rect S26x64x2048 := Rect.unit (s := S26x64x2048) ![24, 0, 0] S1x64x2048.size inb_S26x64x2048_S1x64x2048_24_0_0
abbrev slab25 : Rect S26x64x2048 := Rect.unit (s := S26x64x2048) ![25, 0, 0] S1x64x2048.size inb_S26x64x2048_S1x64x2048_25_0_0

/-- A block read or written whole. -/
abbrev whole_S64x2048 : Rect S64x2048 := Rect.unit (s := S64x2048) ![0, 0] S64x2048.size inb_S64x2048_S64x2048_0_0
abbrev whole_S32x64 : Rect S32x64 := Rect.unit (s := S32x64) ![0, 0] S32x64.size inb_S32x64_S32x64_0_0
abbrev whole_S32x1 : Rect S32x1 := Rect.unit (s := S32x1) ![0, 0] S32x1.size inb_S32x1_S32x1_0_0
abbrev whole_S3x32 : Rect S3x32 := Rect.unit (s := S3x32) ![0, 0] S3x32.size inb_S3x32_S3x32_0_0
abbrev whole_S3x1 : Rect S3x1 := Rect.unit (s := S3x1) ![0, 0] S3x1.size inb_S3x1_S3x1_0_0
abbrev whole_S64x64 : Rect S64x64 := Rect.unit (s := S64x64) ![0, 0] S64x64.size inb_S64x64_S64x64_0_0
abbrev whole_S64x1 : Rect S64x1 := Rect.unit (s := S64x1) ![0, 0] S64x1.size inb_S64x1_S64x1_0_0
abbrev whole_S64x32 : Rect S64x32 := Rect.unit (s := S64x32) ![0, 0] S64x32.size inb_S64x32_S64x32_0_0
abbrev whole_S3x2048 : Rect S3x2048 := Rect.unit (s := S3x2048) ![0, 0] S3x2048.size inb_S3x2048_S3x2048_0_0

/-! ## What the step computes, block by block -/

section Values
variable (x0 : Vec F S26x64x2048 .f32) (x1 : Vec F S64x2048 .f32) (x2 : Vec F S32x64 .f32) (x3 : Vec F S32x64 .f32) (x4 : Vec F S32x1 .f32) (x5 : Vec F S3x32 .f32) (x6 : Vec F S3x1 .f32) (x7 : Vec F S64x64 .f32) (x8 : Vec F S64x64 .f32) (x9 : Vec F S64x1 .f32) (x10 : Vec F S32x64 .f32) (x11 : Vec F S32x64 .f32) (x12 : Vec F S32x1 .f32) (x13 : Vec F S64x64 .f32) (x14 : Vec F S64x32 .f32) (x15 : Vec F S64x1 .f32) (x16 : Vec F S64x64 .f32) (x17 : Vec F S64x64 .f32) (x18 : Vec F S64x1 .f32)

/-- The first ten neighbours added in order. -/
def sumTo10 : FVec F S64x2048 .f32 := k0_pay2 (View.ld x0 (slab0)) (View.ld x0 (slab1)) (View.ld x0 (slab2)) (View.ld x0 (slab3)) (View.ld x0 (slab4)) (View.ld x0 (slab5)) (View.ld x0 (slab6)) (View.ld x0 (slab7)) (View.ld x0 (slab8)) (View.ld x0 (slab9))
/-- The first twenty. -/
def sumTo20 : FVec F S64x2048 .f32 := k0_pay3 (sumTo10 x0) (View.ld x0 (slab10)) (View.ld x0 (slab11)) (View.ld x0 (slab12)) (View.ld x0 (slab13)) (View.ld x0 (slab14)) (View.ld x0 (slab15)) (View.ld x0 (slab16)) (View.ld x0 (slab17)) (View.ld x0 (slab18)) (View.ld x0 (slab19))
/-- All 26, scaled to their mean. -/
def meanBlock : FVec F S64x2048 .f32 := k0_pay4 (sumTo20 x0) (View.ld x0 (slab20)) (View.ld x0 (slab21)) (View.ld x0 (slab22)) (View.ld x0 (slab23)) (View.ld x0 (slab24)) (View.ld x0 (slab25))
/-- The cells' states. -/
def stateBlock : FVec F S64x2048 .f32 := k0_pay5 (View.ld x1 whole_S64x2048)
/-- The gate's hidden layer before its bias. -/
def gatePre : FVec F S32x2048 .f32 := k0_pay6 (sumTo20 x0) (View.ld x0 (slab20)) (View.ld x0 (slab21)) (View.ld x0 (slab22)) (View.ld x0 (slab23)) (View.ld x0 (slab24)) (View.ld x0 (slab25)) (View.ld x1 whole_S64x2048) (View.ld x2 whole_S32x64) (View.ld x3 whole_S32x64)
/-- Its bias column. -/
def gateBias : FVec F S32x1 .f32 := k0_pay7 (View.ld x4 whole_S32x1)
/-- The gate weights: the softmax of the three logits, lane by lane. -/
def gateBlock : FVec F S3x2048 .f32 := k0_pay8 (gatePre x0 x1 x2 x3) (gateBias x4) (View.ld x5 whole_S3x32) (View.ld x6 whole_S3x1)
/-- The local expert. -/
def localBlock : FVec F S64x2048 .f32 := k0_pay9 (meanBlock x0) (stateBlock x1) (View.ld x7 whole_S64x64) (View.ld x8 whole_S64x64) (View.ld x9 whole_S64x1)
/-- The message before its bias. -/
def msgPre : FVec F S32x2048 .f32 := k0_pay10 (meanBlock x0) (stateBlock x1) (View.ld x10 whole_S32x64) (View.ld x11 whole_S32x64)
/-- The message-passing expert. -/
def funcBlock : FVec F S64x2048 .f32 := k0_pay11 (stateBlock x1) (msgPre x0 x1 x10 x11) (View.ld x12 whole_S32x1) (View.ld x13 whole_S64x64) (View.ld x14 whole_S64x32) (View.ld x15 whole_S64x1)
/-- The part of the flow's field that the mean fixes. -/
def flowBaseBlock : FVec F S64x2048 .f32 := k0_pay12 (meanBlock x0) (View.ld x17 whole_S64x64) (View.ld x18 whole_S64x1)
/-- The state after the first Euler step. -/
def flow1Block : FVec F S64x2048 .f32 := k0_pay13 (meanBlock x0) (stateBlock x1) (View.ld x17 whole_S64x64) (View.ld x18 whole_S64x1) (View.ld x16 whole_S64x64)
/-- The field at that state. -/
def field2Block : FVec F S64x2048 .f32 := k0_pay14 (meanBlock x0) (stateBlock x1) (View.ld x17 whole_S64x64) (View.ld x18 whole_S64x1) (View.ld x16 whole_S64x64) (View.ld x16 whole_S64x64)
/-- The mixed state: what the step stores into its first output block. -/
def mixBlock : FVec F S64x2048 .f32 :=
  k0_pay1 (gateBlock x0 x1 x2 x3 x4 x5 x6) (localBlock x0 x1 x7 x8 x9) (funcBlock x0 x1 x10 x11 x12 x13 x14 x15)
    (flowBaseBlock x0 x17 x18) (flow1Block x0 x1 x16 x17 x18) (field2Block x0 x1 x16 x17 x18) (k0_pay15 (F := F)) (View.ld x16 whole_S64x64)

/-- The first output buffer after the step: its one whole store. -/
def out19 : Vec F S64x2048 .f32 :=
  View.canon [⟨whole_S64x2048, mixBlock x0 x1 x2 x3 x4 x5 x6 x7 x8 x9 x10 x11 x12 x13 x14 x15 x16 x17 x18⟩]
/-- The second. -/
def out20 : Vec F S3x2048 .f32 :=
  View.canon [⟨whole_S3x2048, gateBlock x0 x1 x2 x3 x4 x5 x6⟩]

end Values

/-- A whole store covers its buffer. -/
theorem cover19 (p0 : Vec F S64x2048 .f32) (y : S64x2048.Idx) :
    ∃ pc ∈ ([⟨whole_S64x2048, p0⟩] : List (View.Piece (Elt F) S64x2048 .f32)), y ∈ pc.1.set :=
  View.cover_of_tiled [⟨whole_S64x2048, p0⟩] S64x2048.size (by rfl) y
theorem cover20 (p0 : Vec F S3x2048 .f32) (y : S3x2048.Idx) :
    ∃ pc ∈ ([⟨whole_S3x2048, p0⟩] : List (View.Piece (Elt F) S3x2048 .f32)), y ∈ pc.1.set :=
  View.cover_of_tiled [⟨whole_S3x2048, p0⟩] S3x2048.size (by rfl) y

end Cert.Kernel.Block

end
-- ==== Proof.BitsStep.lean ====
/-
  The grid step's triple: run on whole buffers, the step terminates without a fault, leaves its nineteen input
  buffers as it found them and its two output buffers at the blocks `out19` and `out20` name, whatever the float
  operations are read as.
-/
import proofs.«168256_g38233798869014_cont_8to1_b_1562_16_alg».proof.Proof.BitsBlock

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The step on whole buffers: the nineteen inputs at read contents `x₀ … x₁₈`, the two outputs at anything. It runs to
    the continuation with the inputs as they were and the outputs at `out19`, `out20` of the inputs. -/
theorem step_runs (c : Dev nD) (E : Set ℕ) (i : grid0.Coords) (arg0 : Memref sig .tc .vmem S26x64x2048 .f32) (harg0 : arg0.IsWhole) (arg1 : Memref sig .tc .vmem S64x2048 .f32) (harg1 : arg1.IsWhole) (arg2 : Memref sig .tc .vmem S32x64 .f32) (harg2 : arg2.IsWhole) (arg3 : Memref sig .tc .vmem S32x64 .f32) (harg3 : arg3.IsWhole) (arg4 : Memref sig .tc .vmem S32x1 .f32) (harg4 : arg4.IsWhole) (arg5 : Memref sig .tc .vmem S3x32 .f32) (harg5 : arg5.IsWhole) (arg6 : Memref sig .tc .vmem S3x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x1 .f32) (harg12 : arg12.IsWhole) (arg13 : Memref sig .tc .vmem S64x64 .f32) (harg13 : arg13.IsWhole) (arg14 : Memref sig .tc .vmem S64x32 .f32) (harg14 : arg14.IsWhole) (arg15 : Memref sig .tc .vmem S64x1 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x1 .f32) (harg18 : arg18.IsWhole) (arg19 : Memref sig .tc .vmem S64x2048 .f32) (harg19 : arg19.IsWhole) (arg20 : Memref sig .tc .vmem S3x2048 .f32) (harg20 : arg20.IsWhole)
    (x0 : Vec F S26x64x2048 .f32) (x1 : Vec F S64x2048 .f32) (x2 : Vec F S32x64 .f32) (x3 : Vec F S32x64 .f32) (x4 : Vec F S32x1 .f32) (x5 : Vec F S3x32 .f32) (x6 : Vec F S3x1 .f32) (x7 : Vec F S64x64 .f32) (x8 : Vec F S64x64 .f32) (x9 : Vec F S64x1 .f32) (x10 : Vec F S32x64 .f32) (x11 : Vec F S32x64 .f32) (x12 : Vec F S32x1 .f32) (x13 : Vec F S64x64 .f32) (x14 : Vec F S64x32 .f32) (x15 : Vec F S64x1 .f32) (x16 : Vec F S64x64 .f32) (x17 : Vec F S64x64 .f32) (x18 : Vec F S64x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (out19 x0 x1 x2 x3 x4 x5 x6 x7 x8 x9 x10 x11 x12 x13 x14 x15 x16 x17 x18) ∗ owns (c : Thread nD τ) arg20 fullShare (out20 x0 x1 x2 x3 x4 x5 x6)) -∗ K ⟨⟩))
      ⊢ wp frame (wpE (defs₀ (F := F)) Variants.none c none) E (cc0__moe_block i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__moe_block_eq_skeleton]; unfold cc0__moe_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover19 _)
  · iexists _; isplitr
    swap; · iexact H20
    ipureintro
    exact View.read_writes_eq_canon _ _ _ (cover20 _)

end Cert.Kernel.Block

end
-- ==== Proof.BitsRun.lean ====
/-
  The word-level kernel runs to the end and leaves its arguments as they were.

  At the tenth grid point the blocks overhang the arrays, and the lanes past the arrays' end hold words nothing
  names. At the word level the step's result on a lane inside the array is not known to be independent of those
  words, so nothing is said of what the step leaves in its two result buffers: they are handed to it at anything and
  taken back at anything. The frame needs no more. The state and neighbour buffers are described on the lanes inside
  the array, the weight buffers hold the whole weight arrays, and every argument array — none is a window's array,
  none is written by a host operation — ends as launched.
-/
import proofs.«168256_g38233798869014_cont_8to1_b_1562_16_alg».proof.Proof.BitsStep
import Idealize.ShloMosaic.Lib.Pipeline.Value

set_option maxRecDepth 16384

noncomputable section

namespace Cert.Kernel.Block

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two result windows: nothing is said of what the step leaves in them. -/
def forgets0 : Fin 21 → Bool := fun w => w.val == 19 || w.val == 20

/-- The neighbours' block at point `t`, on the lanes inside the array; the zero word on the others. -/
def nbrIn (c : Dev nD) (t : Fin cfg0.N) : S26x64x2048.Idx → Elt F .f32 :=
  win0_0.fill (grid0.coords t) (fun _ => FloatOps.ofBits (F := F) .f32 0#32) (iblk m c 0 t)
/-- The cells' states likewise. -/
def stateIn (c : Dev nD) (t : Fin cfg0.N) : S64x2048.Idx → Elt F .f32 :=
  win0_1.fill (grid0.coords t) (fun _ => FloatOps.ofBits (F := F) .f32 0#32) (iblk m c 1 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => nbrIn m c t
    | ⟨1, _⟩ => stateIn m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => fun _ => FloatOps.ofBits (F := F) .f32 0#32
    | ⟨20, _⟩ => fun _ => FloatOps.ofBits (F := F) .f32 0#32
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = nbrIn m c t := by dsimp only [dats]
theorem after0_1 (c : Dev nD) (t : Fin cfg0.N) : (dats m 0 c).after 1 t = stateIn m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]

/-- The neighbour and state buffers are fetched at every point: the body finds the block on the lanes inside the
    array and `d` on the others. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- A weight buffer holds its whole array at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The obligation, at a generic point -/

/-- What the step is called with at point `t`, the windows one by one: the result buffers at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ X, owns (c : Thread nD τ) (st0_19 t) fullShare X)
    ∗ (∃ X, owns (c : Thread nD τ) (st0_20 t) fullShare X))

/-- and what it returns: an input buffer whose block overhangs described on the part its transfers move, the result
    buffers at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (∃ X, owns (c : Thread nD τ) (st0_19 t) fullShare X)
    ∗ (∃ X, owns (c : Thread nD τ) (st0_20 t) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  rw [before0_0 m c t d0, before0_1 m c t d1, before0_2 m c t d2, before0_3 m c t d3, before0_4 m c t d4, before0_5 m c t d5, before0_6 m c t d6, before0_7 m c t d7, before0_8 m c t d8, before0_9 m c t d9, before0_10 m c t d10, before0_11 m c t d11, before0_12 m c t d12, before0_13 m c t d13, before0_14 m c t d14, before0_15 m c t d15, before0_16 m c t d16, before0_17 m c t d17, before0_18 m c t d18]
  iapply (step_runs (F := F) c Set.univ (grid0.coords t) _ _ _ _ _ _ _ _ _ _ _ _ _ _ _ _ _ _ _ _ _ _ _ _ _ _ _ _ _ _ _ _ _ _ _ _ _ _ _ _ _ _
    (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]
  · iexists d0
    rw [after0_0, show win0_0.cut (grid0.coords t) (nbrIn m c t) = iblk m c 0 t from win0_0.cut_fill _ _ _]
    iexact H0
  isplitl [H1]
  · iexists d1
    rw [after0_1, show win0_1.cut (grid0.coords t) (stateIn m c t) = iblk m c 1 t from win0_1.cut_fill _ _ _]
    iexact H1
  isplitl [H2]; · rw [after0_2]; iexact H2
  isplitl [H3]; · rw [after0_3]; iexact H3
  isplitl [H4]; · rw [after0_4]; iexact H4
  isplitl [H5]; · rw [after0_5]; iexact H5
  isplitl [H6]; · rw [after0_6]; iexact H6
  isplitl [H7]; · rw [after0_7]; iexact H7
  isplitl [H8]; · rw [after0_8]; iexact H8
  isplitl [H9]; · rw [after0_9]; iexact H9
  isplitl [H10]; · rw [after0_10]; iexact H10
  isplitl [H11]; · rw [after0_11]; iexact H11
  isplitl [H12]; · rw [after0_12]; iexact H12
  isplitl [H13]; · rw [after0_13]; iexact H13
  isplitl [H14]; · rw [after0_14]; iexact H14
  isplitl [H15]; · rw [after0_15]; iexact H15
  isplitl [H16]; · rw [after0_16]; iexact H16
  isplitl [H17]; · rw [after0_17]; iexact H17
  isplitl [H18]; · rw [after0_18]; iexact H18
  isplitl [H19]; · iexists _; iexact H19
  iexists _; iexact H20

/-- The pipeline's obligation, at every point, the two result windows forgotten. -/
theorem body_obligation (c : Dev nD) :
    BodyObligationLoose (dats m 0 c) (defs₀ (F := F)) Variants.none () Set.univ forgets0 := fun t => by
  rw [bigSep_W0, bigSep_W0]
  exact sound_body m c t

/-! ## The run and the frame -/

/-- The buffers the two host operations after the region write: the program's results. -/
def T0 : Finset (Ref sig .tc) := {main_v0_0, main_v0_1}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of @main terminates without a fault; every array of the pipeline ends at contents the
    write-backs allow, and every other unscoped buffer the tail does not write at what the region found. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

set_option maxHeartbeats 1260000 in
/-- The frame: no window stages an argument array and the tail writes none, so each ends at what the region found, which
    is what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c)⟩) (run_main m ρ)

end Cert.Kernel.Block

end
-- ==== Proof.IdealBlock.lean ====
/-
  One grid step of the cell update, as a pure function of the blocks the step holds.

  A step holds a block of 2048 cells laid along the lanes: the neighbours' states `[26, 64, 2048]`, the cells' states
  `[64, 2048]`, and the seventeen weight blocks (each matrix half `[out, in]`, each bias a column). It reads the 26
  neighbour slabs one by one and adds them in order, scales the sum to the mean, applies the three experts and the
  gate, and stores the mixed state `[64, 2048]` and the gate weights `[3, 2048]`, each whole. `mixBlock` and
  `gateBlock` name what those two stores hold as functions of the nineteen input blocks.
  Nothing here depends on which numbers the floats are: it is stated for every reading of the float operations.
-/
import proofs.«168256_g38233798869014_cont_8to1_b_1562_16_alg».proof.Proof.Gen.KernelIdeal.Skeleton
import proofs.«168256_g38233798869014_cont_8to1_b_1562_16_alg».proof.Proof.Gen.KernelIdeal.Launch
import proofs.«168256_g38233798869014_cont_8to1_b_1562_16_alg».proof.Proof.Gen.KernelIdeal.Points
import proofs.«168256_g38233798869014_cont_8to1_b_1562_16_alg».proof.Proof.Gen.KernelIdeal.Frame
import Idealize.ShloMosaic.Lib.Pipeline.FrameBody
import Idealize.ShloMosaic.Lib.Pipeline.FrameSuffix
import Idealize.ShloMosaic.Lib.Tactic

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the step reads and writes -/

/-- Neighbour `k`'s slab of the neighbours' block: `[1, 64, 2048]` at offset `(k, 0, 0)`. -/
abbrev slab0 : Rect S26x64x2048 := Rect.unit (s := S26x64x2048) ![0, 0, 0] S1x64x2048.size inb_S26x64x2048_S1x64x2048_0_0_0
abbrev slab1 : Rect S26x64x2048 := Rect.unit (s := S26x64x2048) ![1, 0, 0] S1x64x2048.size inb_S26x64x2048_S1x64x2048_1_0_0
abbrev slab2 : Rect S26x64x2048 := Rect.unit (s := S26x64x2048) ![2, 0, 0] S1x64x2048.size inb_S26x64x2048_S1x64x2048_2_0_0
abbrev slab3 : Rect S26x64x2048 := Rect.unit (s := S26x64x2048) ![3, 0, 0] S1x64x2048.size inb_S26x64x2048_S1x64x2048_3_0_0
abbrev slab4 : Rect S26x64x2048 := Rect.unit (s := S26x64x2048) ![4, 0, 0] S1x64x2048.size inb_S26x64x2048_S1x64x2048_4_0_0
abbrev slab5 : Rect S26x64x2048 := Rect.unit (s := S26x64x2048) ![5, 0, 0] S1x64x2048.size inb_S26x64x2048_S1x64x2048_5_0_0
abbrev slab6 : Rect S26x64x2048 := Rect.unit (s := S26x64x2048) ![6, 0, 0] S1x64x2048.size inb_S26x64x2048_S1x64x2048_6_0_0
abbrev slab7 : Rect S26x64x2048 := Rect.unit (s := S26x64x2048) ![7, 0, 0] S1x64x2048.size inb_S26x64x2048_S1x64x2048_7_0_0
abbrev slab8 : Rect S26x64x2048 := Rect.unit (s := S26x64x2048) ![8, 0, 0] S1x64x2048.size inb_S26x64x2048_S1x64x2048_8_0_0
abbrev slab9 : Rect S26x64x2048 := Rect.unit (s := S26x64x2048) ![9, 0, 0] S1x64x2048.size inb_S26x64x2048_S1x64x2048_9_0_0
abbrev slab10 : Rect S26x64x2048 := Rect.unit (s := S26x64x2048) ![10, 0, 0] S1x64x2048.size inb_S26x64x2048_S1x64x2048_10_0_0
abbrev slab11 : Rect S26x64x2048 := Rect.unit (s := S26x64x2048) ![11, 0, 0] S1x64x2048.size inb_S26x64x2048_S1x64x2048_11_0_0
abbrev slab12 : Rect S26x64x2048 := Rect.unit (s := S26x64x2048) ![12, 0, 0] S1x64x2048.size inb_S26x64x2048_S1x64x2048_12_0_0
abbrev slab13 : Rect S26x64x2048 := Rect.unit (s := S26x64x2048) ![13, 0, 0] S1x64x2048.size inb_S26x64x2048_S1x64x2048_13_0_0
abbrev slab14 : Rect S26x64x2048 := Rect.unit (s := S26x64x2048) ![14, 0, 0] S1x64x2048.size inb_S26x64x2048_S1x64x2048_14_0_0
abbrev slab15 : Rect S26x64x2048 := Rect.unit (s := S26x64x2048) ![15, 0, 0] S1x64x2048.size inb_S26x64x2048_S1x64x2048_15_0_0
abbrev slab16 : Rect S26x64x2048 := Rect.unit (s := S26x64x2048) ![16, 0, 0] S1x64x2048.size inb_S26x64x2048_S1x64x2048_16_0_0
abbrev slab17 : Rect S26x64x2048 := Rect.unit (s := S26x64x2048) ![17, 0, 0] S1x64x2048.size inb_S26x64x2048_S1x64x2048_17_0_0
abbrev slab18 : Rect S26x64x2048 := Rect.unit (s := S26x64x2048) ![18, 0, 0] S1x64x2048.size inb_S26x64x2048_S1x64x2048_18_0_0
abbrev slab19 : Rect S26x64x2048 := Rect.unit (s := S26x64x2048) ![19, 0, 0] S1x64x2048.size inb_S26x64x2048_S1x64x2048_19_0_0
abbrev slab20 : Rect S26x64x2048 := Rect.unit (s := S26x64x2048) ![20, 0, 0] S1x64x2048.size inb_S26x64x2048_S1x64x2048_20_0_0
abbrev slab21 : Rect S26x64x2048 := Rect.unit (s := S26x64x2048) ![21, 0, 0] S1x64x2048.size inb_S26x64x2048_S1x64x2048_21_0_0
abbrev slab22 : Rect S26x64x2048 := Rect.unit (s := S26x64x2048) ![22, 0, 0] S1x64x2048.size inb_S26x64x2048_S1x64x2048_22_0_0
abbrev slab23 : Rect S26x64x2048 := Rect.unit (s := S26x64x2048) ![23, 0, 0] S1x64x2048.size inb_S26x64x2048_S1x64x2048_23_0_0
abbrev slab24 : Rect S26x64x2048 := Rect.unit (s := S26x64x2048) ![24, 0, 0] S1x64x2048.size inb_S26x64x2048_S1x64x2048_24_0_0
abbrev slab25 : Rect S26x64x2048 := Rect.unit (s := S26x64x2048) ![25, 0, 0] S1x64x2048.size inb_S26x64x2048_S1x64x2048_25_0_0

/-- A block read or written whole. -/
abbrev whole_S64x2048 : Rect S64x2048 := Rect.unit (s := S64x2048) ![0, 0] S64x2048.size inb_S64x2048_S64x2048_0_0
abbrev whole_S32x64 : Rect S32x64 := Rect.unit (s := S32x64) ![0, 0] S32x64.size inb_S32x64_S32x64_0_0
abbrev whole_S32x1 : Rect S32x1 := Rect.unit (s := S32x1) ![0, 0] S32x1.size inb_S32x1_S32x1_0_0
abbrev whole_S3x32 : Rect S3x32 := Rect.unit (s := S3x32) ![0, 0] S3x32.size inb_S3x32_S3x32_0_0
abbrev whole_S3x1 : Rect S3x1 := Rect.unit (s := S3x1) ![0, 0] S3x1.size inb_S3x1_S3x1_0_0
abbrev whole_S64x64 : Rect S64x64 := Rect.unit (s := S64x64) ![0, 0] S64x64.size inb_S64x64_S64x64_0_0
abbrev whole_S64x1 : Rect S64x1 := Rect.unit (s := S64x1) ![0, 0] S64x1.size inb_S64x1_S64x1_0_0
abbrev whole_S64x32 : Rect S64x32 := Rect.unit (s := S64x32) ![0, 0] S64x32.size inb_S64x32_S64x32_0_0
abbrev whole_S3x2048 : Rect S3x2048 := Rect.unit (s := S3x2048) ![0, 0] S3x2048.size inb_S3x2048_S3x2048_0_0

/-! ## What the step computes, block by block -/

section Values
variable (x0 : Vec F S26x64x2048 .f32) (x1 : Vec F S64x2048 .f32) (x2 : Vec F S32x64 .f32) (x3 : Vec F S32x64 .f32) (x4 : Vec F S32x1 .f32) (x5 : Vec F S3x32 .f32) (x6 : Vec F S3x1 .f32) (x7 : Vec F S64x64 .f32) (x8 : Vec F S64x64 .f32) (x9 : Vec F S64x1 .f32) (x10 : Vec F S32x64 .f32) (x11 : Vec F S32x64 .f32) (x12 : Vec F S32x1 .f32) (x13 : Vec F S64x64 .f32) (x14 : Vec F S64x32 .f32) (x15 : Vec F S64x1 .f32) (x16 : Vec F S64x64 .f32) (x17 : Vec F S64x64 .f32) (x18 : Vec F S64x1 .f32)

/-- The first ten neighbours added in order. -/
def sumTo10 : FVec F S64x2048 .f32 := k0_pay2 (View.ld x0 (slab0)) (View.ld x0 (slab1)) (View.ld x0 (slab2)) (View.ld x0 (slab3)) (View.ld x0 (slab4)) (View.ld x0 (slab5)) (View.ld x0 (slab6)) (View.ld x0 (slab7)) (View.ld x0 (slab8)) (View.ld x0 (slab9))
/-- The first twenty. -/
def sumTo20 : FVec F S64x2048 .f32 := k0_pay3 (sumTo10 x0) (View.ld x0 (slab10)) (View.ld x0 (slab11)) (View.ld x0 (slab12)) (View.ld x0 (slab13)) (View.ld x0 (slab14)) (View.ld x0 (slab15)) (View.ld x0 (slab16)) (View.ld x0 (slab17)) (View.ld x0 (slab18)) (View.ld x0 (slab19))
/-- All 26, scaled to their mean. -/
def meanBlock : FVec F S64x2048 .f32 := k0_pay4 (sumTo20 x0) (View.ld x0 (slab20)) (View.ld x0 (slab21)) (View.ld x0 (slab22)) (View.ld x0 (slab23)) (View.ld x0 (slab24)) (View.ld x0 (slab25))
/-- The cells' states. -/
def stateBlock : FVec F S64x2048 .f32 := k0_pay5 (View.ld x1 whole_S64x2048)
/-- The gate's hidden layer before its bias. -/
def gatePre : FVec F S32x2048 .f32 := k0_pay6 (sumTo20 x0) (View.ld x0 (slab20)) (View.ld x0 (slab21)) (View.ld x0 (slab22)) (View.ld x0 (slab23)) (View.ld x0 (slab24)) (View.ld x0 (slab25)) (View.ld x1 whole_S64x2048) (View.ld x2 whole_S32x64) (View.ld x3 whole_S32x64)
/-- Its bias column. -/
def gateBias : FVec F S32x1 .f32 := k0_pay7 (View.ld x4 whole_S32x1)
/-- The gate weights: the softmax of the three logits, lane by lane. -/
def gateBlock : FVec F S3x2048 .f32 := k0_pay8 (gatePre x0 x1 x2 x3) (gateBias x4) (View.ld x5 whole_S3x32) (View.ld x6 whole_S3x1)
/-- The local expert. -/
def localBlock : FVec F S64x2048 .f32 := k0_pay9 (meanBlock x0) (stateBlock x1) (View.ld x7 whole_S64x64) (View.ld x8 whole_S64x64) (View.ld x9 whole_S64x1)
/-- The message before its bias. -/
def msgPre : FVec F S32x2048 .f32 := k0_pay10 (meanBlock x0) (stateBlock x1) (View.ld x10 whole_S32x64) (View.ld x11 whole_S32x64)
/-- The message-passing expert. -/
def funcBlock : FVec F S64x2048 .f32 := k0_pay11 (stateBlock x1) (msgPre x0 x1 x10 x11) (View.ld x12 whole_S32x1) (View.ld x13 whole_S64x64) (View.ld x14 whole_S64x32) (View.ld x15 whole_S64x1)
/-- The part of the flow's field that the mean fixes. -/
def flowBaseBlock : FVec F S64x2048 .f32 := k0_pay12 (meanBlock x0) (View.ld x17 whole_S64x64) (View.ld x18 whole_S64x1)
/-- The state after the first Euler step. -/
def flow1Block : FVec F S64x2048 .f32 := k0_pay13 (meanBlock x0) (stateBlock x1) (View.ld x17 whole_S64x64) (View.ld x18 whole_S64x1) (View.ld x16 whole_S64x64)
/-- The field at that state. -/
def field2Block : FVec F S64x2048 .f32 := k0_pay14 (meanBlock x0) (stateBlock x1) (View.ld x17 whole_S64x64) (View.ld x18 whole_S64x1) (View.ld x16 whole_S64x64) (View.ld x16 whole_S64x64)
/-- The mixed state: what the step stores into its first output block. -/
def mixBlock : FVec F S64x2048 .f32 :=
  k0_pay1 (gateBlock x0 x1 x2 x3 x4 x5 x6) (localBlock x0 x1 x7 x8 x9) (funcBlock x0 x1 x10 x11 x12 x13 x14 x15)
    (flowBaseBlock x0 x17 x18) (flow1Block x0 x1 x16 x17 x18) (field2Block x0 x1 x16 x17 x18) (k0_pay15 (F := F)) (View.ld x16 whole_S64x64)

/-- The first output buffer after the step: its one whole store. -/
def out19 : Vec F S64x2048 .f32 :=
  View.canon [⟨whole_S64x2048, mixBlock x0 x1 x2 x3 x4 x5 x6 x7 x8 x9 x10 x11 x12 x13 x14 x15 x16 x17 x18⟩]
/-- The second. -/
def out20 : Vec F S3x2048 .f32 :=
  View.canon [⟨whole_S3x2048, gateBlock x0 x1 x2 x3 x4 x5 x6⟩]

end Values

/-- A whole store covers its buffer. -/
theorem cover19 (p0 : Vec F S64x2048 .f32) (y : S64x2048.Idx) :
    ∃ pc ∈ ([⟨whole_S64x2048, p0⟩] : List (View.Piece (Elt F) S64x2048 .f32)), y ∈ pc.1.set :=
  View.cover_of_tiled [⟨whole_S64x2048, p0⟩] S64x2048.size (by rfl) y
theorem cover20 (p0 : Vec F S3x2048 .f32) (y : S3x2048.Idx) :
    ∃ pc ∈ ([⟨whole_S3x2048, p0⟩] : List (View.Piece (Elt F) S3x2048 .f32)), y ∈ pc.1.set :=
  View.cover_of_tiled [⟨whole_S3x2048, p0⟩] S3x2048.size (by rfl) y

end Cert.KernelIdeal.Block

end
-- ==== Proof.IdealStep.lean ====
/-
  The grid step's triple: run on whole buffers, the step terminates without a fault, leaves its nineteen input
  buffers as it found them and its two output buffers at the blocks `out19` and `out20` name, whatever the float
  operations are read as.
-/
import proofs.«168256_g38233798869014_cont_8to1_b_1562_16_alg».proof.Proof.IdealBlock

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The step on whole buffers: the nineteen inputs at read contents `x₀ … x₁₈`, the two outputs at anything. It runs to
    the continuation with the inputs as they were and the outputs at `out19`, `out20` of the inputs. -/
theorem step_runs (c : Dev nD) (E : Set ℕ) (i : grid0.Coords) (arg0 : Memref sig .tc .vmem S26x64x2048 .f32) (harg0 : arg0.IsWhole) (arg1 : Memref sig .tc .vmem S64x2048 .f32) (harg1 : arg1.IsWhole) (arg2 : Memref sig .tc .vmem S32x64 .f32) (harg2 : arg2.IsWhole) (arg3 : Memref sig .tc .vmem S32x64 .f32) (harg3 : arg3.IsWhole) (arg4 : Memref sig .tc .vmem S32x1 .f32) (harg4 : arg4.IsWhole) (arg5 : Memref sig .tc .vmem S3x32 .f32) (harg5 : arg5.IsWhole) (arg6 : Memref sig .tc .vmem S3x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x1 .f32) (harg12 : arg12.IsWhole) (arg13 : Memref sig .tc .vmem S64x64 .f32) (harg13 : arg13.IsWhole) (arg14 : Memref sig .tc .vmem S64x32 .f32) (harg14 : arg14.IsWhole) (arg15 : Memref sig .tc .vmem S64x1 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S64x1 .f32) (harg18 : arg18.IsWhole) (arg19 : Memref sig .tc .vmem S64x2048 .f32) (harg19 : arg19.IsWhole) (arg20 : Memref sig .tc .vmem S3x2048 .f32) (harg20 : arg20.IsWhole)
    (x0 : Vec F S26x64x2048 .f32) (x1 : Vec F S64x2048 .f32) (x2 : Vec F S32x64 .f32) (x3 : Vec F S32x64 .f32) (x4 : Vec F S32x1 .f32) (x5 : Vec F S3x32 .f32) (x6 : Vec F S3x1 .f32) (x7 : Vec F S64x64 .f32) (x8 : Vec F S64x64 .f32) (x9 : Vec F S64x1 .f32) (x10 : Vec F S32x64 .f32) (x11 : Vec F S32x64 .f32) (x12 : Vec F S32x1 .f32) (x13 : Vec F S64x64 .f32) (x14 : Vec F S64x32 .f32) (x15 : Vec F S64x1 .f32) (x16 : Vec F S64x64 .f32) (x17 : Vec F S64x64 .f32) (x18 : Vec F S64x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (out19 x0 x1 x2 x3 x4 x5 x6 x7 x8 x9 x10 x11 x12 x13 x14 x15 x16 x17 x18) ∗ owns (c : Thread nD τ) arg20 fullShare (out20 x0 x1 x2 x3 x4 x5 x6)) -∗ K ⟨⟩))
      ⊢ wp frame (wpE (defs₀ (F := F)) Variants.none c none) E (cc0__moe_block i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__moe_block_eq_skeleton]; unfold cc0__moe_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover19 _)
  · iexists _; isplitr
    swap; · iexact H20
    ipureintro
    exact View.read_writes_eq_canon _ _ _ (cover20 _)

end Cert.KernelIdeal.Block

end
-- ==== Proof.IdealRun.lean ====
/-
  The run of the idealized kernel, with every array named.

  At grid point `t` the step works on the block of 2048 cells `2048·t … 2048·t + 2047`. There are 19683 cells, so the
  tenth block overhangs the arrays by 797 cells: its fetches fill only the first 1251 lanes of the state and
  neighbour buffers, and its write-backs copy out only the first 1251 lanes of the two result buffers. What the
  other lanes hold is not determined (`d`, below) — and does not matter, because a lane of the result reads only
  the same lane of the inputs. The proof data says so: after the step the state and neighbour buffers hold their
  blocks on the lanes inside the array (zero elsewhere, a filler nothing reads), the weight buffers hold the whole
  weight arrays, and the result buffers hold the step's result of those.
-/
import proofs.«168256_g38233798869014_cont_8to1_b_1562_16_alg».proof.Proof.IdealStep
import Idealize.ShloMosaic.Lib.Pipeline.Value
import Idealize.ShloMosaic.Lib.ValueIdx

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The neighbours' block at point `t`, on the lanes inside the array; zero on the others. -/
def nbrIn (c : Dev nD) (t : Fin cfg0.N) : S26x64x2048.Idx → Elt Ideal .f32 :=
  win0_0.fill (grid0.coords t) (fun _ => FloatOps.ofBits (F := Ideal) .f32 0#32) (iblk m c 0 t)
/-- The cells' states likewise. -/
def stateIn (c : Dev nD) (t : Fin cfg0.N) : S64x2048.Idx → Elt Ideal .f32 :=
  win0_1.fill (grid0.coords t) (fun _ => FloatOps.ofBits (F := Ideal) .f32 0#32) (iblk m c 1 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => nbrIn m c t
    | ⟨1, _⟩ => stateIn m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out19 (nbrIn m c t) (stateIn m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨20, _⟩ => out20 (nbrIn m c t) (stateIn m c t) (iblk m c 2 t) (iblk m c 3 t) (iblk m c 4 t) (iblk m c 5 t) (iblk m c 6 t)
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = nbrIn m c t := by dsimp only [dats]
theorem after0_1 (c : Dev nD) (t : Fin cfg0.N) : (dats m 0 c).after 1 t = stateIn m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t
    = out19 (nbrIn m c t) (stateIn m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_20 (c : Dev nD) (t : Fin cfg0.N) : (dats m 0 c).after 20 t
    = out20 (nbrIn m c t) (stateIn m c t) (iblk m c 2 t) (iblk m c 3 t) (iblk m c 4 t) (iblk m c 5 t) (iblk m c 6 t) := by dsimp only [dats]

/-- The neighbour and state buffers are fetched at every point: the body finds the block on the lanes inside the
    array and `d` on the others. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- A weight buffer holds its whole array at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

end Cert.KernelIdeal.Block

end
-- ==== Proof.Mixture.lean ====
/-
  The mathematics both programs compute, for ONE lattice cell, on the extended reals.

  A cell has a state `x : Fin 64 → EReal` and the states of its 26 neighbours `nb : Fin 26 → Fin 64 → EReal`.
  With `μ` the neighbours' mean, `(Σₖ nbₖ) · (1/26)`, three experts read the pair `(x, μ)`:
    • a gate: `h = tanh(G₁ˢ·x + G₁ⁿ·μ + b)`, logits `ℓ = G₂·h + b₂`, weights the softmax of `ℓ` over its three entries
      (shifted by the entries' maximum, the fold of `max` from the bottom element);
    • a local expert `tanh(Lˢ·x + Lⁿ·μ + b)`;
    • a message-passing expert: a message `tanh(Mˢ·x + Mⁿ·μ + b)` and an update `tanh(Uˢ·x + Uᵐ·msg + b)`;
    • a flow expert: three explicit Euler steps `s ↦ s + τ·tanh(Cˢ·s + (Cⁿ·μ + b))` from `s = x`, `τ` the f32 nearest 1/3.
  The cell's new state is the gate-weighted sum of the three experts. Every affine map of a stacked pair is written as
  the SUM OF ITS TWO HALVES, each weight matrix split into the rows that meet the first operand and the rows that meet
  the second: on the extended reals addition is associative and commutative, so a sum over the 128 stacked
  coordinates is the sum of the two sums over 64 (`sum_stack`), with no appeal to finiteness.
-/
import Idealize.ShloMosaic.PureOps.Ideal
import Idealize.ShloMosaic.PureOps.Ideal.Laws
import Idealize.ShloMosaic.Lib.ValueIdx

noncomputable section

open scoped BigOperators

namespace Cert.Mixture

open Idealize.ShloMosaic Idealize.ShloMosaic.ValueIdx

/-- The weights of one cell update, each matrix as a function (input coordinate, output coordinate), the matrices that
    meet a stacked pair split into their two halves. -/
structure Weights where
  g1s : Fin 64 → Fin 32 → EReal
  g1n : Fin 64 → Fin 32 → EReal
  bg1 : Fin 32 → EReal
  g2 : Fin 32 → Fin 3 → EReal
  bg2 : Fin 3 → EReal
  ls : Fin 64 → Fin 64 → EReal
  ln : Fin 64 → Fin 64 → EReal
  bl : Fin 64 → EReal
  ms : Fin 64 → Fin 32 → EReal
  mn : Fin 64 → Fin 32 → EReal
  bm : Fin 32 → EReal
  us : Fin 64 → Fin 64 → EReal
  um : Fin 32 → Fin 64 → EReal
  bu : Fin 64 → EReal
  cs : Fin 64 → Fin 64 → EReal
  cn : Fin 64 → Fin 64 → EReal
  bc : Fin 64 → EReal

/-- The f32 word nearest one third, the Euler step. -/
abbrev third : EReal := Ideal.ofBits .f32 0x3EAAAAAB#32
/-- The f32 word of minus infinity, from which a maximum is folded. -/
abbrev negInf : EReal := Ideal.ofBits .f32 0xFF800000#32

variable (w : Weights) (x : Fin 64 → EReal) (nb : Fin 26 → Fin 64 → EReal)

/-- The mean of the 26 neighbours' states, coordinate by coordinate. -/
def mean (f : Fin 64) : EReal := (∑ k : Fin 26, nb k f) * ((1 / 26 : ℝ) : EReal)

/-- The gate's hidden layer. -/
def gateHidden (g : Fin 32) : EReal :=
  Ideal.tanh (((∑ f : Fin 64, w.g1s f g * x f) + (∑ f : Fin 64, w.g1n f g * mean nb f)) + w.bg1 g)

/-- The gate's three logits. -/
def logit (e : Fin 3) : EReal := (∑ g : Fin 32, w.g2 g e * gateHidden w x nb g) + w.bg2 e

/-- Their maximum. -/
def logitMax : EReal := (Finset.univ : Finset (Fin 3)).fold max negInf (logit w x nb)

/-- The shifted exponentials. -/
def expShift (e : Fin 3) : EReal := Ideal.exp (logit w x nb e - logitMax w x nb)

/-- The gate weights: the softmax of the logits. -/
def gate (e : Fin 3) : EReal := Ideal.div (expShift w x nb e) (∑ e' : Fin 3, expShift w x nb e')

/-- The local expert. -/
def localOut (r : Fin 64) : EReal :=
  Ideal.tanh (((∑ f : Fin 64, w.ls f r * x f) + (∑ f : Fin 64, w.ln f r * mean nb f)) + w.bl r)

/-- The message of the message-passing expert. -/
def message (g : Fin 32) : EReal :=
  Ideal.tanh (((∑ f : Fin 64, w.ms f g * x f) + (∑ f : Fin 64, w.mn f g * mean nb f)) + w.bm g)

/-- Its update. -/
def funcOut (r : Fin 64) : EReal :=
  Ideal.tanh (((∑ f : Fin 64, w.us f r * x f) + (∑ g : Fin 32, w.um g r * message w x nb g)) + w.bu r)

/-- The part of the flow's vector field that does not move with the state. -/
def flowBase (r : Fin 64) : EReal := (∑ f : Fin 64, w.cn f r * mean nb f) + w.bc r

/-- One explicit Euler step of the flow. -/
def flowStep (s : Fin 64 → EReal) (r : Fin 64) : EReal :=
  s r + third * Ideal.tanh ((∑ f : Fin 64, w.cs f r * s f) + flowBase w nb r)

/-- The flow expert: three steps from the cell's state. -/
def flowOut : Fin 64 → EReal := flowStep w nb (flowStep w nb (flowStep w nb x))

/-- The cell's new state: the experts mixed by the gate. -/
def out (r : Fin 64) : EReal :=
  (gate w x nb 0 * localOut w x nb r + gate w x nb 1 * funcOut w x nb r) + gate w x nb 2 * flowOut w x nb r

/-! ## Stacked coordinates -/

/-- The first and second halves of 128 stacked coordinates, and of 64 + 32. -/
def lo128 (f : Fin 64) : Fin 128 := ⟨f.val, by omega⟩
def hi128 (f : Fin 64) : Fin 128 := ⟨64 + f.val, by omega⟩
def lo96 (f : Fin 64) : Fin 96 := ⟨f.val, by omega⟩
def hi96 (g : Fin 32) : Fin 96 := ⟨64 + g.val, by omega⟩

/-- A sum over 128 stacked coordinates is the sum over the first 64 plus the sum over the last 64, in any additive
    commutative monoid (the extended reals are one). -/
theorem sum_stack128 {M : Type*} [AddCommMonoid M] (F : Fin 128 → M) :
    ∑ j : Fin 128, F j = (∑ f : Fin 64, F (lo128 f)) + ∑ f : Fin 64, F (hi128 f) := by
  have h := Fin.sum_univ_add (a := 64) (b := 64) (f := (F : Fin (64 + 64) → M))
  refine h.trans ?_
  congr 1

/-- Likewise 96 = 64 + 32. -/
theorem sum_stack96 {M : Type*} [AddCommMonoid M] (F : Fin 96 → M) :
    ∑ j : Fin 96, F j = (∑ f : Fin 64, F (lo96 f)) + ∑ g : Fin 32, F (hi96 g) := by
  have h := Fin.sum_univ_add (a := 64) (b := 32) (f := (F : Fin (64 + 32) → M))
  refine h.trans ?_
  congr 1

/-! ## The weights, from the argument arrays -/

/-- The weights read off the twelve weight arrays as the programs receive them: a matrix `[in, out]`, its first 64 rows
    meeting the cell's state and the rest the second operand; a bias `[out]`. -/
def ofArrays
    (Wg1 : (⟨2, ![128, 32]⟩ : Shape).Idx → EReal) (bg1 : (⟨1, ![32]⟩ : Shape).Idx → EReal)
    (Wg2 : (⟨2, ![32, 3]⟩ : Shape).Idx → EReal) (bg2 : (⟨1, ![3]⟩ : Shape).Idx → EReal)
    (Wl : (⟨2, ![128, 64]⟩ : Shape).Idx → EReal) (bl : (⟨1, ![64]⟩ : Shape).Idx → EReal)
    (Wm : (⟨2, ![128, 32]⟩ : Shape).Idx → EReal) (bm : (⟨1, ![32]⟩ : Shape).Idx → EReal)
    (Wu : (⟨2, ![96, 64]⟩ : Shape).Idx → EReal) (bu : (⟨1, ![64]⟩ : Shape).Idx → EReal)
    (Wc : (⟨2, ![128, 64]⟩ : Shape).Idx → EReal) (bc : (⟨1, ![64]⟩ : Shape).Idx → EReal) : Weights where
  g1s f g := Wg1 (ix2 (lo128 f) g)
  g1n f g := Wg1 (ix2 (hi128 f) g)
  bg1 g := bg1 (ix1 g)
  g2 g e := Wg2 (ix2 g e)
  bg2 e := bg2 (ix1 e)
  ls f r := Wl (ix2 (lo128 f) r)
  ln f r := Wl (ix2 (hi128 f) r)
  bl r := bl (ix1 r)
  ms f g := Wm (ix2 (lo128 f) g)
  mn f g := Wm (ix2 (hi128 f) g)
  bm g := bm (ix1 g)
  us f r := Wu (ix2 (lo96 f) r)
  um g r := Wu (ix2 (hi96 g) r)
  bu r := bu (ix1 r)
  cs f r := Wc (ix2 (lo128 f) r)
  cn f r := Wc (ix2 (hi128 f) r)
  bc r := bc (ix1 r)

/-- The weights read off the seventeen weight blocks a grid step holds: each matrix half already cut out and laid
    `[out, in]`, each bias a column `[out, 1]`. -/
def ofBlocks
    (a3 a4 : (⟨2, ![32, 64]⟩ : Shape).Idx → EReal) (a5 : (⟨2, ![32, 1]⟩ : Shape).Idx → EReal)
    (a6 : (⟨2, ![3, 32]⟩ : Shape).Idx → EReal) (a7 : (⟨2, ![3, 1]⟩ : Shape).Idx → EReal)
    (a8 a9 : (⟨2, ![64, 64]⟩ : Shape).Idx → EReal) (a10 : (⟨2, ![64, 1]⟩ : Shape).Idx → EReal)
    (a11 a12 : (⟨2, ![32, 64]⟩ : Shape).Idx → EReal) (a13 : (⟨2, ![32, 1]⟩ : Shape).Idx → EReal)
    (a14 : (⟨2, ![64, 64]⟩ : Shape).Idx → EReal) (a15 : (⟨2, ![64, 32]⟩ : Shape).Idx → EReal)
    (a16 : (⟨2, ![64, 1]⟩ : Shape).Idx → EReal)
    (a17 a18 : (⟨2, ![64, 64]⟩ : Shape).Idx → EReal) (a19 : (⟨2, ![64, 1]⟩ : Shape).Idx → EReal) : Weights where
  g1s f g := a3 (ix2 g f)
  g1n f g := a4 (ix2 g f)
  bg1 g := a5 (ix2 g 0)
  g2 g e := a6 (ix2 e g)
  bg2 e := a7 (ix2 e 0)
  ls f r := a8 (ix2 r f)
  ln f r := a9 (ix2 r f)
  bl r := a10 (ix2 r 0)
  ms f g := a11 (ix2 g f)
  mn f g := a12 (ix2 g f)
  bm g := a13 (ix2 g 0)
  us f r := a14 (ix2 r f)
  um g r := a15 (ix2 r g)
  bu r := a16 (ix2 r 0)
  cs f r := a17 (ix2 r f)
  cn f r := a18 (ix2 r f)
  bc r := a19 (ix2 r 0)

end Cert.Mixture

end
-- ==== Proof.IdealCell0.lean ====
/-
  Reading the step's operations at one row and one lane.

  The step's blocks lay 2048 cells along the lanes. Here each kind of operation the step applies is read at an index
  `(r, j)`, row `r` and lane `j`: the 26 neighbour slabs added in order are the sum over the 26 neighbours; the scale
  factor of the mean is the rational 1/26; a weight block times a block of lane columns, accumulated into zero, is the
  sum over the contracted coordinate; a bias column broadcast along the lanes reads its row; a maximum or a sum over
  the three rows of a `[3, 2048]` block, laid back as a row and broadcast, reads the fold or the sum over the lane's
  three entries. Nothing here needs the numbers to be finite.
-/
import proofs.«168256_g38233798869014_cont_8to1_b_1562_16_alg».proof.Proof.IdealBlock
import proofs.«168256_g38233798869014_cont_8to1_b_1562_16_alg».proof.Proof.Mixture
import Idealize.ShloMosaic.Lib.ValueLayout
import Idealize.ShloMosaic.Lib.ValueIdx
import Idealize.ShloMosaic.PureOps.Ideal.Laws
import Idealize.ShloMosaic.PureOps.IdealRules

noncomputable section

open scoped BigOperators

namespace Cert.KernelIdeal.Cell

open Cert.KernelIdeal Cert.KernelIdeal.Gen
open Idealize.ShloMosaic Idealize.ShloMosaic.ValueIdx

/-! ## The neighbours' sum and mean -/

/-- Twenty-six terms added in order, from the left, are their sum: addition on the extended reals is associative,
    and the sum over `Fin 26` peels its last term 26 times. -/
theorem sum26 (a : Fin 26 → EReal) :
    (((((((((((((((((((((((((a 0 + a 1) + a 2) + a 3) + a 4) + a 5) + a 6) + a 7) + a 8) + a 9) + a 10) + a 11) + a 12)
      + a 13) + a 14) + a 15) + a 16) + a 17) + a 18) + a 19) + a 20) + a 21) + a 22) + a 23) + a 24) + a 25)
      = ∑ k : Fin 26, a k := by
  simp only [Fin.sum_univ_castSucc, Fin.sum_univ_zero, zero_add]
  rfl

/-- The mean's scale factor denotes the rational 1/26. -/
theorem inv26 : Named.named (F := Ideal) Cert.KernelIdeal.κ "inv_26" (φ := .f32) 0x3D1D89D9#32 = ((1 / 26 : ℝ) : EReal) :=
  IdealRules.named_const.ideal_named_scalar _ _ _ _ rfl

/-- Neighbour `K`'s slab `[1, 64, 2048]` of the neighbours' block, viewed `[64, 2048]`, reads at `(f, j)` the block
    at `(K, f, j)`. -/
theorem slab_at (x0 : Vec Ideal S26x64x2048 .f32) (K : ℕ) (hK : K < 26)
    (inb : ∀ a, (![K, 0, 0] : Fin 3 → Nat) a + S1x64x2048.size a ≤ S26x64x2048.size a)
    (h : S1x64x2048.ShapeCasts S64x2048) (f : Fin 64) (j : Fin 2048) :
    shapeCast S64x2048 (View.ld x0 (Rect.unit (s := S26x64x2048) ![K, 0, 0] S1x64x2048.size inb)) h (ix2 f j)
      = x0 (ix3 (⟨K, hK⟩ : Fin 26) f j) := by
  refine (shapeCast_1ab_ab_apply _ h f j).trans ?_
  refine congrArg x0 (funext fun a => Fin.ext ?_)
  match a with
  | ⟨0, _⟩ => show K + 1 * 0 = K; omega
  | ⟨1, _⟩ => show 0 + 1 * f.val = f.val; omega
  | ⟨2, _⟩ => show 0 + 1 * j.val = j.val; omega

/-! ## Whole blocks, columns and rows -/

/-- The zero offsets of a rank-two rectangle. -/
theorem zeros2 : (![0, 0] : Fin 2 → ℕ) = fun _ => 0 := by
  funext a
  match a with
  | ⟨0, _⟩ => rfl
  | ⟨1, _⟩ => rfl

/-- A rank-two block read whole is the block. -/
theorem ld_whole2 {α : EltTy → Type} {e : EltTy} {d : Fin 2 → ℕ} (X : (⟨2, d⟩ : Shape).Idx → α e)
    (inb : ∀ a, (![0, 0] : Fin 2 → ℕ) a + (⟨2, d⟩ : Shape).size a ≤ (⟨2, d⟩ : Shape).size a) :
    View.ld X (Rect.unit (s := (⟨2, d⟩ : Shape)) ![0, 0] (⟨2, d⟩ : Shape).size inb) = X :=
  View.ld_unit_zero zeros2 inb X

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid as the row `[1, b]` and broadcast to `[a, b]` reads, at `(p, c)`, the vector at `c`. -/
theorem rowBroadcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The maximum over the three rows of a `[3, 2048]` block, at lane `j`: the fold of `max` from the accumulator's
    value over the lane's three entries. -/
theorem rowMax_at (src : FVec Ideal S3x2048 .f32) (acc : BitVec 32) (h : S3x2048.Reduces [0] S2048)
    (hφ : FKind.Formats .f32) (hacc : acc = FKind.maximumf.neutral .f32 hφ) (j : Fin 2048) :
    multiReduction .maximumf [0] S2048 src acc h hφ hacc (ix1 j)
      = (Finset.univ : Finset (Fin 3)).fold max (Ideal.ofBits .f32 acc) (fun e => src (ix2 e j)) := by
  refine (Ideal.multiReduction_maximumf_single src acc h hφ hacc (ix1 j)).trans ?_
  refine congrArg (fun g => (Finset.univ : Finset (Fin 3)).fold max (Ideal.ofBits .f32 acc) g) (funext fun e => ?_)
  refine congrArg src (funext fun a => Fin.ext ?_)
  match a with
  | ⟨0, _⟩ => rfl
  | ⟨1, _⟩ => rfl

/-- The sum over the three rows of a `[3, 2048]` block, at lane `j`. -/
theorem rowSum_at (src : FVec Ideal S3x2048 .f32) (acc : BitVec 32) (h : S3x2048.Reduces [0] S2048)
    (hφ : FKind.Formats .f32) (hacc : acc = FKind.add.neutral .f32 hφ) (j : Fin 2048) :
    multiReduction .add [0] S2048 src acc h hφ hacc (ix1 j) = ∑ e : Fin 3, src (ix2 e j) := by
  refine (Ideal.multiReduction_add_single src acc h hφ hacc (ix1 j)).trans ?_
  refine Finset.sum_congr rfl fun e _ => ?_
  refine congrArg src (funext fun a => Fin.ext ?_)
  match a with
  | ⟨0, _⟩ => rfl
  | ⟨1, _⟩ => rfl

/-- A row cut out of a `[3, 2048]` block and broadcast over 64 rows reads, at `(r, j)`, the block's row at lane `j`. -/
theorem gateRow_apply (v : FVec Ideal S3x2048 .f32) (o : ℕ) (ho : o < 3) (hs : S3x2048.Slices ![o, 0] S1x2048)
    (hb : S1x2048.Broadcasts S64x2048) (r : Fin 64) (j : Fin 2048) :
    broadcastTo S64x2048 (extractStridedSlice S1x2048 ![o, 0] v hs) hb (ix2 r j) = v (ix2 (⟨o, ho⟩ : Fin 3) j) :=
  (broadcastTo_1b_ab_apply _ hb r j).trans
    (slice2_axis0_apply o v hs (0 : Fin 1) j (⟨o, ho⟩ : Fin 3) (by show o = o + 0; omega))

/-! ## The four products -/

theorem mm32x64_lhs0 (i : S32x2048.Idx) (q : dot_S32x64_S64x2048_S32x2048_1_0_0_1_n_n.contr.Idx) :
    (dot_S32x64_S64x2048_S32x2048_1_0_0_1_n_n.lhsIdx i q 0).val = (i 0).val := by
  unfold DotDims.lhsIdx
  rw [dif_neg (show ¬(0 : Fin S32x64.rank) ∈ dot_S32x64_S64x2048_S32x2048_1_0_0_1_n_n.lhsBatch by decide), dif_pos (show (0 : Fin S32x64.rank) ∈ dot_S32x64_S64x2048_S32x2048_1_0_0_1_n_n.lhsNonContracting by decide)]
  rfl
theorem mm32x64_rhs1 (i : S32x2048.Idx) (q : dot_S32x64_S64x2048_S32x2048_1_0_0_1_n_n.contr.Idx) :
    (dot_S32x64_S64x2048_S32x2048_1_0_0_1_n_n.rhsIdx i q 1).val = (i 1).val := by
  unfold DotDims.rhsIdx
  rw [dif_neg (show ¬(1 : Fin S64x2048.rank) ∈ dot_S32x64_S64x2048_S32x2048_1_0_0_1_n_n.rhsBatch by decide), dif_pos (show (1 : Fin S64x2048.rank) ∈ dot_S32x64_S64x2048_S32x2048_1_0_0_1_n_n.rhsNonContracting by decide)]
  rfl
/-- A product of a [32, 64] block with a [64, 2048] block, accumulated into zero, read at row `r` and lane `j`:
    the sum over the 64 contracted coordinates of the row's entry times the lane's entry. -/
theorem mm32x64_at (lhs : FVec Ideal S32x64 .f32) (rhs : FVec Ideal S64x2048 .f32) (r : Fin 32) (j : Fin 2048) :
    matmul dot_S32x64_S64x2048_S32x2048_1_0_0_1_n_n none lhs rhs (constant (F := Ideal) S32x2048 .f32 0x00000000#32) (ix2 r j)
      = ∑ k : Fin 64, lhs (ix2 r k) * rhs (ix2 k j) := by
  refine (Ideal.matmul_constant_zero_apply dot_S32x64_S64x2048_S32x2048_1_0_0_1_n_n none lhs rhs (ix2 r j)).trans ?_
  rw [← Equiv.sum_comp (contrEquiv1 dot_S32x64_S64x2048_S32x2048_1_0_0_1_n_n 64 rfl rfl).symm]
  refine Finset.sum_congr rfl fun k _ => ?_
  have hk := contrEquiv1_symm_val dot_S32x64_S64x2048_S32x2048_1_0_0_1_n_n 64 rfl rfl k
  have el : dot_S32x64_S64x2048_S32x2048_1_0_0_1_n_n.lhsIdx (ix2 r j) ((contrEquiv1 dot_S32x64_S64x2048_S32x2048_1_0_0_1_n_n 64 rfl rfl).symm k) = ix2 r k :=
    funext fun a => Fin.ext (by
      match a with
      | ⟨0, _⟩ => exact mm32x64_lhs0 _ _
      | ⟨1, _⟩ => exact (dot_S32x64_S64x2048_S32x2048_1_0_0_1_n_n.lhsIdx_val_of_single rfl (ix2 r j) _).trans hk)
  have er : dot_S32x64_S64x2048_S32x2048_1_0_0_1_n_n.rhsIdx (ix2 r j) ((contrEquiv1 dot_S32x64_S64x2048_S32x2048_1_0_0_1_n_n 64 rfl rfl).symm k) = ix2 k j :=
    funext fun a => Fin.ext (by
      match a with
      | ⟨0, _⟩ => exact (dot_S32x64_S64x2048_S32x2048_1_0_0_1_n_n.rhsIdx_val_of_single rfl (ix2 r j) _).trans hk
      | ⟨1, _⟩ => exact mm32x64_rhs1 _ _)
  rw [el, er]

theorem mm64x64_lhs0 (i : S64x2048.Idx) (q : dot_S64x64_S64x2048_S64x2048_1_0_0_1_n_n.contr.Idx) :
    (dot_S64x64_S64x2048_S64x2048_1_0_0_1_n_n.lhsIdx i q 0).val = (i 0).val := by
  unfold DotDims.lhsIdx
  rw [dif_neg (show ¬(0 : Fin S64x64.rank) ∈ dot_S64x64_S64x2048_S64x2048_1_0_0_1_n_n.lhsBatch by decide), dif_pos (show (0 : Fin S64x64.rank) ∈ dot_S64x64_S64x2048_S64x2048_1_0_0_1_n_n.lhsNonContracting by decide)]
  rfl
theorem mm64x64_rhs1 (i : S64x2048.Idx) (q : dot_S64x64_S64x2048_S64x2048_1_0_0_1_n_n.contr.Idx) :
    (dot_S64x64_S64x2048_S64x2048_1_0_0_1_n_n.rhsIdx i q 1).val = (i 1).val := by
  unfold DotDims.rhsIdx
  rw [dif_neg (show ¬(1 : Fin S64x2048.rank) ∈ dot_S64x64_S64x2048_S64x2048_1_0_0_1_n_n.rhsBatch by decide), dif_pos (show (1 : Fin S64x2048.rank) ∈ dot_S64x64_S64x2048_S64x2048_1_0_0_1_n_n.rhsNonContracting by decide)]
  rfl
/-- A product of a [64, 64] block with a [64, 2048] block, accumulated into zero, read at row `r` and lane `j`:
    the sum over the 64 contracted coordinates of the row's entry times the lane's entry. -/
theorem mm64x64_at (lhs : FVec Ideal S64x64 .f32) (rhs : FVec Ideal S64x2048 .f32) (r : Fin 64) (j : Fin 2048) :
    matmul dot_S64x64_S64x2048_S64x2048_1_0_0_1_n_n none lhs rhs (constant (F := Ideal) S64x2048 .f32 0x00000000#32) (ix2 r j)
      = ∑ k : Fin 64, lhs (ix2 r k) * rhs (ix2 k j) := by
  refine (Ideal.matmul_constant_zero_apply dot_S64x64_S64x2048_S64x2048_1_0_0_1_n_n none lhs rhs (ix2 r j)).trans ?_
  rw [← Equiv.sum_comp (contrEquiv1 dot_S64x64_S64x2048_S64x2048_1_0_0_1_n_n 64 rfl rfl).symm]
  refine Finset.sum_congr rfl fun k _ => ?_
  have hk := contrEquiv1_symm_val dot_S64x64_S64x2048_S64x2048_1_0_0_1_n_n 64 rfl rfl k
  have el : dot_S64x64_S64x2048_S64x2048_1_0_0_1_n_n.lhsIdx (ix2 r j) ((contrEquiv1 dot_S64x64_S64x2048_S64x2048_1_0_0_1_n_n 64 rfl rfl).symm k) = ix2 r k :=
    funext fun a => Fin.ext (by
      match a with
      | ⟨0, _⟩ => exact mm64x64_lhs0 _ _
      | ⟨1, _⟩ => exact (dot_S64x64_S64x2048_S64x2048_1_0_0_1_n_n.lhsIdx_val_of_single rfl (ix2 r j) _).trans hk)
  have er : dot_S64x64_S64x2048_S64x2048_1_0_0_1_n_n.rhsIdx (ix2 r j) ((contrEquiv1 dot_S64x64_S64x2048_S64x2048_1_0_0_1_n_n 64 rfl rfl).symm k) = ix2 k j :=
    funext fun a => Fin.ext (by
      match a with
      | ⟨0, _⟩ => exact (dot_S64x64_S64x2048_S64x2048_1_0_0_1_n_n.rhsIdx_val_of_single rfl (ix2 r j) _).trans hk
      | ⟨1, _⟩ => exact mm64x64_rhs1 _ _)
  rw [el, er]

theorem mm3x32_lhs0 (i : S3x2048.Idx) (q : dot_S3x32_S32x2048_S3x2048_1_0_0_1_n_n.contr.Idx) :
    (dot_S3x32_S32x2048_S3x2048_1_0_0_1_n_n.lhsIdx i q 0).val = (i 0).val := by
  unfold DotDims.lhsIdx
  rw [dif_neg (show ¬(0 : Fin S3x32.rank) ∈ dot_S3x32_S32x2048_S3x2048_1_0_0_1_n_n.lhsBatch by decide), dif_pos (show (0 : Fin S3x32.rank) ∈ dot_S3x32_S32x2048_S3x2048_1_0_0_1_n_n.lhsNonContracting by decide)]
  rfl
theorem mm3x32_rhs1 (i : S3x2048.Idx) (q : dot_S3x32_S32x2048_S3x2048_1_0_0_1_n_n.contr.Idx) :
    (dot_S3x32_S32x2048_S3x2048_1_0_0_1_n_n.rhsIdx i q 1).val = (i 1).val := by
  unfold DotDims.rhsIdx
  rw [dif_neg (show ¬(1 : Fin S32x2048.rank) ∈ dot_S3x32_S32x2048_S3x2048_1_0_0_1_n_n.rhsBatch by decide), dif_pos (show (1 : Fin S32x2048.rank) ∈ dot_S3x32_S32x2048_S3x2048_1_0_0_1_n_n.rhsNonContracting by decide)]
  rfl
/-- A product of a [3, 32] block with a [32, 2048] block, accumulated into zero, read at row `r` and lane `j`:
    the sum over the 32 contracted coordinates of the row's entry times the lane's entry. -/
theorem mm3x32_at (lhs : FVec Ideal S3x32 .f32) (rhs : FVec Ideal S32x2048 .f32) (r : Fin 3) (j : Fin 2048) :
    matmul dot_S3x32_S32x2048_S3x2048_1_0_0_1_n_n none lhs rhs (constant (F := Ideal) S3x2048 .f32 0x00000000#32) (ix2 r j)
      = ∑ k : Fin 32, lhs (ix2 r k) * rhs (ix2 k j) := by
  refine (Ideal.matmul_constant_zero_apply dot_S3x32_S32x2048_S3x2048_1_0_0_1_n_n none lhs rhs (ix2 r j)).trans ?_
  rw [← Equiv.sum_comp (contrEquiv1 dot_S3x32_S32x2048_S3x2048_1_0_0_1_n_n 32 rfl rfl).symm]
  refine Finset.sum_congr rfl fun k _ => ?_
  have hk := contrEquiv1_symm_val dot_S3x32_S32x2048_S3x2048_1_0_0_1_n_n 32 rfl rfl k
  have el : dot_S3x32_S32x2048_S3x2048_1_0_0_1_n_n.lhsIdx (ix2 r j) ((contrEquiv1 dot_S3x32_S32x2048_S3x2048_1_0_0_1_n_n 32 rfl rfl).symm k) = ix2 r k :=
    funext fun a => Fin.ext (by
      match a with
      | ⟨0, _⟩ => exact mm3x32_lhs0 _ _
      | ⟨1, _⟩ => exact (dot_S3x32_S32x2048_S3x2048_1_0_0_1_n_n.lhsIdx_val_of_single rfl (ix2 r j) _).trans hk)
  have er : dot_S3x32_S32x2048_S3x2048_1_0_0_1_n_n.rhsIdx (ix2 r j) ((contrEquiv1 dot_S3x32_S32x2048_S3x2048_1_0_0_1_n_n 32 rfl rfl).symm k) = ix2 k j :=
    funext fun a => Fin.ext (by
      match a with
      | ⟨0, _⟩ => exact (dot_S3x32_S32x2048_S3x2048_1_0_0_1_n_n.rhsIdx_val_of_single rfl (ix2 r j) _).trans hk
      | ⟨1, _⟩ => exact mm3x32_rhs1 _ _)
  rw [el, er]

theorem mm64x32_lhs0 (i : S64x2048.Idx) (q : dot_S64x32_S32x2048_S64x2048_1_0_0_1_n_n.contr.Idx) :
    (dot_S64x32_S32x2048_S64x2048_1_0_0_1_n_n.lhsIdx i q 0).val = (i 0).val := by
  unfold DotDims.lhsIdx
  rw [dif_neg (show ¬(0 : Fin S64x32.rank) ∈ dot_S64x32_S32x2048_S64x2048_1_0_0_1_n_n.lhsBatch by decide), dif_pos (show (0 : Fin S64x32.rank) ∈ dot_S64x32_S32x2048_S64x2048_1_0_0_1_n_n.lhsNonContracting by decide)]
  rfl
theorem mm64x32_rhs1 (i : S64x2048.Idx) (q : dot_S64x32_S32x2048_S64x2048_1_0_0_1_n_n.contr.Idx) :
    (dot_S64x32_S32x2048_S64x2048_1_0_0_1_n_n.rhsIdx i q 1).val = (i 1).val := by
  unfold DotDims.rhsIdx
  rw [dif_neg (show ¬(1 : Fin S32x2048.rank) ∈ dot_S64x32_S32x2048_S64x2048_1_0_0_1_n_n.rhsBatch by decide), dif_pos (show (1 : Fin S32x2048.rank) ∈ dot_S64x32_S32x2048_S64x2048_1_0_0_1_n_n.rhsNonContracting by decide)]
  rfl
/-- A product of a [64, 32] block with a [32, 2048] block, accumulated into zero, read at row `r` and lane `j`:
    the sum over the 32 contracted coordinates of the row's entry times the lane's entry. -/
theorem mm64x32_at (lhs : FVec Ideal S64x32 .f32) (rhs : FVec Ideal S32x2048 .f32) (r : Fin 64) (j : Fin 2048) :
    matmul dot_S64x32_S32x2048_S64x2048_1_0_0_1_n_n none lhs rhs (constant (F := Ideal) S64x2048 .f32 0x00000000#32) (ix2 r j)
      = ∑ k : Fin 32, lhs (ix2 r k) * rhs (ix2 k j) := by
  refine (Ideal.matmul_constant_zero_apply dot_S64x32_S32x2048_S64x2048_1_0_0_1_n_n none lhs rhs (ix2 r j)).trans ?_
  rw [← Equiv.sum_comp (contrEquiv1 dot_S64x32_S32x2048_S64x2048_1_0_0_1_n_n 32 rfl rfl).symm]
  refine Finset.sum_congr rfl fun k _ => ?_
  have hk := contrEquiv1_symm_val dot_S64x32_S32x2048_S64x2048_1_0_0_1_n_n 32 rfl rfl k
  have el : dot_S64x32_S32x2048_S64x2048_1_0_0_1_n_n.lhsIdx (ix2 r j) ((contrEquiv1 dot_S64x32_S32x2048_S64x2048_1_0_0_1_n_n 32 rfl rfl).symm k) = ix2 r k :=
    funext fun a => Fin.ext (by
      match a with
      | ⟨0, _⟩ => exact mm64x32_lhs0 _ _
      | ⟨1, _⟩ => exact (dot_S64x32_S32x2048_S64x2048_1_0_0_1_n_n.lhsIdx_val_of_single rfl (ix2 r j) _).trans hk)
  have er : dot_S64x32_S32x2048_S64x2048_1_0_0_1_n_n.rhsIdx (ix2 r j) ((contrEquiv1 dot_S64x32_S32x2048_S64x2048_1_0_0_1_n_n 32 rfl rfl).symm k) = ix2 k j :=
    funext fun a => Fin.ext (by
      match a with
      | ⟨0, _⟩ => exact (dot_S64x32_S32x2048_S64x2048_1_0_0_1_n_n.rhsIdx_val_of_single rfl (ix2 r j) _).trans hk
      | ⟨1, _⟩ => exact mm64x32_rhs1 _ _)
  rw [el, er]

end Cert.KernelIdeal.Cell
end
-- ==== Proof.IdealCell1.lean ====
/-
  The step's arithmetic, value by value.

  Each value the step computes is a composition of the operations read in the previous module; here it is read at a
  row and a lane as a function of the values it is computed from, whatever those are: the two halves of an affine map
  as two sums over the contracted coordinate, a bias as its row's entry, the softmax over the three experts from the
  lane's three logits, an Euler step from the state and the field, and the mixed state from the gate's three weights.
-/
import proofs.«168256_g38233798869014_cont_8to1_b_1562_16_alg».proof.Proof.IdealCell0

noncomputable section

open scoped BigOperators

namespace Cert.KernelIdeal.Cell

open Cert.KernelIdeal Cert.KernelIdeal.Gen
open Idealize.ShloMosaic Idealize.ShloMosaic.ValueIdx

/-! ## The step's arithmetic, value by value, at a row and a lane

Each of the step's values is read at `(r, j)` from the values it is computed from, whatever those are. -/

theorem pay5_eq (v79 : Vec Ideal S64x2048 .f32) : k0_pay5 v79 = v79 := by
  unfold k0_pay5
  exact shapeCast_self v79 _

theorem pay7_eq (v88 : Vec Ideal S32x1 .f32) : k0_pay7 v88 = v88 := by
  unfold k0_pay7
  exact shapeCast_self v88 _

/-- The hidden layer of the gate before its bias: the state's half plus the mean's half. -/
theorem pay6_at (v58 : FVec Ideal S64x2048 .f32) (v59 v62 v65 v68 v71 v74 : Vec Ideal S1x64x2048 .f32)
    (v79 : Vec Ideal S64x2048 .f32) (v81 v84 : Vec Ideal S32x64 .f32) (g : Fin 32) (j : Fin 2048) :
    k0_pay6 v58 v59 v62 v65 v68 v71 v74 v79 v81 v84 (ix2 g j)
      = (∑ f : Fin 64, v81 (ix2 g f) * v79 (ix2 f j))
        + (∑ f : Fin 64, v84 (ix2 g f) * k0_pay4 v58 v59 v62 v65 v68 v71 v74 (ix2 f j)) := by
  unfold k0_pay6
  simp only [shapeCast_self, pay5_eq]
  refine congrArg₂ (· + ·) ?_ ?_
  · exact mm32x64_at _ _ g j
  · exact mm32x64_at _ _ g j

/-- The local expert. -/
theorem pay9_at (v78 v80 : FVec Ideal S64x2048 .f32) (v109 v112 : Vec Ideal S64x64 .f32) (v116 : Vec Ideal S64x1 .f32)
    (r : Fin 64) (j : Fin 2048) :
    k0_pay9 v78 v80 v109 v112 v116 (ix2 r j)
      = Ideal.tanh (((∑ f : Fin 64, v109 (ix2 r f) * v80 (ix2 f j)) + (∑ f : Fin 64, v112 (ix2 r f) * v78 (ix2 f j)))
          + v116 (ix2 r 0)) := by
  unfold k0_pay9
  simp only [shapeCast_self]
  refine congrArg Ideal.tanh (congrArg₂ (· + ·) (congrArg₂ (· + ·) ?_ ?_) ?_)
  · exact mm64x64_at _ _ r j
  · exact mm64x64_at _ _ r j
  · exact broadcastTo_a1_ab_apply _ _ r j

/-- The message before its bias. -/
theorem pay10_at (v78 v80 : FVec Ideal S64x2048 .f32) (v121 v124 : Vec Ideal S32x64 .f32) (g : Fin 32) (j : Fin 2048) :
    k0_pay10 v78 v80 v121 v124 (ix2 g j)
      = (∑ f : Fin 64, v121 (ix2 g f) * v80 (ix2 f j)) + (∑ f : Fin 64, v124 (ix2 g f) * v78 (ix2 f j)) := by
  unfold k0_pay10
  simp only [shapeCast_self]
  refine congrArg₂ (· + ·) ?_ ?_
  · exact mm32x64_at _ _ g j
  · exact mm32x64_at _ _ g j

/-- The message-passing expert, from the message before its bias. -/
theorem pay11_at (v80 : FVec Ideal S64x2048 .f32) (v127 : FVec Ideal S32x2048 .f32) (v128 : Vec Ideal S32x1 .f32)
    (v133 : Vec Ideal S64x64 .f32) (v136 : Vec Ideal S64x32 .f32) (v140 : Vec Ideal S64x1 .f32) (r : Fin 64) (j : Fin 2048) :
    k0_pay11 v80 v127 v128 v133 v136 v140 (ix2 r j)
      = Ideal.tanh (((∑ f : Fin 64, v133 (ix2 r f) * v80 (ix2 f j))
            + (∑ g : Fin 32, v136 (ix2 r g) * Ideal.tanh (v127 (ix2 g j) + v128 (ix2 g 0))))
          + v140 (ix2 r 0)) := by
  unfold k0_pay11
  simp only [shapeCast_self]
  refine congrArg Ideal.tanh (congrArg₂ (· + ·) (congrArg₂ (· + ·) ?_ ?_) ?_)
  · exact mm64x64_at _ _ r j
  · refine (mm64x32_at _ _ r j).trans (Finset.sum_congr rfl fun g _ => ?_)
    exact congrArg (v136 (ix2 r g) * ·) (congrArg Ideal.tanh (congrArg (v127 (ix2 g j) + ·) (broadcastTo_a1_ab_apply _ _ g j)))
  · exact broadcastTo_a1_ab_apply _ _ r j

/-- The part of the flow's field that the mean fixes. -/
theorem pay12_at (v78 : FVec Ideal S64x2048 .f32) (v145 : Vec Ideal S64x64 .f32) (v148 : Vec Ideal S64x1 .f32)
    (r : Fin 64) (j : Fin 2048) :
    k0_pay12 v78 v145 v148 (ix2 r j) = (∑ f : Fin 64, v145 (ix2 r f) * v78 (ix2 f j)) + v148 (ix2 r 0) := by
  unfold k0_pay12
  simp only [shapeCast_self]
  refine congrArg₂ (· + ·) ?_ ?_
  · exact mm64x64_at _ _ r j
  · exact broadcastTo_a1_ab_apply _ _ r j

/-- The first Euler step. -/
theorem pay13_at (v78 v80 : FVec Ideal S64x2048 .f32) (v145 : Vec Ideal S64x64 .f32) (v148 : Vec Ideal S64x1 .f32)
    (v152 : Vec Ideal S64x64 .f32) (r : Fin 64) (j : Fin 2048) :
    k0_pay13 v78 v80 v145 v148 v152 (ix2 r j)
      = v80 (ix2 r j) + Mixture.third * Ideal.tanh ((∑ f : Fin 64, v152 (ix2 r f) * v80 (ix2 f j))
          + k0_pay12 v78 v145 v148 (ix2 r j)) := by
  unfold k0_pay13
  simp only [shapeCast_self]
  refine congrArg (v80 (ix2 r j) + ·) (congrArg (Mixture.third * ·) (congrArg Ideal.tanh (congrArg (· + _) ?_)))
  exact mm64x64_at _ _ r j

/-- The field at the state after the first step. -/
theorem pay14_at (v78 v80 : FVec Ideal S64x2048 .f32) (v145 : Vec Ideal S64x64 .f32) (v148 : Vec Ideal S64x1 .f32)
    (v152 v160 : Vec Ideal S64x64 .f32) (r : Fin 64) (j : Fin 2048) :
    k0_pay14 v78 v80 v145 v148 v152 v160 (ix2 r j)
      = Ideal.tanh ((∑ f : Fin 64, v160 (ix2 r f) * k0_pay13 v78 v80 v145 v148 v152 (ix2 f j))
          + k0_pay12 v78 v145 v148 (ix2 r j)) := by
  unfold k0_pay14
  simp only [shapeCast_self]
  refine congrArg Ideal.tanh (congrArg (· + _) ?_)
  exact mm64x64_at _ _ r j

/-- The Euler step's length, on every row and lane. -/
theorem pay15_at (i : S64x2048.Idx) : k0_pay15 (F := Ideal) i = Mixture.third := rfl

/-- The softmax over the three rows of a `[3, 2048]` block of logits, at row `e` and lane `j`, from the lane's three
    logits `L`: the exponential of the logit less the lane's maximum, over the sum of the three such exponentials. -/
theorem softmax_at (v99 : FVec Ideal S3x2048 .f32) (hr : S3x2048.Reduces [0] S2048) (hc : S2048.ShapeCasts S1x2048)
    (hb : S1x2048.Broadcasts S3x2048) (hφ : FKind.Formats .f32)
    (hm : (0xFF800000#32 : BitVec 32) = FKind.maximumf.neutral .f32 hφ)
    (ha : (0x00000000#32 : BitVec 32) = FKind.add.neutral .f32 hφ)
    (j : Fin 2048) (L : Fin 3 → EReal) (hL : ∀ e' : Fin 3, v99 (ix2 e' j) = L e') (e : Fin 3) :
    divf (exp (subf v99 (broadcastTo S3x2048 (shapeCast S1x2048
            (multiReduction .maximumf [0] S2048 v99 0xFF800000#32 hr hφ hm) hc) hb)))
        (broadcastTo S3x2048 (shapeCast S1x2048
          (multiReduction .add [0] S2048 (exp (subf v99 (broadcastTo S3x2048 (shapeCast S1x2048
            (multiReduction .maximumf [0] S2048 v99 0xFF800000#32 hr hφ hm) hc) hb))) 0x00000000#32 hr hφ ha) hc) hb)
        (ix2 e j)
      = Ideal.div (Ideal.exp (L e - (Finset.univ : Finset (Fin 3)).fold max Mixture.negInf L))
          (∑ e' : Fin 3, Ideal.exp (L e' - (Finset.univ : Finset (Fin 3)).fold max Mixture.negInf L)) := by
  have hmax : ∀ e' : Fin 3, broadcastTo S3x2048 (shapeCast S1x2048
        (multiReduction .maximumf [0] S2048 v99 0xFF800000#32 hr hφ hm) hc) hb (ix2 e' j)
      = (Finset.univ : Finset (Fin 3)).fold max Mixture.negInf L := fun e' =>
    (rowBroadcast_apply _ hc hb e' j).trans ((rowMax_at v99 _ hr hφ hm j).trans
      (congrArg (fun g => (Finset.univ : Finset (Fin 3)).fold max Mixture.negInf g) (funext hL)))
  refine congrArg₂ Ideal.div ?_ ?_
  · exact congrArg Ideal.exp (congrArg₂ (· - ·) (hL e) (hmax e))
  · refine (rowBroadcast_apply _ hc hb e j).trans ((rowSum_at _ _ hr hφ ha j).trans ?_)
    exact Finset.sum_congr rfl fun e' _ => congrArg Ideal.exp (congrArg₂ (· - ·) (hL e') (hmax e'))

/-- A lane's three logits, from the gate's hidden layer before its bias. -/
def logitOf (v87 : FVec Ideal S32x2048 .f32) (v89 : FVec Ideal S32x1 .f32) (v93 : Vec Ideal S3x32 .f32)
    (v96 : Vec Ideal S3x1 .f32) (j : Fin 2048) (e : Fin 3) : EReal :=
  (∑ g : Fin 32, v93 (ix2 e g) * Ideal.tanh (v87 (ix2 g j) + v89 (ix2 g 0))) + v96 (ix2 e 0)

/-- The gate weights: the softmax of the lane's three logits. -/
theorem pay8_at (v87 : FVec Ideal S32x2048 .f32) (v89 : FVec Ideal S32x1 .f32) (v93 : Vec Ideal S3x32 .f32)
    (v96 : Vec Ideal S3x1 .f32) (e : Fin 3) (j : Fin 2048) :
    k0_pay8 v87 v89 v93 v96 (ix2 e j)
      = Ideal.div (Ideal.exp (logitOf v87 v89 v93 v96 j e
            - (Finset.univ : Finset (Fin 3)).fold max Mixture.negInf (logitOf v87 v89 v93 v96 j)))
          (∑ e' : Fin 3, Ideal.exp (logitOf v87 v89 v93 v96 j e'
            - (Finset.univ : Finset (Fin 3)).fold max Mixture.negInf (logitOf v87 v89 v93 v96 j))) := by
  unfold k0_pay8
  simp only [shapeCast_self]
  refine softmax_at _ _ _ _ _ _ _ j (logitOf v87 v89 v93 v96 j) (fun e' => ?_) e
  refine congrArg₂ (· + ·) ((mm3x32_at _ _ e' j).trans (Finset.sum_congr rfl fun g _ => ?_))
    (broadcastTo_a1_ab_apply _ _ e' j)
  exact congrArg (v93 (ix2 e' g) * ·) (congrArg Ideal.tanh (congrArg (v87 (ix2 g j) + ·) (broadcastTo_a1_ab_apply _ _ g j)))

/-- The mixed state: the gate's three weights on the local expert, the message-passing expert, and the flow's third
    Euler step taken from its second. -/
theorem pay1_at (v108 : FVec Ideal S3x2048 .f32) (v120 v144 v151 v159 v164 v165 : FVec Ideal S64x2048 .f32)
    (v168 : Vec Ideal S64x64 .f32) (r : Fin 64) (j : Fin 2048) :
    k0_pay1 v108 v120 v144 v151 v159 v164 v165 v168 (ix2 r j)
      = (v108 (ix2 0 j) * v120 (ix2 r j) + v108 (ix2 1 j) * v144 (ix2 r j))
        + v108 (ix2 2 j) * ((v159 (ix2 r j) + v165 (ix2 r j) * v164 (ix2 r j))
            + Mixture.third * Ideal.tanh ((∑ f : Fin 64, v168 (ix2 r f) * (v159 (ix2 f j) + v165 (ix2 f j) * v164 (ix2 f j)))
                + v151 (ix2 r j))) := by
  unfold k0_pay1
  simp only [shapeCast_self]
  refine congrArg₂ (· + ·) (congrArg₂ (· + ·) (congrArg (· * _) ?_) (congrArg (· * _) ?_)) (congrArg₂ (· * ·) ?_ ?_)
  · exact gateRow_apply v108 0 (by omega) _ _ r j
  · exact gateRow_apply v108 1 (by omega) _ _ r j
  · exact gateRow_apply v108 2 (by omega) _ _ r j
  · refine congrArg (_ + ·) (congrArg (Mixture.third * ·) (congrArg Ideal.tanh (congrArg (· + _) ?_)))
    exact mm64x64_at _ _ r j

end Cert.KernelIdeal.Cell
end
-- ==== Proof.IdealCell.lean ====
/-
  One grid step, lane by lane: lane `j` of what the step stores is the update of lane `j`'s cell.

  The step holds 2048 cells along the lanes. Its mean block at `(f, j)` is the mean of lane `j`'s 26 neighbour columns;
  every product of a weight block with a block of lane columns contracts over the features and leaves the lane alone;
  a bias column is broadcast along the lanes; the softmax reduces over the three experts' rows within a lane. So each
  value of the step, read at lane `j`, is the corresponding value of the one-cell update of the column
  `(x1 (·, j), x0 (·, ·, j))` under the weights the seventeen weight blocks hold: the gate weights (`gate_at`) and the
  mixed state (`mix_at`). In particular the result on a lane depends on no other lane.
-/
import proofs.«168256_g38233798869014_cont_8to1_b_1562_16_alg».proof.Proof.IdealBlock
import proofs.«168256_g38233798869014_cont_8to1_b_1562_16_alg».proof.Proof.Mixture
import proofs.«168256_g38233798869014_cont_8to1_b_1562_16_alg».proof.Proof.IdealCell1

noncomputable section

open scoped BigOperators

namespace Cert.KernelIdeal.Cell

open Cert.KernelIdeal Cert.KernelIdeal.Gen
open Idealize.ShloMosaic Idealize.ShloMosaic.ValueIdx

variable (x0 : Vec Ideal S26x64x2048 .f32) (x1 : Vec Ideal S64x2048 .f32) (x2 x3 : Vec Ideal S32x64 .f32)
  (x4 : Vec Ideal S32x1 .f32) (x5 : Vec Ideal S3x32 .f32) (x6 : Vec Ideal S3x1 .f32) (x7 x8 : Vec Ideal S64x64 .f32)
  (x9 : Vec Ideal S64x1 .f32) (x10 x11 : Vec Ideal S32x64 .f32) (x12 : Vec Ideal S32x1 .f32) (x13 : Vec Ideal S64x64 .f32)
  (x14 : Vec Ideal S64x32 .f32) (x15 : Vec Ideal S64x1 .f32) (x16 x17 : Vec Ideal S64x64 .f32) (x18 : Vec Ideal S64x1 .f32)

/-! ## The neighbours' mean and the cells' states -/

theorem slab_at' (K : ℕ)
    (inb : ∀ a, (![K, 0, 0] : Fin 3 → Nat) a + S1x64x2048.size a ≤ S26x64x2048.size a)
    (h : S1x64x2048.ShapeCasts S64x2048) (f : Fin 64) (j : Fin 2048) :
    shapeCast S64x2048 (View.ld x0 (Rect.unit (s := S26x64x2048) ![K, 0, 0] S1x64x2048.size inb)) h (ix2 f j)
      = x0 (ix3 (⟨K, inb 0⟩ : Fin 26) f j) :=
  slab_at x0 K (inb 0) inb h f j

/-- The mean block at `(f, j)` is the mean of lane `j`'s 26 neighbour columns at coordinate `f`. -/
theorem meanBlock_at (f : Fin 64) (j : Fin 2048) :
    Block.meanBlock (F := Ideal) x0 (ix2 f j) = Mixture.mean (fun k f => x0 (ix3 k f j)) f := by
  unfold Block.meanBlock Block.sumTo20 Block.sumTo10 k0_pay4 k0_pay3 k0_pay2
  simp only [addf_apply, mulf_apply, broadcast_apply, inv26]
  rw [slab_at' x0 0, slab_at' x0 1, slab_at' x0 2, slab_at' x0 3, slab_at' x0 4, slab_at' x0 5, slab_at' x0 6, slab_at' x0 7, slab_at' x0 8, slab_at' x0 9, slab_at' x0 10, slab_at' x0 11, slab_at' x0 12, slab_at' x0 13, slab_at' x0 14, slab_at' x0 15, slab_at' x0 16, slab_at' x0 17, slab_at' x0 18, slab_at' x0 19, slab_at' x0 20, slab_at' x0 21, slab_at' x0 22, slab_at' x0 23, slab_at' x0 24, slab_at' x0 25]
  exact congrArg (· * _) (sum26 fun k => x0 (ix3 k f j))

/-- The state block is the cells' states as held. -/
theorem stateBlock_eq : Block.stateBlock (F := Ideal) x1 = x1 := by
  unfold Block.stateBlock
  exact (pay5_eq _).trans (ld_whole2 x1 _)

/-! ## The gate -/

theorem gatePre_at (g : Fin 32) (j : Fin 2048) :
    Block.gatePre (F := Ideal) x0 x1 x2 x3 (ix2 g j)
      = (∑ f : Fin 64, x2 (ix2 g f) * x1 (ix2 f j)) + (∑ f : Fin 64, x3 (ix2 g f) * Mixture.mean (fun k f => x0 (ix3 k f j)) f) := by
  unfold Block.gatePre
  refine (pay6_at _ _ _ _ _ _ _ _ _ _ g j).trans ?_
  refine congrArg₂ (· + ·) (Finset.sum_congr rfl fun f _ => ?_) (Finset.sum_congr rfl fun f _ => ?_)
  · exact congrArg₂ (· * ·) (congrFun (ld_whole2 x2 _) _) (congrFun (ld_whole2 x1 _) _)
  · exact congrArg₂ (· * ·) (congrFun (ld_whole2 x3 _) _) (meanBlock_at x0 f j)

theorem gateBias_eq : Block.gateBias (F := Ideal) x4 = x4 := by
  unfold Block.gateBias
  exact (pay7_eq _).trans (ld_whole2 x4 _)

/-- Lane `j` of the gate block is the gate of lane `j`'s cell. -/
theorem gate_at (e : Fin 3) (j : Fin 2048) :
    Block.gateBlock (F := Ideal) x0 x1 x2 x3 x4 x5 x6 (ix2 e j)
      = Cert.Mixture.gate (Cert.Mixture.ofBlocks x2 x3 x4 x5 x6 x7 x8 x9 x10 x11 x12 x13 x14 x15 x16 x17 x18) (fun f => x1 (ix2 f j)) (fun k f => x0 (ix3 k f j)) e := by
  unfold Block.gateBlock
  refine (pay8_at _ _ _ _ e j).trans ?_
  have hL : logitOf (Block.gatePre (F := Ideal) x0 x1 x2 x3) (Block.gateBias (F := Ideal) x4) (View.ld x5 Block.whole_S3x32)
      (View.ld x6 Block.whole_S3x1) j
      = Cert.Mixture.logit (Cert.Mixture.ofBlocks x2 x3 x4 x5 x6 x7 x8 x9 x10 x11 x12 x13 x14 x15 x16 x17 x18) (fun f => x1 (ix2 f j)) (fun k f => x0 (ix3 k f j)) := funext fun e' =>
    congrArg₂ (· + ·)
      (Finset.sum_congr rfl fun g _ => congrArg₂ (· * ·) (congrFun (ld_whole2 x5 _) _)
        (congrArg Ideal.tanh (congrArg₂ (· + ·) (gatePre_at x0 x1 x2 x3 g j) (congrFun (gateBias_eq x4) _))))
      (congrFun (ld_whole2 x6 _) _)
  rw [hL]
  rfl

/-! ## The experts -/

/-- Lane `j` of the local expert's block. -/
theorem localBlock_at (r : Fin 64) (j : Fin 2048) :
    Block.localBlock (F := Ideal) x0 x1 x7 x8 x9 (ix2 r j)
      = Cert.Mixture.localOut (Cert.Mixture.ofBlocks x2 x3 x4 x5 x6 x7 x8 x9 x10 x11 x12 x13 x14 x15 x16 x17 x18) (fun f => x1 (ix2 f j)) (fun k f => x0 (ix3 k f j)) r := by
  unfold Block.localBlock
  refine (pay9_at _ _ _ _ _ r j).trans ?_
  refine congrArg Ideal.tanh (congrArg₂ (· + ·) (congrArg₂ (· + ·) (Finset.sum_congr rfl fun f _ => ?_)
    (Finset.sum_congr rfl fun f _ => ?_)) (congrFun (ld_whole2 x9 _) _))
  · exact congrArg₂ (· * ·) (congrFun (ld_whole2 x7 _) _) (congrFun (stateBlock_eq x1) _)
  · exact congrArg₂ (· * ·) (congrFun (ld_whole2 x8 _) _) (meanBlock_at x0 f j)

theorem msgPre_at (g : Fin 32) (j : Fin 2048) :
    Block.msgPre (F := Ideal) x0 x1 x10 x11 (ix2 g j)
      = (∑ f : Fin 64, x10 (ix2 g f) * x1 (ix2 f j)) + (∑ f : Fin 64, x11 (ix2 g f) * Mixture.mean (fun k f => x0 (ix3 k f j)) f) := by
  unfold Block.msgPre
  refine (pay10_at _ _ _ _ g j).trans ?_
  refine congrArg₂ (· + ·) (Finset.sum_congr rfl fun f _ => ?_) (Finset.sum_congr rfl fun f _ => ?_)
  · exact congrArg₂ (· * ·) (congrFun (ld_whole2 x10 _) _) (congrFun (stateBlock_eq x1) _)
  · exact congrArg₂ (· * ·) (congrFun (ld_whole2 x11 _) _) (meanBlock_at x0 f j)

/-- Lane `j` of the message-passing expert's block. -/
theorem funcBlock_at (r : Fin 64) (j : Fin 2048) :
    Block.funcBlock (F := Ideal) x0 x1 x10 x11 x12 x13 x14 x15 (ix2 r j)
      = Cert.Mixture.funcOut (Cert.Mixture.ofBlocks x2 x3 x4 x5 x6 x7 x8 x9 x10 x11 x12 x13 x14 x15 x16 x17 x18) (fun f => x1 (ix2 f j)) (fun k f => x0 (ix3 k f j)) r := by
  unfold Block.funcBlock
  refine (pay11_at _ _ _ _ _ _ r j).trans ?_
  refine congrArg Ideal.tanh (congrArg₂ (· + ·) (congrArg₂ (· + ·) (Finset.sum_congr rfl fun f _ => ?_)
    (Finset.sum_congr rfl fun g _ => ?_)) (congrFun (ld_whole2 x15 _) _))
  · exact congrArg₂ (· * ·) (congrFun (ld_whole2 x13 _) _) (congrFun (stateBlock_eq x1) _)
  · exact congrArg₂ (· * ·) (congrFun (ld_whole2 x14 _) _)
      (congrArg Ideal.tanh (congrArg₂ (· + ·) (msgPre_at x0 x1 x10 x11 g j) (congrFun (ld_whole2 x12 _) _)))

/-! ## The flow -/

/-- Lane `j` of the part of the field that the mean fixes. -/
theorem flowBaseBlock_at (r : Fin 64) (j : Fin 2048) :
    Block.flowBaseBlock (F := Ideal) x0 x17 x18 (ix2 r j) = Cert.Mixture.flowBase (Cert.Mixture.ofBlocks x2 x3 x4 x5 x6 x7 x8 x9 x10 x11 x12 x13 x14 x15 x16 x17 x18) (fun k f => x0 (ix3 k f j)) r := by
  unfold Block.flowBaseBlock
  refine (pay12_at _ _ _ r j).trans ?_
  refine congrArg₂ (· + ·) (Finset.sum_congr rfl fun f _ => ?_) (congrFun (ld_whole2 x18 _) _)
  exact congrArg₂ (· * ·) (congrFun (ld_whole2 x17 _) _) (meanBlock_at x0 f j)

/-- Lane `j` after the first Euler step. -/
theorem flow1Block_at (r : Fin 64) (j : Fin 2048) :
    Block.flow1Block (F := Ideal) x0 x1 x16 x17 x18 (ix2 r j)
      = Cert.Mixture.flowStep (Cert.Mixture.ofBlocks x2 x3 x4 x5 x6 x7 x8 x9 x10 x11 x12 x13 x14 x15 x16 x17 x18) (fun k f => x0 (ix3 k f j)) (fun f => x1 (ix2 f j)) r := by
  unfold Block.flow1Block
  refine (pay13_at _ _ _ _ _ r j).trans ?_
  refine congrArg₂ (· + ·) (congrFun (stateBlock_eq x1) _) (congrArg (Mixture.third * ·) (congrArg Ideal.tanh
    (congrArg₂ (· + ·) (Finset.sum_congr rfl fun f _ => ?_) (flowBaseBlock_at x0 x2 x3 x4 x5 x6 x7 x8 x9 x10 x11 x12 x13 x14 x15 x16 x17 x18 r j))))
  exact congrArg₂ (· * ·) (congrFun (ld_whole2 x16 _) _) (congrFun (stateBlock_eq x1) _)

/-- Lane `j` of the field at the state after the first step. -/
theorem field2Block_at (r : Fin 64) (j : Fin 2048) :
    Block.field2Block (F := Ideal) x0 x1 x16 x17 x18 (ix2 r j)
      = Ideal.tanh ((∑ f : Fin 64, x16 (ix2 r f) * Cert.Mixture.flowStep (Cert.Mixture.ofBlocks x2 x3 x4 x5 x6 x7 x8 x9 x10 x11 x12 x13 x14 x15 x16 x17 x18) (fun k f => x0 (ix3 k f j)) (fun f => x1 (ix2 f j)) f)
          + Cert.Mixture.flowBase (Cert.Mixture.ofBlocks x2 x3 x4 x5 x6 x7 x8 x9 x10 x11 x12 x13 x14 x15 x16 x17 x18) (fun k f => x0 (ix3 k f j)) r) := by
  unfold Block.field2Block
  refine (pay14_at _ _ _ _ _ _ r j).trans ?_
  refine congrArg Ideal.tanh (congrArg₂ (· + ·) (Finset.sum_congr rfl fun f _ => ?_) (flowBaseBlock_at x0 x2 x3 x4 x5 x6 x7 x8 x9 x10 x11 x12 x13 x14 x15 x16 x17 x18 r j))
  exact congrArg₂ (· * ·) (congrFun (ld_whole2 x16 _) _) (flow1Block_at x0 x1 x2 x3 x4 x5 x6 x7 x8 x9 x10 x11 x12 x13 x14 x15 x16 x17 x18 f j)

/-! ## The mixed state -/

/-- Lane `j` of the step's result is the update of lane `j`'s cell: the result on a lane depends on no other lane. -/
theorem mix_at (r : Fin 64) (j : Fin 2048) :
    Block.mixBlock (F := Ideal) x0 x1 x2 x3 x4 x5 x6 x7 x8 x9 x10 x11 x12 x13 x14 x15 x16 x17 x18 (ix2 r j)
      = Cert.Mixture.out (Cert.Mixture.ofBlocks x2 x3 x4 x5 x6 x7 x8 x9 x10 x11 x12 x13 x14 x15 x16 x17 x18) (fun f => x1 (ix2 f j)) (fun k f => x0 (ix3 k f j)) r := by
  unfold Block.mixBlock
  refine (pay1_at _ _ _ _ _ _ _ _ r j).trans ?_
  have h2 : ∀ f : Fin 64,
      Block.flow1Block (F := Ideal) x0 x1 x16 x17 x18 (ix2 f j)
          + k0_pay15 (F := Ideal) (ix2 f j) * Block.field2Block (F := Ideal) x0 x1 x16 x17 x18 (ix2 f j)
        = Cert.Mixture.flowStep (Cert.Mixture.ofBlocks x2 x3 x4 x5 x6 x7 x8 x9 x10 x11 x12 x13 x14 x15 x16 x17 x18) (fun k f => x0 (ix3 k f j))
            (Cert.Mixture.flowStep (Cert.Mixture.ofBlocks x2 x3 x4 x5 x6 x7 x8 x9 x10 x11 x12 x13 x14 x15 x16 x17 x18) (fun k f => x0 (ix3 k f j)) (fun f => x1 (ix2 f j))) f := fun f =>
    congrArg₂ (· + ·) (flow1Block_at x0 x1 x2 x3 x4 x5 x6 x7 x8 x9 x10 x11 x12 x13 x14 x15 x16 x17 x18 f j)
      (congrArg₂ (· * ·) (pay15_at _) (field2Block_at x0 x1 x2 x3 x4 x5 x6 x7 x8 x9 x10 x11 x12 x13 x14 x15 x16 x17 x18 f j))
  refine congrArg₂ (· + ·)
    (congrArg₂ (· + ·)
      (congrArg₂ (· * ·) (gate_at x0 x1 x2 x3 x4 x5 x6 x7 x8 x9 x10 x11 x12 x13 x14 x15 x16 x17 x18 0 j) (localBlock_at x0 x1 x2 x3 x4 x5 x6 x7 x8 x9 x10 x11 x12 x13 x14 x15 x16 x17 x18 r j))
      (congrArg₂ (· * ·) (gate_at x0 x1 x2 x3 x4 x5 x6 x7 x8 x9 x10 x11 x12 x13 x14 x15 x16 x17 x18 1 j) (funcBlock_at x0 x1 x2 x3 x4 x5 x6 x7 x8 x9 x10 x11 x12 x13 x14 x15 x16 x17 x18 r j)))
    (congrArg₂ (· * ·) (gate_at x0 x1 x2 x3 x4 x5 x6 x7 x8 x9 x10 x11 x12 x13 x14 x15 x16 x17 x18 2 j) ?_)
  exact congrArg₂ (· + ·) (h2 r) (congrArg (Mixture.third * ·) (congrArg Ideal.tanh
    (congrArg₂ (· + ·) (Finset.sum_congr rfl fun f _ => congrArg₂ (· * ·) (congrFun (ld_whole2 x16 _) _) (h2 f))
      (flowBaseBlock_at x0 x2 x3 x4 x5 x6 x7 x8 x9 x10 x11 x12 x13 x14 x15 x16 x17 x18 r j))))

end Cert.KernelIdeal.Cell
end
-- ==== Proof.IdealLocal.lean ====
/-
  Lane by lane. A grid step's result on lane `j` — row `r` of the mixed state, entry `e` of the gate — is the cell
  update of lane `j`'s column of the state block and of the neighbours' block: it reads no other lane. So two pairs of
  blocks that agree on lane `j` give the same result there, whatever they hold elsewhere.
-/
import proofs.«168256_g38233798869014_cont_8to1_b_1562_16_alg».proof.Proof.IdealCell

noncomputable section

namespace Cert.KernelIdeal.Local

open Cert.KernelIdeal Cert.KernelIdeal.Gen Cert.KernelIdeal.Block
open Idealize.ShloMosaic Idealize.ShloMosaic.ValueIdx

/-- The mixed state on lane `j` depends on the state block and the neighbours' block through lane `j` only. -/
theorem mix_local (x0 x0' : Vec Ideal S26x64x2048 .f32) (x1 x1' : Vec Ideal S64x2048 .f32) (x2 : Vec Ideal S32x64 .f32) (x3 : Vec Ideal S32x64 .f32) (x4 : Vec Ideal S32x1 .f32) (x5 : Vec Ideal S3x32 .f32) (x6 : Vec Ideal S3x1 .f32) (x7 : Vec Ideal S64x64 .f32) (x8 : Vec Ideal S64x64 .f32) (x9 : Vec Ideal S64x1 .f32) (x10 : Vec Ideal S32x64 .f32) (x11 : Vec Ideal S32x64 .f32) (x12 : Vec Ideal S32x1 .f32) (x13 : Vec Ideal S64x64 .f32) (x14 : Vec Ideal S64x32 .f32) (x15 : Vec Ideal S64x1 .f32) (x16 : Vec Ideal S64x64 .f32) (x17 : Vec Ideal S64x64 .f32) (x18 : Vec Ideal S64x1 .f32)
    (r : Fin 64) (j : Fin 2048) (h1 : ∀ f : Fin 64, x1 (ix2 f j) = x1' (ix2 f j))
    (h0 : ∀ (k : Fin 26) (f : Fin 64), x0 (ix3 k f j) = x0' (ix3 k f j)) :
    mixBlock (F := Ideal) x0 x1 x2 x3 x4 x5 x6 x7 x8 x9 x10 x11 x12 x13 x14 x15 x16 x17 x18 (ix2 r j) = mixBlock (F := Ideal) x0' x1' x2 x3 x4 x5 x6 x7 x8 x9 x10 x11 x12 x13 x14 x15 x16 x17 x18 (ix2 r j) := by
  have e1 : (fun f => x1 (ix2 f j)) = fun f => x1' (ix2 f j) := funext h1
  have e0 : (fun k f => x0 (ix3 k f j)) = fun k f => x0' (ix3 k f j) := funext fun k => funext fun f => h0 k f
  rw [Cell.mix_at x0 x1 x2 x3 x4 x5 x6 x7 x8 x9 x10 x11 x12 x13 x14 x15 x16 x17 x18 r j, Cell.mix_at x0' x1' x2 x3 x4 x5 x6 x7 x8 x9 x10 x11 x12 x13 x14 x15 x16 x17 x18 r j, e1, e0]

/-- So do the gate weights. -/
theorem gate_local (x0 x0' : Vec Ideal S26x64x2048 .f32) (x1 x1' : Vec Ideal S64x2048 .f32) (x2 : Vec Ideal S32x64 .f32) (x3 : Vec Ideal S32x64 .f32) (x4 : Vec Ideal S32x1 .f32) (x5 : Vec Ideal S3x32 .f32) (x6 : Vec Ideal S3x1 .f32)
    (e : Fin 3) (j : Fin 2048) (h1 : ∀ f : Fin 64, x1 (ix2 f j) = x1' (ix2 f j))
    (h0 : ∀ (k : Fin 26) (f : Fin 64), x0 (ix3 k f j) = x0' (ix3 k f j)) :
    gateBlock (F := Ideal) x0 x1 x2 x3 x4 x5 x6 (ix2 e j) = gateBlock (F := Ideal) x0' x1' x2 x3 x4 x5 x6 (ix2 e j) := by
  have e1 : (fun f => x1 (ix2 f j)) = fun f => x1' (ix2 f j) := funext h1
  have e0 : (fun k f => x0 (ix3 k f j)) = fun k f => x0' (ix3 k f j) := funext fun k => funext fun f => h0 k f
  -- the gate reads only the first five weight blocks; the other twelve are any
  rw [Cell.gate_at x0 x1 x2 x3 x4 x5 x6 (fun _ => 0) (fun _ => 0) (fun _ => 0) (fun _ => 0) (fun _ => 0) (fun _ => 0) (fun _ => 0) (fun _ => 0) (fun _ => 0) (fun _ => 0) (fun _ => 0) (fun _ => 0) e j,
    Cell.gate_at x0' x1' x2 x3 x4 x5 x6 (fun _ => 0) (fun _ => 0) (fun _ => 0) (fun _ => 0) (fun _ => 0) (fun _ => 0) (fun _ => 0) (fun _ => 0) (fun _ => 0) (fun _ => 0) (fun _ => 0) (fun _ => 0) e j, e1, e0]

end Cert.KernelIdeal.Local

end
-- ==== Proof.IdealOblig.lean ====
/-
  The grid step meets the pipeline's obligation at every point.

  The state and neighbour buffers arrive holding their blocks on the lanes inside the array and anything on the
  others; the step leaves them so. The result buffers leave holding the step's result of what arrived. On the lanes
  inside the array that is the result of the blocks alone, because a lane of the result reads only that lane of the
  inputs (`cut19_congr`, `cut20_congr`) — which is all the obligation asks of a buffer whose block overhangs.
-/
import proofs.«168256_g38233798869014_cont_8to1_b_1562_16_alg».proof.Proof.IdealRun
import proofs.«168256_g38233798869014_cont_8to1_b_1562_16_alg».proof.Proof.IdealLocal

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Which lanes a point's transfers move -/

/-- At every point the four overhanging windows are cut alike along the lanes and not at all along the other axes. -/
theorem sizes_at : ∀ t : Fin cfg0.N,
    win0_0.xsize (grid0.coords t) 0 = 26 ∧ win0_0.xsize (grid0.coords t) 1 = 64
    ∧ win0_0.xsize (grid0.coords t) 2 = win0_19.xsize (grid0.coords t) 1
    ∧ win0_1.xsize (grid0.coords t) 0 = 64 ∧ win0_1.xsize (grid0.coords t) 1 = win0_19.xsize (grid0.coords t) 1
    ∧ win0_19.xsize (grid0.coords t) 0 = 64
    ∧ win0_20.xsize (grid0.coords t) 0 = 3 ∧ win0_20.xsize (grid0.coords t) 1 = win0_19.xsize (grid0.coords t) 1 :=
  (by decide +kernel : ∀ t : Fin grid0.N, _)

/-- On the part a transfer moves, a filled block does not see what it was filled over. -/
theorem fill_eq_of_moved {G : Pipeline.Grid} (w : Pipeline.Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

theorem zeros2 : (![0, 0] : Fin 2 → Nat) = fun _ => 0 := funext fun a => by fin_cases a <;> rfl

/-- The state block's column on a lane inside the array is the same whatever fills the other lanes; -/
theorem state_col (t : Fin cfg0.N) (d d' : S64x2048.Idx → Elt Ideal .f32)
    (b : (win0_1.xblock (grid0.coords t)).Idx → Elt Ideal .f32) (j : Fin 2048) (hj : j.val < win0_19.xsize (grid0.coords t) 1)
    (f : Fin 64) : win0_1.fill (grid0.coords t) d b (ix2 f j) = win0_1.fill (grid0.coords t) d' b (ix2 f j) := by
  obtain ⟨-, -, -, h10, h11, -, -, -⟩ := sizes_at t
  refine fill_eq_of_moved win0_1 _ _ _ _ ((win0_1.moved_iff _ _).mpr fun a => ?_)
  match a with
  | ⟨0, _⟩ => exact lt_of_lt_of_eq f.isLt h10.symm
  | ⟨1, _⟩ => exact lt_of_lt_of_eq hj h11.symm

/-- so is the neighbours' block's. -/
theorem nbr_col (t : Fin cfg0.N) (d d' : S26x64x2048.Idx → Elt Ideal .f32)
    (b : (win0_0.xblock (grid0.coords t)).Idx → Elt Ideal .f32) (j : Fin 2048) (hj : j.val < win0_19.xsize (grid0.coords t) 1)
    (k : Fin 26) (f : Fin 64) : win0_0.fill (grid0.coords t) d b (ix3 k f j) = win0_0.fill (grid0.coords t) d' b (ix3 k f j) := by
  obtain ⟨h00, h01, h02, -, -, -, -, -⟩ := sizes_at t
  refine fill_eq_of_moved win0_0 _ _ _ _ ((win0_0.moved_iff _ _).mpr fun a => ?_)
  match a with
  | ⟨0, _⟩ => exact lt_of_lt_of_eq k.isLt h00.symm
  | ⟨1, _⟩ => exact lt_of_lt_of_eq f.isLt h01.symm
  | ⟨2, _⟩ => exact lt_of_lt_of_eq hj h02.symm

/-- The part of the mixed-state buffer a write-back copies out does not depend on what fills the input buffers'
    lanes past the array's end. -/
theorem cut19_congr (t : Fin cfg0.N) (d0 d0' : S26x64x2048.Idx → Elt Ideal .f32) (d1 d1' : S64x2048.Idx → Elt Ideal .f32)
    (b0 : (win0_0.xblock (grid0.coords t)).Idx → Elt Ideal .f32) (b1 : (win0_1.xblock (grid0.coords t)).Idx → Elt Ideal .f32)
    (x2 : Vec Ideal S32x64 .f32) (x3 : Vec Ideal S32x64 .f32) (x4 : Vec Ideal S32x1 .f32) (x5 : Vec Ideal S3x32 .f32) (x6 : Vec Ideal S3x1 .f32) (x7 : Vec Ideal S64x64 .f32) (x8 : Vec Ideal S64x64 .f32) (x9 : Vec Ideal S64x1 .f32) (x10 : Vec Ideal S32x64 .f32) (x11 : Vec Ideal S32x64 .f32) (x12 : Vec Ideal S32x1 .f32) (x13 : Vec Ideal S64x64 .f32) (x14 : Vec Ideal S64x32 .f32) (x15 : Vec Ideal S64x1 .f32) (x16 : Vec Ideal S64x64 .f32) (x17 : Vec Ideal S64x64 .f32) (x18 : Vec Ideal S64x1 .f32) :
    win0_19.cut (grid0.coords t) (out19 (win0_0.fill (grid0.coords t) d0 b0) (win0_1.fill (grid0.coords t) d1 b1) x2 x3 x4 x5 x6 x7 x8 x9 x10 x11 x12 x13 x14 x15 x16 x17 x18)
      = win0_19.cut (grid0.coords t) (out19 (win0_0.fill (grid0.coords t) d0' b0) (win0_1.fill (grid0.coords t) d1' b1) x2 x3 x4 x5 x6 x7 x8 x9 x10 x11 x12 x13 x14 x15 x16 x17 x18) := by
  funext y
  have hy : (y 1).val < win0_19.xsize (grid0.coords t) 1 := (y 1).isLt
  show out19 _ _ x2 x3 x4 x5 x6 x7 x8 x9 x10 x11 x12 x13 x14 x15 x16 x17 x18 (win0_19.xinj (grid0.coords t) y) = out19 _ _ x2 x3 x4 x5 x6 x7 x8 x9 x10 x11 x12 x13 x14 x15 x16 x17 x18 (win0_19.xinj (grid0.coords t) y)
  unfold out19
  rw [View.canon_unit_zero zeros2, View.canon_unit_zero zeros2]
  rw [eq_ix2 (n0 := 64) (n1 := 2048) (win0_19.xinj (grid0.coords t) y)]
  exact Local.mix_local _ _ _ _ x2 x3 x4 x5 x6 x7 x8 x9 x10 x11 x12 x13 x14 x15 x16 x17 x18 _ _ (fun f => state_col t d1 d1' b1 _ hy f) (fun k f => nbr_col t d0 d0' b0 _ hy k f)

/-- Likewise the gate buffer. -/
theorem cut20_congr (t : Fin cfg0.N) (d0 d0' : S26x64x2048.Idx → Elt Ideal .f32) (d1 d1' : S64x2048.Idx → Elt Ideal .f32)
    (b0 : (win0_0.xblock (grid0.coords t)).Idx → Elt Ideal .f32) (b1 : (win0_1.xblock (grid0.coords t)).Idx → Elt Ideal .f32)
    (x2 : Vec Ideal S32x64 .f32) (x3 : Vec Ideal S32x64 .f32) (x4 : Vec Ideal S32x1 .f32) (x5 : Vec Ideal S3x32 .f32) (x6 : Vec Ideal S3x1 .f32) :
    win0_20.cut (grid0.coords t) (out20 (win0_0.fill (grid0.coords t) d0 b0) (win0_1.fill (grid0.coords t) d1 b1) x2 x3 x4 x5 x6)
      = win0_20.cut (grid0.coords t) (out20 (win0_0.fill (grid0.coords t) d0' b0) (win0_1.fill (grid0.coords t) d1' b1) x2 x3 x4 x5 x6) := by
  funext y
  have hy : (y 1).val < win0_19.xsize (grid0.coords t) 1 := by rw [← (sizes_at t).2.2.2.2.2.2.2]; exact (y 1).isLt
  show out20 _ _ x2 x3 x4 x5 x6 (win0_20.xinj (grid0.coords t) y) = out20 _ _ x2 x3 x4 x5 x6 (win0_20.xinj (grid0.coords t) y)
  unfold out20
  rw [View.canon_unit_zero zeros2, View.canon_unit_zero zeros2]
  rw [eq_ix2 (n0 := 3) (n1 := 2048) (win0_20.xinj (grid0.coords t) y)]
  exact Local.gate_local _ _ _ _ x2 x3 x4 x5 x6 _ _ (fun f => state_col t d1 d1' b1 _ hy f) (fun k f => nbr_col t d0 d0' b0 _ hy k f)

/-! ## The obligation, at a generic point -/

/-- What the step is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns: a buffer whose block overhangs is described on the part its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ (∃ d, owns (c : Thread nD τ) (st0_19 t) fullShare (win0_19.fill (grid0.coords t) d (win0_19.cut (grid0.coords t) ((dats m 0 c).after 19 t))))
    ∗ (∃ d, owns (c : Thread nD τ) (st0_20 t) fullShare (win0_20.fill (grid0.coords t) d (win0_20.cut (grid0.coords t) ((dats m 0 c).after 20 t)))))

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  rw [before0_0 m c t d0, before0_1 m c t d1, before0_2 m c t d2, before0_3 m c t d3, before0_4 m c t d4, before0_5 m c t d5, before0_6 m c t d6, before0_7 m c t d7, before0_8 m c t d8, before0_9 m c t d9, before0_10 m c t d10, before0_11 m c t d11, before0_12 m c t d12, before0_13 m c t d13, before0_14 m c t d14, before0_15 m c t d15, before0_16 m c t d16, before0_17 m c t d17, before0_18 m c t d18]
  iapply (step_runs (F := Ideal) c Set.univ (grid0.coords t) _ _ _ _ _ _ _ _ _ _ _ _ _ _ _ _ _ _ _ _ _ _ _ _ _ _ _ _ _ _ _ _ _ _ _ _ _ _ _ _ _ _
    (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]
  · iexists d0
    rw [after0_0, show win0_0.cut (grid0.coords t) (nbrIn m c t) = iblk m c 0 t from win0_0.cut_fill _ _ _]
    iexact H0
  isplitl [H1]
  · iexists d1
    rw [after0_1, show win0_1.cut (grid0.coords t) (stateIn m c t) = iblk m c 1 t from win0_1.cut_fill _ _ _]
    iexact H1
  isplitl [H2]; · rw [after0_2]; iexact H2
  isplitl [H3]; · rw [after0_3]; iexact H3
  isplitl [H4]; · rw [after0_4]; iexact H4
  isplitl [H5]; · rw [after0_5]; iexact H5
  isplitl [H6]; · rw [after0_6]; iexact H6
  isplitl [H7]; · rw [after0_7]; iexact H7
  isplitl [H8]; · rw [after0_8]; iexact H8
  isplitl [H9]; · rw [after0_9]; iexact H9
  isplitl [H10]; · rw [after0_10]; iexact H10
  isplitl [H11]; · rw [after0_11]; iexact H11
  isplitl [H12]; · rw [after0_12]; iexact H12
  isplitl [H13]; · rw [after0_13]; iexact H13
  isplitl [H14]; · rw [after0_14]; iexact H14
  isplitl [H15]; · rw [after0_15]; iexact H15
  isplitl [H16]; · rw [after0_16]; iexact H16
  isplitl [H17]; · rw [after0_17]; iexact H17
  isplitl [H18]; · rw [after0_18]; iexact H18
  isplitl [H19]
  · iexists (out19 (win0_0.fill (grid0.coords t) d0 (iblk m c 0 t)) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))
    rw [after0_19, nbrIn, stateIn, cut19_congr t _ d0 _ d1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), Pipeline.Window.fill_cut]
    iexact H19
  · iexists (out20 (win0_0.fill (grid0.coords t) d0 (iblk m c 0 t)) (win0_1.fill (grid0.coords t) d1 (iblk m c 1 t)) (iblk m c 2 t) (iblk m c 3 t) (iblk m c 4 t) (iblk m c 5 t) (iblk m c 6 t))
    rw [after0_20, nbrIn, stateIn, cut20_congr t _ d0 _ d1 (iblk m c 0 t) (iblk m c 1 t) (iblk m c 2 t) (iblk m c 3 t) (iblk m c 4 t) (iblk m c 5 t) (iblk m c 6 t), Pipeline.Window.fill_cut]
    iexact H20

/-- The pipeline's obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Block

end
-- ==== Proof.IdealMain.lean ====
/-
  The idealized kernel's run: launched with the grid step's obligation, every weakly fair execution of @main
  terminates without a fault; each array a window stages ends at what the write-backs made of it, point by point, and
  every other unscoped buffer at what the two host operations after the region leave there. Read at the argument
  arrays this is the frame.
-/
import proofs.«168256_g38233798869014_cont_8to1_b_1562_16_alg».proof.Proof.IdealOblig

set_option maxRecDepth 16384

noncomputable section

namespace Cert.KernelIdeal.Block

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Block

end
-- ==== Proof.IdealValue.lean ====
/-
  What the two result arrays hold after the run.

  Point `t` writes back the lanes of its result buffers that lie inside the arrays: cells `2048·t … 2048·t + 2047`,
  cut at cell 19682. On such a lane the buffer holds the cell update of that lane's column of the state and
  neighbour buffers, which on those lanes hold the arrays' own columns; the weight buffers hold the whole weight
  arrays at every point. So each point writes back its block of ONE function of the arrays the region found
  (`mixT`, `gateT`: the cell update of cell `n`, laid `[feature, n]`), and the ten blocks cover all 19683 cells.
-/
import proofs.«168256_g38233798869014_cont_8to1_b_1562_16_alg».proof.Proof.IdealMain

set_option maxRecDepth 16384

noncomputable section

namespace Cert.KernelIdeal.Block

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The index maps, decided over the grid -/

/-- The state, neighbour and result windows move along the cells with the point and are cut at cell 19683. -/
theorem idx_at : ∀ t : Fin cfg0.N,
    win0_0.index t 0 = 0 ∧ win0_0.index t 1 = 0 ∧ win0_0.index t 2 = t.val
    ∧ win0_1.index t 0 = 0 ∧ win0_1.index t 1 = t.val
    ∧ win0_19.index t 0 = 0 ∧ win0_19.index t 1 = t.val
    ∧ win0_20.index t 0 = 0 ∧ win0_20.index t 1 = t.val
    ∧ win0_19.xsize (grid0.coords t) 1 = min 2048 (19683 - 2048 * t.val) :=
  (by decide +kernel : ∀ t : Fin grid0.N, _)

/-- A weight window's block index is zero on both axes at every point. -/
theorem widx2 : ∀ (t : Fin cfg0.N) (a : Fin 2), win0_2.index t a = 0 := (by decide +kernel : ∀ (t : Fin grid0.N) (a : Fin 2), _)
theorem widx3 : ∀ (t : Fin cfg0.N) (a : Fin 2), win0_3.index t a = 0 := (by decide +kernel : ∀ (t : Fin grid0.N) (a : Fin 2), _)
theorem widx4 : ∀ (t : Fin cfg0.N) (a : Fin 2), win0_4.index t a = 0 := (by decide +kernel : ∀ (t : Fin grid0.N) (a : Fin 2), _)
theorem widx5 : ∀ (t : Fin cfg0.N) (a : Fin 2), win0_5.index t a = 0 := (by decide +kernel : ∀ (t : Fin grid0.N) (a : Fin 2), _)
theorem widx6 : ∀ (t : Fin cfg0.N) (a : Fin 2), win0_6.index t a = 0 := (by decide +kernel : ∀ (t : Fin grid0.N) (a : Fin 2), _)
theorem widx7 : ∀ (t : Fin cfg0.N) (a : Fin 2), win0_7.index t a = 0 := (by decide +kernel : ∀ (t : Fin grid0.N) (a : Fin 2), _)
theorem widx8 : ∀ (t : Fin cfg0.N) (a : Fin 2), win0_8.index t a = 0 := (by decide +kernel : ∀ (t : Fin grid0.N) (a : Fin 2), _)
theorem widx9 : ∀ (t : Fin cfg0.N) (a : Fin 2), win0_9.index t a = 0 := (by decide +kernel : ∀ (t : Fin grid0.N) (a : Fin 2), _)
theorem widx10 : ∀ (t : Fin cfg0.N) (a : Fin 2), win0_10.index t a = 0 := (by decide +kernel : ∀ (t : Fin grid0.N) (a : Fin 2), _)
theorem widx11 : ∀ (t : Fin cfg0.N) (a : Fin 2), win0_11.index t a = 0 := (by decide +kernel : ∀ (t : Fin grid0.N) (a : Fin 2), _)
theorem widx12 : ∀ (t : Fin cfg0.N) (a : Fin 2), win0_12.index t a = 0 := (by decide +kernel : ∀ (t : Fin grid0.N) (a : Fin 2), _)
theorem widx13 : ∀ (t : Fin cfg0.N) (a : Fin 2), win0_13.index t a = 0 := (by decide +kernel : ∀ (t : Fin grid0.N) (a : Fin 2), _)
theorem widx14 : ∀ (t : Fin cfg0.N) (a : Fin 2), win0_14.index t a = 0 := (by decide +kernel : ∀ (t : Fin grid0.N) (a : Fin 2), _)
theorem widx15 : ∀ (t : Fin cfg0.N) (a : Fin 2), win0_15.index t a = 0 := (by decide +kernel : ∀ (t : Fin grid0.N) (a : Fin 2), _)
theorem widx16 : ∀ (t : Fin cfg0.N) (a : Fin 2), win0_16.index t a = 0 := (by decide +kernel : ∀ (t : Fin grid0.N) (a : Fin 2), _)
theorem widx17 : ∀ (t : Fin cfg0.N) (a : Fin 2), win0_17.index t a = 0 := (by decide +kernel : ∀ (t : Fin grid0.N) (a : Fin 2), _)
theorem widx18 : ∀ (t : Fin cfg0.N) (a : Fin 2), win0_18.index t a = 0 := (by decide +kernel : ∀ (t : Fin grid0.N) (a : Fin 2), _)

/-! ## The blocks, read back to the arrays -/

/-- A weight buffer's block is its whole array. -/
theorem wblk2 (c : Dev nD) (t : Fin cfg0.N) : (iblk m c 2 t : S32x64.Idx → Elt Ideal .f32) = V m c main_call0_v3 := by
  funext y
  show V m c main_call0_v3 (((cfg0.win 2).blk t).view.emb y) = V m c main_call0_v3 y
  refine congrArg _ (funext fun a => Fin.ext ?_)
  have h := widx2 t a
  show win0_2.index t a * win0_2.size a + 1 * (y a).val = (y a).val
  rw [h]; omega
theorem wblk3 (c : Dev nD) (t : Fin cfg0.N) : (iblk m c 3 t : S32x64.Idx → Elt Ideal .f32) = V m c main_call0_v5 := by
  funext y
  show V m c main_call0_v5 (((cfg0.win 3).blk t).view.emb y) = V m c main_call0_v5 y
  refine congrArg _ (funext fun a => Fin.ext ?_)
  have h := widx3 t a
  show win0_3.index t a * win0_3.size a + 1 * (y a).val = (y a).val
  rw [h]; omega
theorem wblk4 (c : Dev nD) (t : Fin cfg0.N) : (iblk m c 4 t : S32x1.Idx → Elt Ideal .f32) = V m c main_call0_v6 := by
  funext y
  show V m c main_call0_v6 (((cfg0.win 4).blk t).view.emb y) = V m c main_call0_v6 y
  refine congrArg _ (funext fun a => Fin.ext ?_)
  have h := widx4 t a
  show win0_4.index t a * win0_4.size a + 1 * (y a).val = (y a).val
  rw [h]; omega
theorem wblk5 (c : Dev nD) (t : Fin cfg0.N) : (iblk m c 5 t : S3x32.Idx → Elt Ideal .f32) = V m c main_call0_v7 := by
  funext y
  show V m c main_call0_v7 (((cfg0.win 5).blk t).view.emb y) = V m c main_call0_v7 y
  refine congrArg _ (funext fun a => Fin.ext ?_)
  have h := widx5 t a
  show win0_5.index t a * win0_5.size a + 1 * (y a).val = (y a).val
  rw [h]; omega
theorem wblk6 (c : Dev nD) (t : Fin cfg0.N) : (iblk m c 6 t : S3x1.Idx → Elt Ideal .f32) = V m c main_call0_v8 := by
  funext y
  show V m c main_call0_v8 (((cfg0.win 6).blk t).view.emb y) = V m c main_call0_v8 y
  refine congrArg _ (funext fun a => Fin.ext ?_)
  have h := widx6 t a
  show win0_6.index t a * win0_6.size a + 1 * (y a).val = (y a).val
  rw [h]; omega
theorem wblk7 (c : Dev nD) (t : Fin cfg0.N) : (iblk m c 7 t : S64x64.Idx → Elt Ideal .f32) = V m c main_call0_v10 := by
  funext y
  show V m c main_call0_v10 (((cfg0.win 7).blk t).view.emb y) = V m c main_call0_v10 y
  refine congrArg _ (funext fun a => Fin.ext ?_)
  have h := widx7 t a
  show win0_7.index t a * win0_7.size a + 1 * (y a).val = (y a).val
  rw [h]; omega
theorem wblk8 (c : Dev nD) (t : Fin cfg0.N) : (iblk m c 8 t : S64x64.Idx → Elt Ideal .f32) = V m c main_call0_v12 := by
  funext y
  show V m c main_call0_v12 (((cfg0.win 8).blk t).view.emb y) = V m c main_call0_v12 y
  refine congrArg _ (funext fun a => Fin.ext ?_)
  have h := widx8 t a
  show win0_8.index t a * win0_8.size a + 1 * (y a).val = (y a).val
  rw [h]; omega
theorem wblk9 (c : Dev nD) (t : Fin cfg0.N) : (iblk m c 9 t : S64x1.Idx → Elt Ideal .f32) = V m c main_call0_v13 := by
  funext y
  show V m c main_call0_v13 (((cfg0.win 9).blk t).view.emb y) = V m c main_call0_v13 y
  refine congrArg _ (funext fun a => Fin.ext ?_)
  have h := widx9 t a
  show win0_9.index t a * win0_9.size a + 1 * (y a).val = (y a).val
  rw [h]; omega
theorem wblk10 (c : Dev nD) (t : Fin cfg0.N) : (iblk m c 10 t : S32x64.Idx → Elt Ideal .f32) = V m c main_call0_v15 := by
  funext y
  show V m c main_call0_v15 (((cfg0.win 10).blk t).view.emb y) = V m c main_call0_v15 y
  refine congrArg _ (funext fun a => Fin.ext ?_)
  have h := widx10 t a
  show win0_10.index t a * win0_10.size a + 1 * (y a).val = (y a).val
  rw [h]; omega
theorem wblk11 (c : Dev nD) (t : Fin cfg0.N) : (iblk m c 11 t : S32x64.Idx → Elt Ideal .f32) = V m c main_call0_v17 := by
  funext y
  show V m c main_call0_v17 (((cfg0.win 11).blk t).view.emb y) = V m c main_call0_v17 y
  refine congrArg _ (funext fun a => Fin.ext ?_)
  have h := widx11 t a
  show win0_11.index t a * win0_11.size a + 1 * (y a).val = (y a).val
  rw [h]; omega
theorem wblk12 (c : Dev nD) (t : Fin cfg0.N) : (iblk m c 12 t : S32x1.Idx → Elt Ideal .f32) = V m c main_call0_v18 := by
  funext y
  show V m c main_call0_v18 (((cfg0.win 12).blk t).view.emb y) = V m c main_call0_v18 y
  refine congrArg _ (funext fun a => Fin.ext ?_)
  have h := widx12 t a
  show win0_12.index t a * win0_12.size a + 1 * (y a).val = (y a).val
  rw [h]; omega
theorem wblk13 (c : Dev nD) (t : Fin cfg0.N) : (iblk m c 13 t : S64x64.Idx → Elt Ideal .f32) = V m c main_call0_v20 := by
  funext y
  show V m c main_call0_v20 (((cfg0.win 13).blk t).view.emb y) = V m c main_call0_v20 y
  refine congrArg _ (funext fun a => Fin.ext ?_)
  have h := widx13 t a
  show win0_13.index t a * win0_13.size a + 1 * (y a).val = (y a).val
  rw [h]; omega
theorem wblk14 (c : Dev nD) (t : Fin cfg0.N) : (iblk m c 14 t : S64x32.Idx → Elt Ideal .f32) = V m c main_call0_v22 := by
  funext y
  show V m c main_call0_v22 (((cfg0.win 14).blk t).view.emb y) = V m c main_call0_v22 y
  refine congrArg _ (funext fun a => Fin.ext ?_)
  have h := widx14 t a
  show win0_14.index t a * win0_14.size a + 1 * (y a).val = (y a).val
  rw [h]; omega
theorem wblk15 (c : Dev nD) (t : Fin cfg0.N) : (iblk m c 15 t : S64x1.Idx → Elt Ideal .f32) = V m c main_call0_v23 := by
  funext y
  show V m c main_call0_v23 (((cfg0.win 15).blk t).view.emb y) = V m c main_call0_v23 y
  refine congrArg _ (funext fun a => Fin.ext ?_)
  have h := widx15 t a
  show win0_15.index t a * win0_15.size a + 1 * (y a).val = (y a).val
  rw [h]; omega
theorem wblk16 (c : Dev nD) (t : Fin cfg0.N) : (iblk m c 16 t : S64x64.Idx → Elt Ideal .f32) = V m c main_call0_v25 := by
  funext y
  show V m c main_call0_v25 (((cfg0.win 16).blk t).view.emb y) = V m c main_call0_v25 y
  refine congrArg _ (funext fun a => Fin.ext ?_)
  have h := widx16 t a
  show win0_16.index t a * win0_16.size a + 1 * (y a).val = (y a).val
  rw [h]; omega
theorem wblk17 (c : Dev nD) (t : Fin cfg0.N) : (iblk m c 17 t : S64x64.Idx → Elt Ideal .f32) = V m c main_call0_v27 := by
  funext y
  show V m c main_call0_v27 (((cfg0.win 17).blk t).view.emb y) = V m c main_call0_v27 y
  refine congrArg _ (funext fun a => Fin.ext ?_)
  have h := widx17 t a
  show win0_17.index t a * win0_17.size a + 1 * (y a).val = (y a).val
  rw [h]; omega
theorem wblk18 (c : Dev nD) (t : Fin cfg0.N) : (iblk m c 18 t : S64x1.Idx → Elt Ideal .f32) = V m c main_call0_v28 := by
  funext y
  show V m c main_call0_v28 (((cfg0.win 18).blk t).view.emb y) = V m c main_call0_v28 y
  refine congrArg _ (funext fun a => Fin.ext ?_)
  have h := widx18 t a
  show win0_18.index t a * win0_18.size a + 1 * (y a).val = (y a).val
  rw [h]; omega

/-- The state buffer's column on a lane inside the array is the array's column of that cell. -/
theorem state_back (c : Dev nD) (t : Fin cfg0.N) (f : Fin 64) (j : Fin 2048) (hj : j.val < win0_19.xsize (grid0.coords t) 1)
    (i : S64x19683.Idx) (h0 : (i 0).val = f.val) (h1 : (i 1).val = t.val * 2048 + j.val) :
    stateIn m c t (ix2 f j) = V m c main_call0_v1 i := by
  obtain ⟨-, -, -, h10, h11, -, -, -⟩ := sizes_at t
  obtain ⟨-, -, -, e10, e11, -, -, -, -, -⟩ := idx_at t
  have hm : win0_1.moved (grid0.coords t) (ix2 f j) = true := (win0_1.moved_iff _ _).mpr fun a => by
    match a with
    | ⟨0, _⟩ => exact lt_of_lt_of_eq f.isLt h10.symm
    | ⟨1, _⟩ => exact lt_of_lt_of_eq hj h11.symm
  unfold stateIn Pipeline.Window.fill
  rw [dif_pos hm]
  show V m c main_call0_v1 (((cfg0.win 1).blk t).view.emb _) = V m c main_call0_v1 i
  refine congrArg _ (funext fun a => Fin.ext ?_)
  match a with
  | ⟨0, _⟩ => show win0_1.index t 0 * 64 + 1 * f.val = (i 0).val; rw [e10, h0]; omega
  | ⟨1, _⟩ => show win0_1.index t 1 * 2048 + 1 * j.val = (i 1).val; rw [e11, h1]; omega

/-- The neighbour buffer's likewise. -/
theorem nbr_back (c : Dev nD) (t : Fin cfg0.N) (k : Fin 26) (f : Fin 64) (j : Fin 2048) (hj : j.val < win0_19.xsize (grid0.coords t) 1)
    (i : S26x64x19683.Idx) (h0 : (i 0).val = k.val) (h1 : (i 1).val = f.val) (h2 : (i 2).val = t.val * 2048 + j.val) :
    nbrIn m c t (ix3 k f j) = V m c main_call0_v0 i := by
  obtain ⟨h00, h01, h02, -, -, -, -, -⟩ := sizes_at t
  obtain ⟨e00, e01, e02, -, -, -, -, -, -, -⟩ := idx_at t
  have hm : win0_0.moved (grid0.coords t) (ix3 k f j) = true := (win0_0.moved_iff _ _).mpr fun a => by
    match a with
    | ⟨0, _⟩ => exact lt_of_lt_of_eq k.isLt h00.symm
    | ⟨1, _⟩ => exact lt_of_lt_of_eq f.isLt h01.symm
    | ⟨2, _⟩ => exact lt_of_lt_of_eq hj h02.symm
  unfold nbrIn Pipeline.Window.fill
  rw [dif_pos hm]
  show V m c main_call0_v0 (((cfg0.win 0).blk t).view.emb _) = V m c main_call0_v0 i
  refine congrArg _ (funext fun a => Fin.ext ?_)
  match a with
  | ⟨0, _⟩ => show win0_0.index t 0 * 26 + 1 * k.val = (i 0).val; rw [e00, h0]; omega
  | ⟨1, _⟩ => show win0_0.index t 1 * 64 + 1 * f.val = (i 1).val; rw [e01, h1]; omega
  | ⟨2, _⟩ => show win0_0.index t 2 * 2048 + 1 * j.val = (i 2).val; rw [e02, h2]; omega

/-! ## One function of the arrays -/

/-- The weights, read off the weight arrays as the region finds them. -/
def wts (c : Dev nD) : Cert.Mixture.Weights := Cert.Mixture.ofBlocks (V m c main_call0_v3) (V m c main_call0_v5) (V m c main_call0_v6) (V m c main_call0_v7) (V m c main_call0_v8) (V m c main_call0_v10) (V m c main_call0_v12) (V m c main_call0_v13) (V m c main_call0_v15) (V m c main_call0_v17) (V m c main_call0_v18) (V m c main_call0_v20) (V m c main_call0_v22) (V m c main_call0_v23) (V m c main_call0_v25) (V m c main_call0_v27) (V m c main_call0_v28)

/-- The mixed state of every cell, laid `[feature, cell]`. -/
def mixT (c : Dev nD) : S64x19683.Idx → Elt Ideal .f32 := fun i =>
  Cert.Mixture.out (wts m c) (fun f => V m c main_call0_v1 (ix2 f (i 1))) (fun k f => V m c main_call0_v0 (ix3 k f (i 1))) (i 0)
/-- The gate weights of every cell, laid `[expert, cell]`. -/
def gateT (c : Dev nD) : S3x19683.Idx → Elt Ideal .f32 := fun i =>
  Cert.Mixture.gate (wts m c) (fun f => V m c main_call0_v1 (ix2 f (i 1))) (fun k f => V m c main_call0_v0 (ix3 k f (i 1))) (i 0)

/-- Two cell updates agree when their columns and their output coordinates do: stated over arrays and blocks that are
    just functions, so that nothing unfolds. -/
theorem out_congr (W : Cert.Mixture.Weights) (A1 : S64x19683.Idx → EReal) (A0 : S26x64x19683.Idx → EReal)
    (X1 : S64x2048.Idx → EReal) (X0 : S26x64x2048.Idx → EReal) (r : Fin 64) (j : Fin 2048) (i : S64x19683.Idx)
    (h1 : ∀ f : Fin 64, X1 (ix2 f j) = A1 (ix2 f (i 1))) (h0 : ∀ (k : Fin 26) (f : Fin 64), X0 (ix3 k f j) = A0 (ix3 k f (i 1)))
    (hr : r = i 0) :
    Cert.Mixture.out W (fun f => X1 (ix2 f j)) (fun k f => X0 (ix3 k f j)) r
      = Cert.Mixture.out W (fun f => A1 (ix2 f (i 1))) (fun k f => A0 (ix3 k f (i 1))) (i 0) := by
  subst hr
  rw [show (fun f => X1 (ix2 f j)) = fun f => A1 (ix2 f (i 1)) from funext h1,
    show (fun k f => X0 (ix3 k f j)) = fun k f => A0 (ix3 k f (i 1)) from funext fun k => funext (h0 k)]
theorem gate_congr (W : Cert.Mixture.Weights) (A1 : S64x19683.Idx → EReal) (A0 : S26x64x19683.Idx → EReal)
    (X1 : S64x2048.Idx → EReal) (X0 : S26x64x2048.Idx → EReal) (e : Fin 3) (j : Fin 2048) (i : S3x19683.Idx)
    (h1 : ∀ f : Fin 64, X1 (ix2 f j) = A1 (ix2 f (i 1))) (h0 : ∀ (k : Fin 26) (f : Fin 64), X0 (ix3 k f j) = A0 (ix3 k f (i 1)))
    (he : e = i 0) :
    Cert.Mixture.gate W (fun f => X1 (ix2 f j)) (fun k f => X0 (ix3 k f j)) e
      = Cert.Mixture.gate W (fun f => A1 (ix2 f (i 1))) (fun k f => A0 (ix3 k f (i 1))) (i 0) := by
  subst he
  rw [show (fun f => X1 (ix2 f j)) = fun f => A1 (ix2 f (i 1)) from funext h1,
    show (fun k f => X0 (ix3 k f j)) = fun k f => A0 (ix3 k f (i 1)) from funext fun k => funext (h0 k)]

/-- The weight blocks a point holds are the weight arrays, so the weights read off them are `wts`. -/
theorem wts_at (c : Dev nD) (t : Fin cfg0.N) :
    Cert.Mixture.ofBlocks (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = wts m c := by
  unfold wts
  rw [wblk2 m c t, wblk3 m c t, wblk4 m c t, wblk5 m c t, wblk6 m c t, wblk7 m c t, wblk8 m c t, wblk9 m c t, wblk10 m c t, wblk11 m c t, wblk12 m c t, wblk13 m c t, wblk14 m c t, wblk15 m c t, wblk16 m c t, wblk17 m c t, wblk18 m c t]

set_option maxHeartbeats 1000000 in
/-- What point `t` writes back of the mixed state is block `t` of `mixT`. -/
theorem flushed19_eq (c : Dev nD) (t : Fin cfg0.N) :
    (dats m 0 c).flushed 19 t = ((cfg0.win 19).blk t).view.read (Elt Ideal) (mixT m c) := by
  show (cfg0.win 19).cut (grid0.coords t) ((dats m 0 c).after 19 t) = _
  rw [after0_19]
  funext y
  obtain ⟨-, -, -, -, -, e190, e191, -, -, -⟩ := idx_at t
  obtain ⟨r, j, hrj⟩ : ∃ (r : Fin 64) (j : Fin 2048), win0_19.xinj (grid0.coords t) y = ix2 r j :=
    ⟨win0_19.xinj (grid0.coords t) y 0, win0_19.xinj (grid0.coords t) y 1, eq_ix2 (n0 := 64) (n1 := 2048) _⟩
  have hr : (y 0).val = r.val := congrArg (fun z : S64x2048.Idx => (z 0).val) hrj
  have hjv : (y 1).val = j.val := congrArg (fun z : S64x2048.Idx => (z 1).val) hrj
  have hj : j.val < win0_19.xsize (grid0.coords t) 1 := by rw [← hjv]; exact (y 1).isLt
  show out19 (nbrIn m c t) (stateIn m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (win0_19.xinj (grid0.coords t) y) = mixT m c (((cfg0.win 19).blk t).view.emb y)
  rw [hrj]
  unfold out19
  rw [View.canon_unit_zero zeros2]
  refine (Cell.mix_at (nbrIn m c t) (stateIn m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r j).trans ?_
  rw [wts_at m c t]
  have hi0 : ((((cfg0.win 19).blk t).view.emb y) 0).val = r.val := by
    show win0_19.index t 0 * 64 + 1 * (y 0).val = r.val; rw [e190, hr]; omega
  have hi1 : ((((cfg0.win 19).blk t).view.emb y) 1).val = t.val * 2048 + j.val := by
    show win0_19.index t 1 * 2048 + 1 * (y 1).val = _; rw [e191, hjv]; omega
  have er : r = (((cfg0.win 19).blk t).view.emb y) 0 := Fin.ext hi0.symm
  exact out_congr (wts m c) (V m c main_call0_v1) (V m c main_call0_v0) (stateIn m c t) (nbrIn m c t) r j _
    (fun f => state_back m c t f j hj _ rfl hi1) (fun k f => nbr_back m c t k f j hj _ rfl rfl hi1) er

set_option maxHeartbeats 1000000 in
/-- Likewise the gate weights. -/
theorem flushed20_eq (c : Dev nD) (t : Fin cfg0.N) :
    (dats m 0 c).flushed 20 t = ((cfg0.win 20).blk t).view.read (Elt Ideal) (gateT m c) := by
  show (cfg0.win 20).cut (grid0.coords t) ((dats m 0 c).after 20 t) = _
  rw [after0_20]
  funext y
  obtain ⟨-, -, -, -, -, -, -, e200, e201, -⟩ := idx_at t
  obtain ⟨e, j, hej⟩ : ∃ (e : Fin 3) (j : Fin 2048), win0_20.xinj (grid0.coords t) y = ix2 e j :=
    ⟨win0_20.xinj (grid0.coords t) y 0, win0_20.xinj (grid0.coords t) y 1, eq_ix2 (n0 := 3) (n1 := 2048) _⟩
  have he : (y 0).val = e.val := congrArg (fun z : S3x2048.Idx => (z 0).val) hej
  have hjv : (y 1).val = j.val := congrArg (fun z : S3x2048.Idx => (z 1).val) hej
  have hj : j.val < win0_19.xsize (grid0.coords t) 1 := by
    rw [← hjv, ← (sizes_at t).2.2.2.2.2.2.2]; exact (y 1).isLt
  show out20 (nbrIn m c t) (stateIn m c t) (iblk m c 2 t) (iblk m c 3 t) (iblk m c 4 t) (iblk m c 5 t) (iblk m c 6 t) (win0_20.xinj (grid0.coords t) y) = gateT m c (((cfg0.win 20).blk t).view.emb y)
  rw [hej]
  unfold out20
  rw [View.canon_unit_zero zeros2]
  refine (Cell.gate_at (nbrIn m c t) (stateIn m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) e j).trans ?_
  rw [wts_at m c t]
  have hi0 : ((((cfg0.win 20).blk t).view.emb y) 0).val = e.val := by
    show win0_20.index t 0 * 3 + 1 * (y 0).val = e.val; rw [e200, he]; omega
  have hi1 : ((((cfg0.win 20).blk t).view.emb y) 1).val = t.val * 2048 + j.val := by
    show win0_20.index t 1 * 2048 + 1 * (y 1).val = _; rw [e201, hjv]; omega
  have er : e = (((cfg0.win 20).blk t).view.emb y) 0 := Fin.ext hi0.symm
  exact gate_congr (wts m c) (V m c main_call0_v1) (V m c main_call0_v0) (stateIn m c t) (nbrIn m c t) e j _
    (fun f => state_back m c t f j hj _ rfl hi1) (fun k f => nbr_back m c t k f j hj _ rfl rfl hi1) er

/-! ## The blocks cover the cells -/

/-- A cell's column is in point `t`'s block of the mixed state iff the cell is among the point's cells inside the array. -/
theorem mem_blk19 (t : Fin cfg0.N) (i : S64x19683.Idx) :
    i ∈ ((cfg0.win 19).blk t).view.set ↔ ∀ a : Fin 2, win0_19.index t a * win0_19.size a ≤ (i a).val ∧ (i a).val < win0_19.index t a * win0_19.size a + win0_19.xsize (grid0.coords t) a := by
  show i ∈ ((View.whole main_call0_v29_0).slice (win0_19.rect t)).set ↔ _
  rw [View.set_slice_whole, Rect.mem_set_unit]
  exact Iff.rfl
theorem mem_blk20 (t : Fin cfg0.N) (i : S3x19683.Idx) :
    i ∈ ((cfg0.win 20).blk t).view.set ↔ ∀ a : Fin 2, win0_20.index t a * win0_20.size a ≤ (i a).val ∧ (i a).val < win0_20.index t a * win0_20.size a + win0_20.xsize (grid0.coords t) a := by
  show i ∈ ((View.whole main_call0_v29_1).slice (win0_20.rect t)).set ↔ _
  rw [View.set_slice_whole, Rect.mem_set_unit]
  exact Iff.rfl

/-- Every cell is in the block of the point `cell / 2048`. -/
theorem cells_covered19 (i : S64x19683.Idx) : ∃ t : Fin cfg0.N, (cfg0.win 19).flush t = true ∧ i ∈ ((cfg0.win 19).blk t).view.set := by
  have hi0 : (i 0).val < 64 := (i 0).isLt
  have hi1 : (i 1).val < 19683 := (i 1).isLt
  let t : Fin cfg0.N := ⟨(i 1).val / 2048, by rw [show cfg0.N = 10 from N_0]; omega⟩
  obtain ⟨-, -, -, -, -, e190, e191, -, -, ex⟩ := idx_at t
  obtain ⟨-, -, -, -, -, h190, -, -⟩ := sizes_at t
  have ht : t.val = (i 1).val / 2048 := rfl
  refine ⟨t, flush0_19 t, (mem_blk19 t i).mpr fun a => ?_⟩
  match a with
  | ⟨0, _⟩ => show win0_19.index t 0 * 64 ≤ (i 0).val ∧ (i 0).val < win0_19.index t 0 * 64 + win0_19.xsize (grid0.coords t) 0; rw [e190, h190]; omega
  | ⟨1, _⟩ => show win0_19.index t 1 * 2048 ≤ (i 1).val ∧ (i 1).val < win0_19.index t 1 * 2048 + win0_19.xsize (grid0.coords t) 1; rw [e191, ex]; omega
theorem cells_covered20 (i : S3x19683.Idx) : ∃ t : Fin cfg0.N, (cfg0.win 20).flush t = true ∧ i ∈ ((cfg0.win 20).blk t).view.set := by
  have hi0 : (i 0).val < 3 := (i 0).isLt
  have hi1 : (i 1).val < 19683 := (i 1).isLt
  let t : Fin cfg0.N := ⟨(i 1).val / 2048, by rw [show cfg0.N = 10 from N_0]; omega⟩
  obtain ⟨-, -, -, -, -, -, -, e200, e201, ex⟩ := idx_at t
  obtain ⟨-, -, -, -, -, -, h200, h201⟩ := sizes_at t
  have ht : t.val = (i 1).val / 2048 := rfl
  refine ⟨t, flush0_20 t, (mem_blk20 t i).mpr fun a => ?_⟩
  match a with
  | ⟨0, _⟩ => show win0_20.index t 0 * 3 ≤ (i 0).val ∧ (i 0).val < win0_20.index t 0 * 3 + win0_20.xsize (grid0.coords t) 0; rw [e200, h200]; omega
  | ⟨1, _⟩ => show win0_20.index t 1 * 2048 ≤ (i 1).val ∧ (i 1).val < win0_20.index t 1 * 2048 + win0_20.xsize (grid0.coords t) 1; rw [e201, h201, ex]; omega

/-! ## The two result arrays after the run -/

theorem final19 (c : Dev nD) : (dats m 0 c).arrAt 19 cfg0.N = mixT m c :=
  (dats m 0 c).arrAt_eq_of_cover 19 (mixT m c) (fun t _ => flushed19_eq m c t) cells_covered19
theorem final20 (c : Dev nD) : (dats m 0 c).arrAt 20 cfg0.N = gateT m c :=
  (dats m 0 c).arrAt_eq_of_cover 20 (gateT m c) (fun t _ => flushed20_eq m c t) cells_covered20

end Cert.KernelIdeal.Block

end
-- ==== Proof.IdealHost.lean ====
/-
  The two big inputs as the region finds them.

  Before the region the program transposes the cells' states, `[N, 64]` to `[64, N]`, and the neighbours' states,
  `[N, 26, 64]` to `[26, 64, N]`, so that the lattice cell becomes the last coordinate. A transposed array read at an
  index is the operand read at the permuted index: the state block at `(f, n)` is the input at `(n, f)`, the
  neighbours' block at `(k, f, n)` is the input at `(n, k, f)`.
-/
import proofs.«168256_g38233798869014_cont_8to1_b_1562_16_alg».proof.Proof.Gen.KernelIdeal.Frame
import proofs.«168256_g38233798869014_cont_8to1_b_1562_16_alg».proof.Proof.Mixture
import Idealize.ShloMosaic.Lib.ValueLayout

set_option maxRecDepth 16384

noncomputable section

namespace Cert.KernelIdeal.HostSide

open Cert.KernelIdeal Cert.KernelIdeal.Gen Idealize.ShloMosaic Idealize.ShloMosaic.ValueIdx Idealize.ShloMosaic.TcCoe

variable (m : (ℓ : Loc nD τ sig) → Buf (Elt Ideal) ℓ)

/-- The state array the region reads is the transpose of the first argument. -/
theorem v1_eq (c : Dev nD) :
    (V m c main_call0_v1 : S64x19683.Idx → EReal)
      = transpose S64x19683 [1, 0] (m ((c : Thread nD τ).loc main_arg0) : S19683x64.Idx → EReal)
          transposes_S19683x64_S64x19683_1_0 := by
  show StableHlo.after hostOps0 (fun b => m (c, b)) (Proc.devRef .tc main_call0_v1) = _
  after_results
  rfl

/-- Coordinate `f` of cell `n`'s state. -/
theorem state_at (c : Dev nD) (f : Fin 64) (n : Fin 19683) :
    V m c main_call0_v1 (ix2 f n) = (m ((c : Thread nD τ).loc main_arg0) : S19683x64.Idx → EReal) (ix2 n f) := by
  rw [v1_eq m c]
  exact transpose_ix2_apply _ _ f n

/-- The neighbours' array the region reads is the second argument with its axes rotated: `(n, k, f) ↦ (k, f, n)`. -/
theorem v0_eq (c : Dev nD) :
    (V m c main_call0_v0 : S26x64x19683.Idx → EReal)
      = transpose S26x64x19683 [1, 2, 0] (m ((c : Thread nD τ).loc main_arg1) : S19683x26x64.Idx → EReal)
          transposes_S19683x26x64_S26x64x19683_1_2_0 := by
  show StableHlo.after hostOps0 (fun b => m (c, b)) (Proc.devRef .tc main_call0_v0) = _
  after_results
  rfl

/-- Coordinate `f` of the state of cell `n`'s `k`-th neighbour. -/
theorem nbr_at (c : Dev nD) (k : Fin 26) (f : Fin 64) (n : Fin 19683) :
    V m c main_call0_v0 (ix3 k f n)
      = (m ((c : Thread nD τ).loc main_arg1) : S19683x26x64.Idx → EReal) (ix3 n k f) := by
  rw [v0_eq m c]
  exact transpose_apply _ _ _ _ _ fun b => match b with | ⟨0, _⟩ => rfl | ⟨1, _⟩ => rfl | ⟨2, _⟩ => rfl

end Cert.KernelIdeal.HostSide

end
-- ==== Proof.IdealHostTail.lean ====
/-
  What the program returns.

  The region leaves the mixed states as `[64, N]` and the gate weights as `[3, N]`; after it the program transposes
  both back, to `[N, 64]` and `[N, 3]`. Nothing else is written after the region, so the returned arrays read at
  `(n, r)` and `(n, e)` are the region's two result arrays read at `(r, n)` and `(e, n)`, whatever the region's
  run left there.
-/
import proofs.«168256_g38233798869014_cont_8to1_b_1562_16_alg».proof.Proof.Gen.KernelIdeal.Frame
import proofs.«168256_g38233798869014_cont_8to1_b_1562_16_alg».proof.Proof.Mixture
import Idealize.ShloMosaic.Lib.ValueLayout

set_option maxRecDepth 16384

noncomputable section

namespace Cert.KernelIdeal.HostSide

open Cert.KernelIdeal Cert.KernelIdeal.Gen Idealize.ShloMosaic Idealize.ShloMosaic.ValueIdx Idealize.ShloMosaic.TcCoe

variable (m : (ℓ : Loc nD τ sig) → Buf (Elt Ideal) ℓ)

/-- Row `r` of cell `n`'s new state, as returned. -/
theorem tail_out (dats : (p : Fin 1) → (c : Dev nD) → Pipeline.Dat τ (Elt Ideal) Unit ℕ (UR sig nD τ) ℕ (cfgs p) c)
    (c : Dev nD) (n : Fin 19683) (r : Fin 64) :
    Pipeline.afterTail₀ cfgs dats 0 (V0 m) [hostOps1] c main_v0_0 (ix2 n r)
      = ((dats 0 c).arrAt 19 cfg0.N : S64x19683.Idx → EReal) (ix2 r n) := by
  have hw : (Pipeline.withArrays spec0 c (V0 m c) (fun w => (dats 0 c).arrAt w cfg0.N)
        (Proc.devRef .tc main_call0_v29_0) : S64x19683.Idx → EReal) = (dats 0 c).arrAt 19 cfg0.N :=
    Pipeline.withArrays_arr spec0 launch0.win.arr_inj c (V0 m c) (fun w => (dats 0 c).arrAt w cfg0.N) 19
  have e : (Pipeline.afterTail₀ cfgs dats 0 (V0 m) [hostOps1] c main_v0_0 : S19683x64.Idx → EReal)
      = transpose S19683x64 [1, 0] ((dats 0 c).arrAt 19 cfg0.N : S64x19683.Idx → EReal)
          transposes_S64x19683_S19683x64_1_0 := by
    unfold Pipeline.afterTail₀
    show StableHlo.after hostOps1 _ (Proc.devRef .tc main_v0_0) = _
    after_results
    exact congrArg (fun x : S64x19683.Idx → EReal => transpose S19683x64 [1, 0] x transposes_S64x19683_S19683x64_1_0) hw
  rw [e]
  exact transpose_ix2_apply _ _ n r

/-- Entry `e` of cell `n`'s gate weights, as returned. -/
theorem tail_gate (dats : (p : Fin 1) → (c : Dev nD) → Pipeline.Dat τ (Elt Ideal) Unit ℕ (UR sig nD τ) ℕ (cfgs p) c)
    (c : Dev nD) (n : Fin 19683) (e : Fin 3) :
    Pipeline.afterTail₀ cfgs dats 0 (V0 m) [hostOps1] c main_v0_1 (ix2 n e)
      = ((dats 0 c).arrAt 20 cfg0.N : S3x19683.Idx → EReal) (ix2 e n) := by
  have hw : (Pipeline.withArrays spec0 c (V0 m c) (fun w => (dats 0 c).arrAt w cfg0.N)
        (Proc.devRef .tc main_call0_v29_1) : S3x19683.Idx → EReal) = (dats 0 c).arrAt 20 cfg0.N :=
    Pipeline.withArrays_arr spec0 launch0.win.arr_inj c (V0 m c) (fun w => (dats 0 c).arrAt w cfg0.N) 20
  have h : (Pipeline.afterTail₀ cfgs dats 0 (V0 m) [hostOps1] c main_v0_1 : S19683x3.Idx → EReal)
      = transpose S19683x3 [1, 0] ((dats 0 c).arrAt 20 cfg0.N : S3x19683.Idx → EReal)
          transposes_S3x19683_S19683x3_1_0 := by
    unfold Pipeline.afterTail₀
    show StableHlo.after hostOps1 _ (Proc.devRef .tc main_v0_1) = _
    after_results
    exact congrArg (fun x : S3x19683.Idx → EReal => transpose S19683x3 [1, 0] x transposes_S3x19683_S19683x3_1_0) hw
  rw [h]
  exact transpose_ix2_apply _ _ n e

end Cert.KernelIdeal.HostSide

end
-- ==== Proof.IdealHostW.lean ====
/-
  The weights as the region finds them.

  Before the region the program cuts each weight matrix `[in, out]` that meets a stacked pair into its first 64 rows
  and the rest, transposes every piece to `[out, in]`, and lays each bias `[out]` out as a column `[out, 1]`.
  A band of rows transposed, read at `(g, f)`, is the matrix at `(offset + f, g)`; a column read at `(g, 0)` is the
  vector at `g`. So the weights read off the seventeen pieces are the weights read off the twelve argument arrays.
-/
import proofs.«168256_g38233798869014_cont_8to1_b_1562_16_alg».proof.Proof.Gen.KernelIdeal.Frame
import proofs.«168256_g38233798869014_cont_8to1_b_1562_16_alg».proof.Proof.Mixture
import Idealize.ShloMosaic.Lib.ValueLayout

set_option maxRecDepth 16384

noncomputable section

namespace Cert.KernelIdeal.HostSide

open Cert.KernelIdeal Cert.KernelIdeal.Gen Idealize.ShloMosaic Idealize.ShloMosaic.ValueIdx Idealize.ShloMosaic.TcCoe

variable (m : (ℓ : Loc nD τ sig) → Buf (Elt Ideal) ℓ)

/-- A band of rows of a matrix, transposed, reads at `(g, f)` the matrix at `(o + f, g)`. -/
theorem band_transposed_at {n0 n1 mm : ℕ} (o : ℕ) (X : (⟨2, ![n0, n1]⟩ : Shape).Idx → EReal)
    (hs : (⟨2, ![n0, n1]⟩ : Shape).Slices ![o, 0] ⟨2, ![mm, n1]⟩)
    (ht : (⟨2, ![mm, n1]⟩ : Shape).Transposes [1, 0] ⟨2, ![n1, mm]⟩)
    (g : Fin n1) (f : Fin mm) (k : Fin n0) (hk : k.val = o + f.val) :
    transpose ⟨2, ![n1, mm]⟩ [1, 0] (extractStridedSlice ⟨2, ![mm, n1]⟩ ![o, 0] X hs) ht (ix2 g f) = X (ix2 k g) :=
  (transpose_ix2_apply _ ht g f).trans (slice2_axis0_apply o X hs f g k hk)

/-- A vector laid out as a column reads at `(g, u)` the vector at `g`. -/
theorem column_at {a : ℕ} (X : (⟨1, ![a]⟩ : Shape).Idx → EReal) (h : (⟨1, ![a]⟩ : Shape).ShapeCasts ⟨2, ![a, 1]⟩)
    (g : Fin a) (u : Fin 1) : shapeCast ⟨2, ![a, 1]⟩ X h (ix2 g u) = X (ix1 g) :=
  shapeCast_apply X h _ _ (by
    rw [Shape.rowMajor_val_two, Shape.rowMajor_val_one]
    show g.val = g.val * 1 + u.val
    omega)

theorem v3_eq (c : Dev nD) :
    (V m c main_call0_v3 : S32x64.Idx → EReal)
      = transpose S32x64 [1, 0] (extractStridedSlice S64x32 ![0, 0] (m ((c : Thread nD τ).loc main_arg2) : S128x32.Idx → EReal) slices_S128x32_S64x32_0_0) transposes_S64x32_S32x64_1_0 := by
  show StableHlo.after hostOps0 (fun b => m (c, b)) (Proc.devRef .tc main_call0_v3) = _
  after_results
  rfl

theorem g1s_at (c : Dev nD) (f : Fin 64) (g : Fin 32) :
    V m c main_call0_v3 (ix2 g f) = (m ((c : Thread nD τ).loc main_arg2) : S128x32.Idx → EReal) (ix2 (Cert.Mixture.lo128 f) g) := by
  rw [v3_eq m c]
  exact band_transposed_at 0 _ _ _ g f (Cert.Mixture.lo128 f) (by show f.val = 0 + f.val; omega)

theorem v5_eq (c : Dev nD) :
    (V m c main_call0_v5 : S32x64.Idx → EReal)
      = transpose S32x64 [1, 0] (extractStridedSlice S64x32 ![64, 0] (m ((c : Thread nD τ).loc main_arg2) : S128x32.Idx → EReal) slices_S128x32_S64x32_64_0) transposes_S64x32_S32x64_1_0 := by
  show StableHlo.after hostOps0 (fun b => m (c, b)) (Proc.devRef .tc main_call0_v5) = _
  after_results
  rfl

theorem g1n_at (c : Dev nD) (f : Fin 64) (g : Fin 32) :
    V m c main_call0_v5 (ix2 g f) = (m ((c : Thread nD τ).loc main_arg2) : S128x32.Idx → EReal) (ix2 (Cert.Mixture.hi128 f) g) := by
  rw [v5_eq m c]
  exact band_transposed_at 64 _ _ _ g f (Cert.Mixture.hi128 f) (by show 64 + f.val = 64 + f.val; rfl)

theorem v10_eq (c : Dev nD) :
    (V m c main_call0_v10 : S64x64.Idx → EReal)
      = transpose S64x64 [1, 0] (extractStridedSlice S64x64 ![0, 0] (m ((c : Thread nD τ).loc main_arg6) : S128x64.Idx → EReal) slices_S128x64_S64x64_0_0) transposes_S64x64_S64x64_1_0 := by
  show StableHlo.after hostOps0 (fun b => m (c, b)) (Proc.devRef .tc main_call0_v10) = _
  after_results
  rfl

theorem ls_at (c : Dev nD) (f : Fin 64) (g : Fin 64) :
    V m c main_call0_v10 (ix2 g f) = (m ((c : Thread nD τ).loc main_arg6) : S128x64.Idx → EReal) (ix2 (Cert.Mixture.lo128 f) g) := by
  rw [v10_eq m c]
  exact band_transposed_at 0 _ _ _ g f (Cert.Mixture.lo128 f) (by show f.val = 0 + f.val; omega)

theorem v12_eq (c : Dev nD) :
    (V m c main_call0_v12 : S64x64.Idx → EReal)
      = transpose S64x64 [1, 0] (extractStridedSlice S64x64 ![64, 0] (m ((c : Thread nD τ).loc main_arg6) : S128x64.Idx → EReal) slices_S128x64_S64x64_64_0) transposes_S64x64_S64x64_1_0 := by
  show StableHlo.after hostOps0 (fun b => m (c, b)) (Proc.devRef .tc main_call0_v12) = _
  after_results
  rfl

theorem ln_at (c : Dev nD) (f : Fin 64) (g : Fin 64) :
    V m c main_call0_v12 (ix2 g f) = (m ((c : Thread nD τ).loc main_arg6) : S128x64.Idx → EReal) (ix2 (Cert.Mixture.hi128 f) g) := by
  rw [v12_eq m c]
  exact band_transposed_at 64 _ _ _ g f (Cert.Mixture.hi128 f) (by show 64 + f.val = 64 + f.val; rfl)

theorem v15_eq (c : Dev nD) :
    (V m c main_call0_v15 : S32x64.Idx → EReal)
      = transpose S32x64 [1, 0] (extractStridedSlice S64x32 ![0, 0] (m ((c : Thread nD τ).loc main_arg8) : S128x32.Idx → EReal) slices_S128x32_S64x32_0_0) transposes_S64x32_S32x64_1_0 := by
  show StableHlo.after hostOps0 (fun b => m (c, b)) (Proc.devRef .tc main_call0_v15) = _
  after_results
  rfl

theorem ms_at (c : Dev nD) (f : Fin 64) (g : Fin 32) :
    V m c main_call0_v15 (ix2 g f) = (m ((c : Thread nD τ).loc main_arg8) : S128x32.Idx → EReal) (ix2 (Cert.Mixture.lo128 f) g) := by
  rw [v15_eq m c]
  exact band_transposed_at 0 _ _ _ g f (Cert.Mixture.lo128 f) (by show f.val = 0 + f.val; omega)

theorem v17_eq (c : Dev nD) :
    (V m c main_call0_v17 : S32x64.Idx → EReal)
      = transpose S32x64 [1, 0] (extractStridedSlice S64x32 ![64, 0] (m ((c : Thread nD τ).loc main_arg8) : S128x32.Idx → EReal) slices_S128x32_S64x32_64_0) transposes_S64x32_S32x64_1_0 := by
  show StableHlo.after hostOps0 (fun b => m (c, b)) (Proc.devRef .tc main_call0_v17) = _
  after_results
  rfl

theorem mn_at (c : Dev nD) (f : Fin 64) (g : Fin 32) :
    V m c main_call0_v17 (ix2 g f) = (m ((c : Thread nD τ).loc main_arg8) : S128x32.Idx → EReal) (ix2 (Cert.Mixture.hi128 f) g) := by
  rw [v17_eq m c]
  exact band_transposed_at 64 _ _ _ g f (Cert.Mixture.hi128 f) (by show 64 + f.val = 64 + f.val; rfl)

theorem v20_eq (c : Dev nD) :
    (V m c main_call0_v20 : S64x64.Idx → EReal)
      = transpose S64x64 [1, 0] (extractStridedSlice S64x64 ![0, 0] (m ((c : Thread nD τ).loc main_arg10) : S96x64.Idx → EReal) slices_S96x64_S64x64_0_0) transposes_S64x64_S64x64_1_0 := by
  show StableHlo.after hostOps0 (fun b => m (c, b)) (Proc.devRef .tc main_call0_v20) = _
  after_results
  rfl

theorem us_at (c : Dev nD) (f : Fin 64) (g : Fin 64) :
    V m c main_call0_v20 (ix2 g f) = (m ((c : Thread nD τ).loc main_arg10) : S96x64.Idx → EReal) (ix2 (Cert.Mixture.lo96 f) g) := by
  rw [v20_eq m c]
  exact band_transposed_at 0 _ _ _ g f (Cert.Mixture.lo96 f) (by show f.val = 0 + f.val; omega)

theorem v22_eq (c : Dev nD) :
    (V m c main_call0_v22 : S64x32.Idx → EReal)
      = transpose S64x32 [1, 0] (extractStridedSlice S32x64 ![64, 0] (m ((c : Thread nD τ).loc main_arg10) : S96x64.Idx → EReal) slices_S96x64_S32x64_64_0) transposes_S32x64_S64x32_1_0 := by
  show StableHlo.after hostOps0 (fun b => m (c, b)) (Proc.devRef .tc main_call0_v22) = _
  after_results
  rfl

theorem um_at (c : Dev nD) (f : Fin 32) (g : Fin 64) :
    V m c main_call0_v22 (ix2 g f) = (m ((c : Thread nD τ).loc main_arg10) : S96x64.Idx → EReal) (ix2 (Cert.Mixture.hi96 f) g) := by
  rw [v22_eq m c]
  exact band_transposed_at 64 _ _ _ g f (Cert.Mixture.hi96 f) (by show 64 + f.val = 64 + f.val; rfl)

theorem v25_eq (c : Dev nD) :
    (V m c main_call0_v25 : S64x64.Idx → EReal)
      = transpose S64x64 [1, 0] (extractStridedSlice S64x64 ![0, 0] (m ((c : Thread nD τ).loc main_arg12) : S128x64.Idx → EReal) slices_S128x64_S64x64_0_0) transposes_S64x64_S64x64_1_0 := by
  show StableHlo.after hostOps0 (fun b => m (c, b)) (Proc.devRef .tc main_call0_v25) = _
  after_results
  rfl

theorem cs_at (c : Dev nD) (f : Fin 64) (g : Fin 64) :
    V m c main_call0_v25 (ix2 g f) = (m ((c : Thread nD τ).loc main_arg12) : S128x64.Idx → EReal) (ix2 (Cert.Mixture.lo128 f) g) := by
  rw [v25_eq m c]
  exact band_transposed_at 0 _ _ _ g f (Cert.Mixture.lo128 f) (by show f.val = 0 + f.val; omega)

theorem v27_eq (c : Dev nD) :
    (V m c main_call0_v27 : S64x64.Idx → EReal)
      = transpose S64x64 [1, 0] (extractStridedSlice S64x64 ![64, 0] (m ((c : Thread nD τ).loc main_arg12) : S128x64.Idx → EReal) slices_S128x64_S64x64_64_0) transposes_S64x64_S64x64_1_0 := by
  show StableHlo.after hostOps0 (fun b => m (c, b)) (Proc.devRef .tc main_call0_v27) = _
  after_results
  rfl

theorem cn_at (c : Dev nD) (f : Fin 64) (g : Fin 64) :
    V m c main_call0_v27 (ix2 g f) = (m ((c : Thread nD τ).loc main_arg12) : S128x64.Idx → EReal) (ix2 (Cert.Mixture.hi128 f) g) := by
  rw [v27_eq m c]
  exact band_transposed_at 64 _ _ _ g f (Cert.Mixture.hi128 f) (by show 64 + f.val = 64 + f.val; rfl)

theorem v7_eq (c : Dev nD) :
    (V m c main_call0_v7 : S3x32.Idx → EReal) = transpose S3x32 [1, 0] (m ((c : Thread nD τ).loc main_arg4) : S32x3.Idx → EReal) transposes_S32x3_S3x32_1_0 := by
  show StableHlo.after hostOps0 (fun b => m (c, b)) (Proc.devRef .tc main_call0_v7) = _
  after_results
  rfl

theorem g2_at (c : Dev nD) (g : Fin 32) (e : Fin 3) :
    V m c main_call0_v7 (ix2 e g) = (m ((c : Thread nD τ).loc main_arg4) : S32x3.Idx → EReal) (ix2 g e) := by
  rw [v7_eq m c]
  exact transpose_ix2_apply _ _ e g

theorem v6_eq (c : Dev nD) :
    (V m c main_call0_v6 : S32x1.Idx → EReal) = shapeCast S32x1 (m ((c : Thread nD τ).loc main_arg3) : S32.Idx → EReal) shapeCasts_S32_S32x1 := by
  show StableHlo.after hostOps0 (fun b => m (c, b)) (Proc.devRef .tc main_call0_v6) = _
  after_results
  rfl

theorem bg1_at (c : Dev nD) (g : Fin 32) :
    V m c main_call0_v6 (ix2 g 0) = (m ((c : Thread nD τ).loc main_arg3) : S32.Idx → EReal) (ix1 g) := by
  rw [v6_eq m c]
  exact column_at _ _ g 0

theorem v8_eq (c : Dev nD) :
    (V m c main_call0_v8 : S3x1.Idx → EReal) = shapeCast S3x1 (m ((c : Thread nD τ).loc main_arg5) : S3.Idx → EReal) shapeCasts_S3_S3x1 := by
  show StableHlo.after hostOps0 (fun b => m (c, b)) (Proc.devRef .tc main_call0_v8) = _
  after_results
  rfl

theorem bg2_at (c : Dev nD) (g : Fin 3) :
    V m c main_call0_v8 (ix2 g 0) = (m ((c : Thread nD τ).loc main_arg5) : S3.Idx → EReal) (ix1 g) := by
  rw [v8_eq m c]
  exact column_at _ _ g 0

theorem v13_eq (c : Dev nD) :
    (V m c main_call0_v13 : S64x1.Idx → EReal) = shapeCast S64x1 (m ((c : Thread nD τ).loc main_arg7) : S64.Idx → EReal) shapeCasts_S64_S64x1 := by
  show StableHlo.after hostOps0 (fun b => m (c, b)) (Proc.devRef .tc main_call0_v13) = _
  after_results
  rfl

theorem bl_at (c : Dev nD) (g : Fin 64) :
    V m c main_call0_v13 (ix2 g 0) = (m ((c : Thread nD τ).loc main_arg7) : S64.Idx → EReal) (ix1 g) := by
  rw [v13_eq m c]
  exact column_at _ _ g 0

theorem v18_eq (c : Dev nD) :
    (V m c main_call0_v18 : S32x1.Idx → EReal) = shapeCast S32x1 (m ((c : Thread nD τ).loc main_arg9) : S32.Idx → EReal) shapeCasts_S32_S32x1 := by
  show StableHlo.after hostOps0 (fun b => m (c, b)) (Proc.devRef .tc main_call0_v18) = _
  after_results
  rfl

theorem bm_at (c : Dev nD) (g : Fin 32) :
    V m c main_call0_v18 (ix2 g 0) = (m ((c : Thread nD τ).loc main_arg9) : S32.Idx → EReal) (ix1 g) := by
  rw [v18_eq m c]
  exact column_at _ _ g 0

theorem v23_eq (c : Dev nD) :
    (V m c main_call0_v23 : S64x1.Idx → EReal) = shapeCast S64x1 (m ((c : Thread nD τ).loc main_arg11) : S64.Idx → EReal) shapeCasts_S64_S64x1 := by
  show StableHlo.after hostOps0 (fun b => m (c, b)) (Proc.devRef .tc main_call0_v23) = _
  after_results
  rfl

theorem bu_at (c : Dev nD) (g : Fin 64) :
    V m c main_call0_v23 (ix2 g 0) = (m ((c : Thread nD τ).loc main_arg11) : S64.Idx → EReal) (ix1 g) := by
  rw [v23_eq m c]
  exact column_at _ _ g 0

theorem v28_eq (c : Dev nD) :
    (V m c main_call0_v28 : S64x1.Idx → EReal) = shapeCast S64x1 (m ((c : Thread nD τ).loc main_arg13) : S64.Idx → EReal) shapeCasts_S64_S64x1 := by
  show StableHlo.after hostOps0 (fun b => m (c, b)) (Proc.devRef .tc main_call0_v28) = _
  after_results
  rfl

theorem bc_at (c : Dev nD) (g : Fin 64) :
    V m c main_call0_v28 (ix2 g 0) = (m ((c : Thread nD τ).loc main_arg13) : S64.Idx → EReal) (ix1 g) := by
  rw [v28_eq m c]
  exact column_at _ _ g 0

/-- The weights a grid step's seventeen blocks hold are the weights of the twelve weight arrays. -/
theorem weights_eq (c : Dev nD) :
    Cert.Mixture.ofBlocks (V m c main_call0_v3) (V m c main_call0_v5) (V m c main_call0_v6) (V m c main_call0_v7) (V m c main_call0_v8) (V m c main_call0_v10) (V m c main_call0_v12) (V m c main_call0_v13) (V m c main_call0_v15) (V m c main_call0_v17) (V m c main_call0_v18) (V m c main_call0_v20) (V m c main_call0_v22) (V m c main_call0_v23) (V m c main_call0_v25) (V m c main_call0_v27) (V m c main_call0_v28)
      = Cert.Mixture.ofArrays (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Cert.Mixture.ofBlocks Cert.Mixture.ofArrays
  rw [Cert.Mixture.Weights.mk.injEq]
  refine ⟨?_, ?_, ?_, ?_, ?_, ?_, ?_, ?_, ?_, ?_, ?_, ?_, ?_, ?_, ?_, ?_, ?_⟩
  · funext f g; exact g1s_at m c f g
  · funext f g; exact g1n_at m c f g
  · funext g; exact bg1_at m c g
  · funext g e; exact g2_at m c g e
  · funext e; exact bg2_at m c e
  · funext f r; exact ls_at m c f r
  · funext f r; exact ln_at m c f r
  · funext r; exact bl_at m c r
  · funext f g; exact ms_at m c f g
  · funext f g; exact mn_at m c f g
  · funext g; exact bm_at m c g
  · funext f r; exact us_at m c f r
  · funext g r; exact um_at m c g r
  · funext r; exact bu_at m c r
  · funext f r; exact cs_at m c f r
  · funext f r; exact cn_at m c f r
  · funext r; exact bc_at m c r

end Cert.KernelIdeal.HostSide

end
-- ==== Proof.MixtureWhole.lean ====
/-
  The cell update over the whole lattice: the new state of every cell as one array `[cell, feature]` and the gate
  weights as one array `[cell, expert]`, functions of the fourteen argument arrays — cell `n` read off row `n` of the
  states and of the neighbours' states.
-/
import proofs.«168256_g38233798869014_cont_8to1_b_1562_16_alg».proof.Proof.Mixture

noncomputable section

namespace Cert.Mixture

open Idealize.ShloMosaic Idealize.ShloMosaic.ValueIdx

/-- Every cell's new state. -/
def wholeOut (a0 : (⟨2, ![19683, 64]⟩ : Shape).Idx → EReal) (a1 : (⟨3, ![19683, 26, 64]⟩ : Shape).Idx → EReal) (a2 : (⟨2, ![128, 32]⟩ : Shape).Idx → EReal) (a3 : (⟨1, ![32]⟩ : Shape).Idx → EReal) (a4 : (⟨2, ![32, 3]⟩ : Shape).Idx → EReal) (a5 : (⟨1, ![3]⟩ : Shape).Idx → EReal) (a6 : (⟨2, ![128, 64]⟩ : Shape).Idx → EReal) (a7 : (⟨1, ![64]⟩ : Shape).Idx → EReal) (a8 : (⟨2, ![128, 32]⟩ : Shape).Idx → EReal) (a9 : (⟨1, ![32]⟩ : Shape).Idx → EReal) (a10 : (⟨2, ![96, 64]⟩ : Shape).Idx → EReal) (a11 : (⟨1, ![64]⟩ : Shape).Idx → EReal) (a12 : (⟨2, ![128, 64]⟩ : Shape).Idx → EReal) (a13 : (⟨1, ![64]⟩ : Shape).Idx → EReal) : (⟨2, ![19683, 64]⟩ : Shape).Idx → EReal := fun i =>
  out (ofArrays a2 a3 a4 a5 a6 a7 a8 a9 a10 a11 a12 a13) (fun f => a0 (ix2 (i 0) f)) (fun k f => a1 (ix3 (i 0) k f)) (i 1)

/-- Every cell's gate weights. -/
def wholeGate (a0 : (⟨2, ![19683, 64]⟩ : Shape).Idx → EReal) (a1 : (⟨3, ![19683, 26, 64]⟩ : Shape).Idx → EReal) (a2 : (⟨2, ![128, 32]⟩ : Shape).Idx → EReal) (a3 : (⟨1, ![32]⟩ : Shape).Idx → EReal) (a4 : (⟨2, ![32, 3]⟩ : Shape).Idx → EReal) (a5 : (⟨1, ![3]⟩ : Shape).Idx → EReal) (a6 : (⟨2, ![128, 64]⟩ : Shape).Idx → EReal) (a7 : (⟨1, ![64]⟩ : Shape).Idx → EReal) (a8 : (⟨2, ![128, 32]⟩ : Shape).Idx → EReal) (a9 : (⟨1, ![32]⟩ : Shape).Idx → EReal) (a10 : (⟨2, ![96, 64]⟩ : Shape).Idx → EReal) (a11 : (⟨1, ![64]⟩ : Shape).Idx → EReal) (a12 : (⟨2, ![128, 64]⟩ : Shape).Idx → EReal) (a13 : (⟨1, ![64]⟩ : Shape).Idx → EReal) : (⟨2, ![19683, 3]⟩ : Shape).Idx → EReal := fun i =>
  gate (ofArrays a2 a3 a4 a5 a6 a7 a8 a9 a10 a11 a12 a13) (fun f => a0 (ix2 (i 0) f)) (fun k f => a1 (ix3 (i 0) k f)) (i 1)

/-- The cell update of equal weights and pointwise equal inputs. -/
theorem out_ext (W W' : Weights) (hW : W = W') (x x' : Fin 64 → EReal) (hx : ∀ f, x f = x' f)
    (nb nb' : Fin 26 → Fin 64 → EReal) (hnb : ∀ k f, nb k f = nb' k f) (r : Fin 64) :
    out W x nb r = out W' x' nb' r := by
  subst hW
  rw [show x = x' from funext hx, show nb = nb' from funext fun k => funext (hnb k)]
theorem gate_ext (W W' : Weights) (hW : W = W') (x x' : Fin 64 → EReal) (hx : ∀ f, x f = x' f)
    (nb nb' : Fin 26 → Fin 64 → EReal) (hnb : ∀ k f, nb k f = nb' k f) (e : Fin 3) :
    gate W x nb e = gate W' x' nb' e := by
  subst hW
  rw [show x = x' from funext hx, show nb = nb' from funext fun k => funext (hnb k)]

end Cert.Mixture

end
-- ==== Proof.IdealResult.lean ====
/-
  The idealized kernel's run, with its two results named: every weakly fair execution terminates without a fault,
  the new-state result holds the cell update of every cell and the gate result every cell's gate weights — both as
  functions of the argument arrays as launched — and the argument arrays end unchanged.

  The two host operations after the region transpose the region's `[feature, cell]` arrays back; the operations before
  it transposed the states and the neighbours' states the other way and cut and transposed the weights, so that what
  the region computes of its buffers is what the specification computes of the arguments.
-/
import proofs.«168256_g38233798869014_cont_8to1_b_1562_16_alg».proof.Proof.IdealValue
import proofs.«168256_g38233798869014_cont_8to1_b_1562_16_alg».proof.Proof.IdealHost
import proofs.«168256_g38233798869014_cont_8to1_b_1562_16_alg».proof.Proof.IdealHostTail
import proofs.«168256_g38233798869014_cont_8to1_b_1562_16_alg».proof.Proof.IdealHostW
import proofs.«168256_g38233798869014_cont_8to1_b_1562_16_alg».proof.Proof.MixtureWhole

set_option maxRecDepth 16384

noncomputable section

namespace Cert.KernelIdeal.Block

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The region's mixed-state array, transposed back, is the whole-lattice cell update of the arguments. -/
theorem out_eq (c : Dev nD) :
    Pipeline.afterTail₀ cfgs (dats m) 0 (V0 m) [hostOps1] c main_v0_0
      = Cert.Mixture.wholeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  funext i
  obtain ⟨n, r, rfl⟩ : ∃ (n : Fin 19683) (r : Fin 64), i = ix2 n r := ⟨i 0, i 1, eq_ix2 i⟩
  refine (HostSide.tail_out m (dats m) c n r).trans ?_
  rw [final19 m c]
  exact Cert.Mixture.out_ext _ _ (HostSide.weights_eq m c) _ _ (fun f => HostSide.state_at m c f n) _ _
    (fun k f => HostSide.nbr_at m c k f n) r

/-- Likewise the gate weights. -/
theorem gate_eq (c : Dev nD) :
    Pipeline.afterTail₀ cfgs (dats m) 0 (V0 m) [hostOps1] c main_v0_1
      = Cert.Mixture.wholeGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  funext i
  obtain ⟨n, e, rfl⟩ : ∃ (n : Fin 19683) (e : Fin 3), i = ix2 n e := ⟨i 0, i 1, eq_ix2 i⟩
  refine (HostSide.tail_gate m (dats m) c n e).trans ?_
  rw [final20 m c]
  exact Cert.Mixture.gate_ext _ _ (HostSide.weights_eq m c) _ _ (fun f => HostSide.state_at m c f n) _ _
    (fun k f => HostSide.nbr_at m c k f n) e

set_option maxHeartbeats 1260000 in
theorem run_values : θ_run defs (onTc (τ := τ) (main (F := Ideal))) ⟨m, fun _ => 0, ρ⟩ (fun r => ∀ c : Dev nD,
      r.2.mem ((c.tc : Thread nD τ).loc main_v0_0) = Cert.Mixture.wholeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v0_1) = Cert.Mixture.wholeGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v0_0 (Pipeline.mem_restRefs_of main_v0_0 (by decide) (by decide))).trans (out_eq m c),
      ((h c).2 main_v0_1 (Pipeline.mem_restRefs_of main_v0_1 (by decide) (by decide))).trans (gate_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩) (run_main m ρ)

end Cert.KernelIdeal.Block

end
-- ==== Proof.RefBasics.lean ====
/-
  The reference program read at one lattice cell: the pieces every later stage uses.

  The reference divides the neighbours' sum by the constant 26; on the extended reals a quotient by a nonzero real is
  the product with its reciprocal, so that is the mean `(Σₖ nbₖ) · (1/26)`. It joins two arrays along the feature
  axis and contracts the joined axis against a weight matrix; a coordinate of the joined axis below 64 reads the first
  array and one from 64 on reads the second, 64 less, so the contraction over the 128 joined coordinates is the sum of
  the two contractions over 64, each against its half of the matrix's rows. A bias is spread over the cells, so at
  any cell it is the bias itself.
-/
import proofs.«168256_g38233798869014_cont_8to1_b_1562_16_alg».proof.Proof.Mixture
import proofs.«168256_g38233798869014_cont_8to1_b_1562_16_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx Cert.Mixture

/-- The f32 word 0x41D00000 denotes the real 26. -/
theorem ofBits_26 : Ideal.ofBits .f32 0x41D00000#32 = ((26 : ℝ) : EReal) := by
  simp [Ideal.ofBits, Ideal.ieee, -EReal.coe_mul]; norm_num

/-- The reference's quotient of the neighbours' sum by 26, at cell `n` and feature `f`, is the neighbours' mean. -/
theorem mean_eq (x1 : (⟨S19683x26x64, .f32⟩ : BufTy).Contents (Elt Ideal)) (n : Fin 19683) (f : Fin 64) :
    Read.val_main_v2 (F := Ideal) x1 (ix2 n f) = Mixture.mean (fun k f => x1 (ix3 n k f)) f := by
  rw [Read.val_main_v2_apply, Read.val_main_v0_apply, Read.val_main_v1_apply, Read.val_main_cst_0_apply,
    Read.val_main_cst_apply]
  simp only [Ideal.hostDivf_def, Ideal.ofBits_def, Ideal.ofBits_zero_f32, zero_add, ofBits_26,
    Ideal.div_coe (by norm_num : (26 : ℝ) ≠ 0)]
  unfold Mixture.mean
  refine congrArg (· * _) (Finset.sum_congr rfl fun k _ => congrArg x1 ?_)
  exact funext fun a => Fin.ext (by match a with | ⟨0, _⟩ => rfl | ⟨1, _⟩ => rfl | ⟨2, _⟩ => rfl)

/-! ## Two arrays joined along the feature axis -/

/-- A joined coordinate below 64 reads the first array. -/
theorem cat128_lo (a b : S19683x64.Idx → EReal) (n : Fin 19683) (f : Fin 64) :
    concatenate S19683x128 1 [⟨S19683x64, a⟩, ⟨S19683x64, b⟩] concatenates_S19683x64_S19683x64_S19683x128_d1
      (ix2 n (lo128 f)) = a (ix2 n f) :=
  concatenate_pair_apply_left 1 a b _ (ix2 n (lo128 f)) rfl (ix2 n f)
    (fun c => by match c with | ⟨0, _⟩ => rfl | ⟨1, _⟩ => rfl)

/-- A joined coordinate from 64 on reads the second array, 64 less. -/
theorem cat128_hi (a b : S19683x64.Idx → EReal) (n : Fin 19683) (f : Fin 64) :
    concatenate S19683x128 1 [⟨S19683x64, a⟩, ⟨S19683x64, b⟩] concatenates_S19683x64_S19683x64_S19683x128_d1
      (ix2 n (hi128 f)) = b (ix2 n f) :=
  concatenate_pair_apply_right 1 a b _ (ix2 n (hi128 f)) rfl rfl (ix2 n f)
    (fun c hc => by match c with | ⟨0, _⟩ => rfl | ⟨1, _⟩ => exact absurd rfl hc)
    (by show f.val + 64 = 64 + f.val; omega)

/-- Likewise for a 64-wide array joined with a 32-wide one. -/
theorem cat96_lo (a : S19683x64.Idx → EReal) (b : S19683x32.Idx → EReal) (n : Fin 19683) (f : Fin 64) :
    concatenate S19683x96 1 [⟨S19683x64, a⟩, ⟨S19683x32, b⟩] concatenates_S19683x64_S19683x32_S19683x96_d1
      (ix2 n (lo96 f)) = a (ix2 n f) :=
  concatenate_pair_apply_left 1 a b _ (ix2 n (lo96 f)) rfl (ix2 n f)
    (fun c => by match c with | ⟨0, _⟩ => rfl | ⟨1, _⟩ => rfl)

theorem cat96_hi (a : S19683x64.Idx → EReal) (b : S19683x32.Idx → EReal) (n : Fin 19683) (g : Fin 32) :
    concatenate S19683x96 1 [⟨S19683x64, a⟩, ⟨S19683x32, b⟩] concatenates_S19683x64_S19683x32_S19683x96_d1
      (ix2 n (hi96 g)) = b (ix2 n g) :=
  concatenate_pair_apply_right 1 a b _ (ix2 n (hi96 g)) rfl rfl (ix2 n g)
    (fun c hc => by match c with | ⟨0, _⟩ => rfl | ⟨1, _⟩ => exact absurd rfl hc)
    (by show g.val + 64 = 64 + g.val; omega)

/-! ## A contraction over joined coordinates -/

/-- The contraction of 128 joined coordinates against a weight column is the sum of the two halves' contractions,
    the weight written on the left of each product. -/
theorem stack128_dot (c w : Fin 128 → EReal) (a b : Fin 64 → EReal) (hlo : ∀ f, c (lo128 f) = a f)
    (hhi : ∀ f, c (hi128 f) = b f) :
    ∑ k : Fin 128, c k * w k = (∑ f : Fin 64, w (lo128 f) * a f) + ∑ f : Fin 64, w (hi128 f) * b f := by
  rw [sum_stack128]
  refine congrArg₂ (· + ·) (Finset.sum_congr rfl fun f _ => ?_) (Finset.sum_congr rfl fun f _ => ?_)
  · rw [hlo, mul_comm]
  · rw [hhi, mul_comm]

/-- Likewise 96 = 64 + 32. -/
theorem stack96_dot (c w : Fin 96 → EReal) (a : Fin 64 → EReal) (b : Fin 32 → EReal) (hlo : ∀ f, c (lo96 f) = a f)
    (hhi : ∀ g, c (hi96 g) = b g) :
    ∑ k : Fin 96, c k * w k = (∑ f : Fin 64, w (lo96 f) * a f) + ∑ g : Fin 32, w (hi96 g) * b g := by
  rw [sum_stack96]
  refine congrArg₂ (· + ·) (Finset.sum_congr rfl fun f _ => ?_) (Finset.sum_congr rfl fun g _ => ?_)
  · rw [hlo, mul_comm]
  · rw [hhi, mul_comm]

/-- A sum over a contracted axis of 32 coordinates, the weight moved to the left of each product. -/
theorem dot32_comm (c w : Fin 32 → EReal) : ∑ k : Fin 32, c k * w k = ∑ k : Fin 32, w k * c k :=
  Finset.sum_congr rfl fun k _ => mul_comm _ _

end Cert.ReferenceIdeal.RefValue

end
-- ==== Proof.RefAffine.lean ====
/-
  The reference's affine maps of the pair (cell state, neighbours' mean), read at one cell.

  At cell `n` the joined array holds the cell's state in its first 64 coordinates and the neighbours' mean in the
  last 64, so its contraction against a weight matrix is the state's contraction against the matrix's first 64 rows
  plus the mean's against its last 64, and the bias, spread over the cells, is added as it stands.
-/
import proofs.«168256_g38233798869014_cont_8to1_b_1562_16_alg».proof.Proof.RefBasics

noncomputable section

open scoped BigOperators

namespace Cert.ReferenceIdeal.RefValue

open Cert.ReferenceIdeal Cert.ReferenceIdeal.Gen Idealize.ShloMosaic Idealize.ShloMosaic.ValueIdx Cert.Mixture

/-- Two indices whose coordinates agree are equal. -/
macro "idx_eq" : tactic =>
  `(tactic| exact funext fun a => Fin.ext (by
      first
        | (match a with | ⟨0, _⟩ => rfl | ⟨1, _⟩ => rfl)
        | (match a with | ⟨0, _⟩ => rfl)))

/-- The contraction of a joined array against a weight matrix at cell `n` and output coordinate `r`, the operands
    read where the contraction reads them (`li`, `ri`): the sum of the two halves' contractions. -/
theorem dot128_at {R : Nat} (cat : S19683x128.Idx → EReal) (W : (⟨2, ![128, R]⟩ : Shape).Idx → EReal)
    (li : Fin 128 → S19683x128.Idx) (ri : Fin 128 → (⟨2, ![128, R]⟩ : Shape).Idx) (n : Fin 19683) (r : Fin R)
    (hl : ∀ k, li k = ix2 n k) (hr : ∀ k, ri k = ix2 k r) (a b : Fin 64 → EReal)
    (hlo : ∀ f, cat (ix2 n (lo128 f)) = a f) (hhi : ∀ f, cat (ix2 n (hi128 f)) = b f) :
    ∑ k : Fin 128, cat (li k) * W (ri k)
      = (∑ f : Fin 64, W (ix2 (lo128 f) r) * a f) + ∑ f : Fin 64, W (ix2 (hi128 f) r) * b f := by
  refine (stack128_dot (fun k => cat (li k)) (fun k => W (ri k)) a b (fun f => ?_) (fun f => ?_)).trans ?_
  · show cat (li (lo128 f)) = a f
    rw [hl]; exact hlo f
  · show cat (li (hi128 f)) = b f
    rw [hl]; exact hhi f
  · simp only [hr]

/-- Likewise for the 64 + 32 joined coordinates. -/
theorem dot96_at {R : Nat} (cat : S19683x96.Idx → EReal) (W : (⟨2, ![96, R]⟩ : Shape).Idx → EReal)
    (li : Fin 96 → S19683x96.Idx) (ri : Fin 96 → (⟨2, ![96, R]⟩ : Shape).Idx) (n : Fin 19683) (r : Fin R)
    (hl : ∀ k, li k = ix2 n k) (hr : ∀ k, ri k = ix2 k r) (a : Fin 64 → EReal) (b : Fin 32 → EReal)
    (hlo : ∀ f, cat (ix2 n (lo96 f)) = a f) (hhi : ∀ g, cat (ix2 n (hi96 g)) = b g) :
    ∑ k : Fin 96, cat (li k) * W (ri k)
      = (∑ f : Fin 64, W (ix2 (lo96 f) r) * a f) + ∑ g : Fin 32, W (ix2 (hi96 g) r) * b g := by
  refine (stack96_dot (fun k => cat (li k)) (fun k => W (ri k)) a b (fun f => ?_) (fun g => ?_)).trans ?_
  · show cat (li (lo96 f)) = a f
    rw [hl]; exact hlo f
  · show cat (li (hi96 g)) = b g
    rw [hl]; exact hhi g
  · simp only [hr]

/-! ## The pair (state, mean) at a cell -/

/-- The first 64 joined coordinates hold the cell's state. -/
theorem v3_lo (x0 : (⟨S19683x64, .f32⟩ : BufTy).Contents (Elt Ideal)) (x1 : (⟨S19683x26x64, .f32⟩ : BufTy).Contents (Elt Ideal)) (n : Fin 19683) (f : Fin 64) :
    Read.val_main_v3 (F := Ideal) x0 x1 (ix2 n (lo128 f)) = x0 (ix2 n f) :=
  cat128_lo _ _ n f

/-- The last 64 hold the neighbours' mean. -/
theorem v3_hi (x0 : (⟨S19683x64, .f32⟩ : BufTy).Contents (Elt Ideal)) (x1 : (⟨S19683x26x64, .f32⟩ : BufTy).Contents (Elt Ideal)) (n : Fin 19683) (f : Fin 64) :
    Read.val_main_v3 (F := Ideal) x0 x1 (ix2 n (hi128 f)) = Mixture.mean (fun k f => x1 (ix3 n k f)) f :=
  (cat128_hi _ _ n f).trans (mean_eq x1 n f)

/-! ## A bias spread over the cells -/

theorem v6_eq (x3 : (⟨S32, .f32⟩ : BufTy).Contents (Elt Ideal)) (n : Fin 19683) (g : Fin 32) :
    Read.val_main_v6 (F := Ideal) x3 (ix2 n g) = x3 (ix1 g) := by
  rw [Read.val_main_v6_apply, Read.val_main_v5_apply]
  exact congrArg x3 (by idx_eq)

theorem v11_eq (x5 : (⟨S3, .f32⟩ : BufTy).Contents (Elt Ideal)) (n : Fin 19683) (e : Fin 3) :
    Read.val_main_v11 (F := Ideal) x5 (ix2 n e) = x5 (ix1 e) := by
  rw [Read.val_main_v11_apply, Read.val_main_v10_apply]
  exact congrArg x5 (by idx_eq)

theorem v26_eq (x7 : (⟨S64, .f32⟩ : BufTy).Contents (Elt Ideal)) (n : Fin 19683) (r : Fin 64) :
    Read.val_main_v26 (F := Ideal) x7 (ix2 n r) = x7 (ix1 r) := by
  rw [Read.val_main_v26_apply, Read.val_main_v25_apply]
  exact congrArg x7 (by idx_eq)

theorem v31_eq (x9 : (⟨S32, .f32⟩ : BufTy).Contents (Elt Ideal)) (n : Fin 19683) (g : Fin 32) :
    Read.val_main_v31 (F := Ideal) x9 (ix2 n g) = x9 (ix1 g) := by
  rw [Read.val_main_v31_apply, Read.val_main_v30_apply]
  exact congrArg x9 (by idx_eq)

theorem v37_eq (x11 : (⟨S64, .f32⟩ : BufTy).Contents (Elt Ideal)) (n : Fin 19683) (r : Fin 64) :
    Read.val_main_v37 (F := Ideal) x11 (ix2 n r) = x11 (ix1 r) := by
  rw [Read.val_main_v37_apply, Read.val_main_v36_apply]
  exact congrArg x11 (by idx_eq)

theorem v43_eq (x13 : (⟨S64, .f32⟩ : BufTy).Contents (Elt Ideal)) (n : Fin 19683) (r : Fin 64) :
    Read.val_main_v43 (F := Ideal) x13 (ix2 n r) = x13 (ix1 r) := by
  rw [Read.val_main_v43_apply, Read.val_main_v42_apply]
  exact congrArg x13 (by idx_eq)

theorem v52_eq (x13 : (⟨S64, .f32⟩ : BufTy).Contents (Elt Ideal)) (n : Fin 19683) (r : Fin 64) :
    Read.val_main_v52 (F := Ideal) x13 (ix2 n r) = x13 (ix1 r) := by
  rw [Read.val_main_v52_apply, Read.val_main_v51_apply]
  exact congrArg x13 (by idx_eq)

theorem v61_eq (x13 : (⟨S64, .f32⟩ : BufTy).Contents (Elt Ideal)) (n : Fin 19683) (r : Fin 64) :
    Read.val_main_v61 (F := Ideal) x13 (ix2 n r) = x13 (ix1 r) := by
  rw [Read.val_main_v61_apply, Read.val_main_v60_apply]
  exact congrArg x13 (by idx_eq)

/-! ## The three affine maps of (state, mean) -/

/-- The gate's hidden pre-activation. -/
theorem v7_eq (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal))
    (n : Fin 19683) (g : Fin 32) :
    Read.val_main_v7 (F := Ideal) x0 x1 x2 x3 (ix2 n g)
      = ((∑ f : Fin 64, x2 (ix2 (lo128 f) g) * x0 (ix2 n f))
          + ∑ f : Fin 64, x2 (ix2 (hi128 f) g) * Mixture.mean (fun k f => x1 (ix3 n k f)) f) + x3 (ix1 g) := by
  rw [Read.val_main_v7_apply, Ideal.addf_def, Read.val_main_v4_apply, v6_eq,
    dot128_at (Read.val_main_v3 (F := Ideal) x0 x1) x2 (Read.lidx_main_v4 (ix2 n g)) (Read.ridx_main_v4 (ix2 n g)) n g
      (fun k => by idx_eq) (fun k => by idx_eq) (fun f => x0 (ix2 n f)) (Mixture.mean (fun k f => x1 (ix3 n k f)))
      (v3_lo x0 x1 n) (v3_hi x0 x1 n)]

/-- The local expert's pre-activation. -/
theorem v27_eq (x0 : (⟨S19683x64, .f32⟩ : BufTy).Contents (Elt Ideal)) (x1 : (⟨S19683x26x64, .f32⟩ : BufTy).Contents (Elt Ideal)) (x6 : (⟨S128x64, .f32⟩ : BufTy).Contents (Elt Ideal)) (x7 : (⟨S64, .f32⟩ : BufTy).Contents (Elt Ideal))
    (n : Fin 19683) (r : Fin 64) :
    Read.val_main_v27 (F := Ideal) x0 x1 x6 x7 (ix2 n r)
      = ((∑ f : Fin 64, x6 (ix2 (lo128 f) r) * x0 (ix2 n f))
          + ∑ f : Fin 64, x6 (ix2 (hi128 f) r) * Mixture.mean (fun k f => x1 (ix3 n k f)) f) + x7 (ix1 r) := by
  rw [Read.val_main_v27_apply, Ideal.addf_def, Read.val_main_v24_apply, v26_eq,
    dot128_at (Read.val_main_v3 (F := Ideal) x0 x1) x6 (Read.lidx_main_v24 (ix2 n r)) (Read.ridx_main_v24 (ix2 n r)) n r
      (fun k => by idx_eq) (fun k => by idx_eq) (fun f => x0 (ix2 n f)) (Mixture.mean (fun k f => x1 (ix3 n k f)))
      (v3_lo x0 x1 n) (v3_hi x0 x1 n)]

/-- The message's pre-activation. -/
theorem v32_eq (x0 : (⟨S19683x64, .f32⟩ : BufTy).Contents (Elt Ideal)) (x1 : (⟨S19683x26x64, .f32⟩ : BufTy).Contents (Elt Ideal)) (x8 : (⟨S128x32, .f32⟩ : BufTy).Contents (Elt Ideal)) (x9 : (⟨S32, .f32⟩ : BufTy).Contents (Elt Ideal))
    (n : Fin 19683) (g : Fin 32) :
    Read.val_main_v32 (F := Ideal) x0 x1 x8 x9 (ix2 n g)
      = ((∑ f : Fin 64, x8 (ix2 (lo128 f) g) * x0 (ix2 n f))
          + ∑ f : Fin 64, x8 (ix2 (hi128 f) g) * Mixture.mean (fun k f => x1 (ix3 n k f)) f) + x9 (ix1 g) := by
  rw [Read.val_main_v32_apply, Ideal.addf_def, Read.val_main_v29_apply, v31_eq,
    dot128_at (Read.val_main_v3 (F := Ideal) x0 x1) x8 (Read.lidx_main_v29 (ix2 n g)) (Read.ridx_main_v29 (ix2 n g)) n g
      (fun k => by idx_eq) (fun k => by idx_eq) (fun f => x0 (ix2 n f)) (Mixture.mean (fun k f => x1 (ix3 n k f)))
      (v3_lo x0 x1 n) (v3_hi x0 x1 n)]

/-! ## A row's maximum -/

/-- The reduced index `n` with the coordinate `e` of the reduced axis put back is (n, e). -/
theorem lift3 (h : S19683x3.Reduces [1] S19683) (n : Fin 19683) (e : Fin (S19683x3.size 1)) :
    h.lift (ix1 n) e = ix2 n (⟨e.val, e.isLt⟩ : Fin 3) := by
  funext c; apply Fin.ext
  fin_cases c <;> rfl

/-- The reference's maximum over a row of three, folded from the word of minus infinity. -/
theorem rowmax3 (y : S19683x3.Idx → EReal) (n : Fin 19683) :
    Host.reduce (FloatOps.maximumf (F := Ideal) (φ := .f32)) y (constant (F := Ideal) S_ .f32 0xFF800000#32)
        reducesTo_S19683x3_S19683_d1 h_S_ (ix1 n)
      = (Finset.univ : Finset (Fin 3)).fold max negInf (fun e => y (ix2 n e)) := by
  have h : S19683x3.Reduces [1] S19683 := by decide
  refine (Host.reduce_eq_fold_single (FloatOps.maximumf (F := Ideal) (φ := .f32)) y _ reducesTo_S19683x3_S19683_d1 h h_S_
    (ix1 n)).trans ?_
  have hf : (y ∘ h.lift (ix1 n)) = fun e : Fin 3 => y (ix2 n e) := funext fun e => congrArg y (lift3 h n e)
  exact congrArg (fun f => Finset.fold max negInf f (Finset.univ : Finset (Fin 3))) hf

end Cert.ReferenceIdeal.RefValue

end
-- ==== Proof.RefGate.lean ====
/-
  The gate, read at one cell of the reference.

  The hidden layer is the hyperbolic tangent of the affine map of (state, mean); a logit contracts it against the
  second gate matrix and adds the bias. The reference shifts the logits by `max(−∞, m)`, `m` the row's maximum folded
  from the same −∞: the fold is at least its starting value, so the outer maximum is `m` itself. The weights are the
  shifted exponentials over their sum, the sum started from the zero word, which adds nothing.
-/
import proofs.«168256_g38233798869014_cont_8to1_b_1562_16_alg».proof.Proof.RefAffine

noncomputable section

open scoped BigOperators

namespace Cert.ReferenceIdeal.RefValue

open Cert.ReferenceIdeal Cert.ReferenceIdeal.Gen Idealize.ShloMosaic Idealize.ShloMosaic.ValueIdx Cert.Mixture

variable (x0 : (⟨S19683x64, .f32⟩ : BufTy).Contents (Elt Ideal)) (x1 : (⟨S19683x26x64, .f32⟩ : BufTy).Contents (Elt Ideal))
  (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal))
  (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal))
  (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal))
  (n : Fin 19683)

/-- The gate's hidden layer. -/
theorem gateHidden_eq (g : Fin 32) :
    Read.val_main_v8 (F := Ideal) x0 x1 x2 x3 (ix2 n g) = Mixture.gateHidden (Mixture.ofArrays x2 x3 x4 x5 x6 x7 x8 x9 x10 x11 x12 x13) (fun f => x0 (ix2 n f)) (fun k f => x1 (ix3 n k f)) g := by
  rw [Read.val_main_v8_apply, Ideal.hostUnary_tanh_def, v7_eq]
  rfl

/-- The gate's logits. -/
theorem logit_eq (e : Fin 3) :
    Read.val_main_v12 (F := Ideal) x0 x1 x2 x3 x4 x5 (ix2 n e) = Mixture.logit (Mixture.ofArrays x2 x3 x4 x5 x6 x7 x8 x9 x10 x11 x12 x13) (fun f => x0 (ix2 n f)) (fun k f => x1 (ix3 n k f)) e := by
  rw [Read.val_main_v12_apply, Ideal.addf_def, Read.val_main_v9_apply, v11_eq]
  unfold Mixture.logit
  refine congrArg₂ (· + ·) (Finset.sum_congr rfl fun k _ => ?_) rfl
  rw [show Read.lidx_main_v9 (ix2 n e) k = ix2 n k from by idx_eq,
    show Read.ridx_main_v9 (ix2 n e) k = ix2 k e from by idx_eq,
    gateHidden_eq x0 x1 x2 x3 x4 x5 x6 x7 x8 x9 x10 x11 x12 x13 n k]
  exact mul_comm _ _

/-- The shift: the row's maximum. -/
theorem logitMax_eq :
    Read.val_main_v15 (F := Ideal) x0 x1 x2 x3 x4 x5 (ix1 n) = Mixture.logitMax (Mixture.ofArrays x2 x3 x4 x5 x6 x7 x8 x9 x10 x11 x12 x13) (fun f => x0 (ix2 n f)) (fun k f => x1 (ix3 n k f)) := by
  rw [Read.val_main_v15_apply, Ideal.maximumf_def, Read.val_main_v14_apply, Read.val_main_cst_2_apply, Ideal.ofBits_def]
  unfold Read.val_main_v13 Read.val_main_cst_1
  rw [rowmax3, funext (logit_eq x0 x1 x2 x3 x4 x5 x6 x7 x8 x9 x10 x11 x12 x13 n)]
  exact max_eq_right ((Finset.le_fold_max _).2 (Or.inl le_rfl))

/-- The shifted exponentials. -/
theorem expShift_eq (e : Fin 3) :
    Read.val_main_v19 (F := Ideal) x0 x1 x2 x3 x4 x5 (ix2 n e) = Mixture.expShift (Mixture.ofArrays x2 x3 x4 x5 x6 x7 x8 x9 x10 x11 x12 x13) (fun f => x0 (ix2 n f)) (fun k f => x1 (ix3 n k f)) e := by
  rw [Read.val_main_v19_apply, Ideal.hostUnary_exp_def, Read.val_main_v18_apply, Ideal.subf_def, logit_eq,
    Read.val_main_v17_apply, Read.val_main_v16_apply,
    show Read.idx_main_v16 (Read.idx_main_v17 (ix2 n e)) = ix1 n from by idx_eq, logitMax_eq]
  rfl

/-- The gate weights: what the reference returns as its second result. -/
theorem ref_gate (e : Fin 3) :
    Read.val_main_v23 (F := Ideal) x0 x1 x2 x3 x4 x5 (ix2 n e) = Mixture.gate (Mixture.ofArrays x2 x3 x4 x5 x6 x7 x8 x9 x10 x11 x12 x13) (fun f => x0 (ix2 n f)) (fun k f => x1 (ix3 n k f)) e := by
  rw [Read.val_main_v23_apply, Ideal.hostDivf_def, expShift_eq, Read.val_main_v22_apply, Read.val_main_v21_apply,
    show Read.idx_main_v21 (Read.idx_main_v22 (ix2 n e)) = ix1 n from by idx_eq,
    Read.val_main_v20_apply, Read.val_main_cst_3_apply, Ideal.ofBits_def, Ideal.ofBits_zero_f32, zero_add]
  unfold Mixture.gate
  refine congrArg (Ideal.div _) (Finset.sum_congr rfl fun k _ => ?_)
  rw [show Read.idx_main_v20 (ix1 n) k = ix2 n k from by idx_eq, expShift_eq]

end Cert.ReferenceIdeal.RefValue

end
-- ==== Proof.RefExperts.lean ====
/-
  The local and the message-passing experts, read at one cell of the reference.

  Each is a hyperbolic tangent of an affine map. The update of the message-passing expert joins the cell's state with
  the 32 coordinates of the message and contracts the 96 joined coordinates against the update matrix: the state's
  contraction against its first 64 rows plus the message's against its last 32.
-/
import proofs.«168256_g38233798869014_cont_8to1_b_1562_16_alg».proof.Proof.RefAffine

noncomputable section

open scoped BigOperators

namespace Cert.ReferenceIdeal.RefValue

open Cert.ReferenceIdeal Cert.ReferenceIdeal.Gen Idealize.ShloMosaic Idealize.ShloMosaic.ValueIdx Cert.Mixture

variable (x0 : (⟨S19683x64, .f32⟩ : BufTy).Contents (Elt Ideal)) (x1 : (⟨S19683x26x64, .f32⟩ : BufTy).Contents (Elt Ideal))
  (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal))
  (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal))
  (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal))
  (n : Fin 19683)

/-- The local expert. -/
theorem localOut_eq (r : Fin 64) :
    Read.val_main_v28 (F := Ideal) x0 x1 x6 x7 (ix2 n r) = Mixture.localOut (Mixture.ofArrays x2 x3 x4 x5 x6 x7 x8 x9 x10 x11 x12 x13) (fun f => x0 (ix2 n f)) (fun k f => x1 (ix3 n k f)) r := by
  rw [Read.val_main_v28_apply, Ideal.hostUnary_tanh_def, v27_eq]
  rfl

/-- The message. -/
theorem message_eq (g : Fin 32) :
    Read.val_main_v33 (F := Ideal) x0 x1 x8 x9 (ix2 n g) = Mixture.message (Mixture.ofArrays x2 x3 x4 x5 x6 x7 x8 x9 x10 x11 x12 x13) (fun f => x0 (ix2 n f)) (fun k f => x1 (ix3 n k f)) g := by
  rw [Read.val_main_v33_apply, Ideal.hostUnary_tanh_def, v32_eq]
  rfl

/-- The first 64 coordinates of the update's joined operand hold the cell's state. -/
theorem v34_lo (f : Fin 64) :
    Read.val_main_v34 (F := Ideal) x0 x1 x8 x9 (ix2 n (lo96 f)) = x0 (ix2 n f) :=
  cat96_lo _ _ n f

/-- The last 32 hold the message. -/
theorem v34_hi (g : Fin 32) :
    Read.val_main_v34 (F := Ideal) x0 x1 x8 x9 (ix2 n (hi96 g)) = Mixture.message (Mixture.ofArrays x2 x3 x4 x5 x6 x7 x8 x9 x10 x11 x12 x13) (fun f => x0 (ix2 n f)) (fun k f => x1 (ix3 n k f)) g :=
  (cat96_hi _ _ n g).trans (message_eq x0 x1 x2 x3 x4 x5 x6 x7 x8 x9 x10 x11 x12 x13 n g)

/-- The update. -/
theorem funcOut_eq (r : Fin 64) :
    Read.val_main_v39 (F := Ideal) x0 x1 x8 x9 x10 x11 (ix2 n r) = Mixture.funcOut (Mixture.ofArrays x2 x3 x4 x5 x6 x7 x8 x9 x10 x11 x12 x13) (fun f => x0 (ix2 n f)) (fun k f => x1 (ix3 n k f)) r := by
  rw [Read.val_main_v39_apply, Ideal.hostUnary_tanh_def, Read.val_main_v38_apply, Ideal.addf_def,
    Read.val_main_v35_apply, v37_eq,
    dot96_at (Read.val_main_v34 (F := Ideal) x0 x1 x8 x9) x10 (Read.lidx_main_v35 (ix2 n r)) (Read.ridx_main_v35 (ix2 n r)) n r
      (fun k => by idx_eq) (fun k => by idx_eq) (fun f => x0 (ix2 n f)) (Mixture.message (Mixture.ofArrays x2 x3 x4 x5 x6 x7 x8 x9 x10 x11 x12 x13) (fun f => x0 (ix2 n f)) (fun k f => x1 (ix3 n k f)))
      (v34_lo x0 x1 x8 x9 n) (v34_hi x0 x1 x2 x3 x4 x5 x6 x7 x8 x9 x10 x11 x12 x13 n)]
  rfl

end Cert.ReferenceIdeal.RefValue

end
-- ==== Proof.RefFlow.lean ====
/-
  The flow expert, read at one cell of the reference: three explicit Euler steps.

  A step joins the current state with the neighbours' mean, contracts the joined coordinates against the flow matrix
  and adds the bias: `((Cˢ·s) + (Cⁿ·μ)) + b`. Addition on the extended reals is associative, so this is
  `(Cˢ·s) + ((Cⁿ·μ) + b)`, the moving part plus the part that does not move with the state. The step then adds to the
  state the hyperbolic tangent of that field, multiplied by the f32 word nearest one third.
-/
import proofs.«168256_g38233798869014_cont_8to1_b_1562_16_alg».proof.Proof.RefAffine

noncomputable section

open scoped BigOperators

namespace Cert.ReferenceIdeal.RefValue

open Cert.ReferenceIdeal Cert.ReferenceIdeal.Gen Idealize.ShloMosaic Idealize.ShloMosaic.ValueIdx Cert.Mixture

/-- One Euler step, for any state array `s` whose row at cell `n` is `a`. -/
theorem euler_eq (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (n : Fin 19683)
    (s : S19683x64.Idx → EReal) (a : Fin 64 → EReal) (ha : ∀ f, s (ix2 n f) = a f)
    (li : Fin 128 → S19683x128.Idx) (ri : Fin 128 → S128x64.Idx) (r : Fin 64)
    (hl : ∀ k, li k = ix2 n k) (hr : ∀ k, ri k = ix2 k r) :
    s (ix2 n r) + third * Ideal.tanh ((∑ k : Fin 128,
        (concatenate S19683x128 1 [⟨S19683x64, s⟩, ⟨S19683x64, Read.val_main_v2 (F := Ideal) x1⟩]
          concatenates_S19683x64_S19683x64_S19683x128_d1) (li k) * x12 (ri k)) + x13 (ix1 r))
      = Mixture.flowStep (Mixture.ofArrays x2 x3 x4 x5 x6 x7 x8 x9 x10 x11 x12 x13) (fun k f => x1 (ix3 n k f)) a r := by
  rw [dot128_at (concatenate S19683x128 1 [⟨S19683x64, s⟩, ⟨S19683x64, Read.val_main_v2 (F := Ideal) x1⟩]
          concatenates_S19683x64_S19683x64_S19683x128_d1) x12 li ri n r hl hr a (Mixture.mean (fun k f => x1 (ix3 n k f)))
      (fun f => (cat128_lo _ _ n f).trans (ha f)) (fun f => (cat128_hi _ _ n f).trans (mean_eq x1 n f)),
    add_assoc, ha r]
  rfl

variable (x0 : (⟨S19683x64, .f32⟩ : BufTy).Contents (Elt Ideal)) (x1 : (⟨S19683x26x64, .f32⟩ : BufTy).Contents (Elt Ideal))
  (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal))
  (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal))
  (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal))
  (n : Fin 19683)

/-- The first step, from the cell's state. -/
theorem flow1_eq (r : Fin 64) :
    Read.val_main_v48 (F := Ideal) x0 x1 x12 x13 (ix2 n r) = Mixture.flowStep (Mixture.ofArrays x2 x3 x4 x5 x6 x7 x8 x9 x10 x11 x12 x13) (fun k f => x1 (ix3 n k f)) (fun f => x0 (ix2 n f)) r := by
  rw [Read.val_main_v48_apply, Ideal.addf_def, Read.val_main_v47_apply, Ideal.mulf_def, Read.val_main_v46_apply,
    Read.val_main_cst_4_apply, Ideal.ofBits_def, Read.val_main_v45_apply, Ideal.hostUnary_tanh_def,
    Read.val_main_v44_apply, Ideal.addf_def, Read.val_main_v41_apply, v43_eq]
  exact euler_eq x1 x2 x3 x4 x5 x6 x7 x8 x9 x10 x11 x12 x13 n x0 (fun f => x0 (ix2 n f)) (fun f => rfl)
    (Read.lidx_main_v41 (ix2 n r)) (Read.ridx_main_v41 (ix2 n r)) r (fun k => by idx_eq) (fun k => by idx_eq)

/-- The second step. -/
theorem flow2_eq (r : Fin 64) :
    Read.val_main_v57 (F := Ideal) x0 x1 x12 x13 (ix2 n r)
      = Mixture.flowStep (Mixture.ofArrays x2 x3 x4 x5 x6 x7 x8 x9 x10 x11 x12 x13) (fun k f => x1 (ix3 n k f)) (Mixture.flowStep (Mixture.ofArrays x2 x3 x4 x5 x6 x7 x8 x9 x10 x11 x12 x13) (fun k f => x1 (ix3 n k f)) (fun f => x0 (ix2 n f))) r := by
  rw [Read.val_main_v57_apply, Ideal.addf_def, Read.val_main_v56_apply, Ideal.mulf_def, Read.val_main_v55_apply,
    Read.val_main_cst_5_apply, Ideal.ofBits_def, Read.val_main_v54_apply, Ideal.hostUnary_tanh_def,
    Read.val_main_v53_apply, Ideal.addf_def, Read.val_main_v50_apply, v52_eq]
  exact euler_eq x1 x2 x3 x4 x5 x6 x7 x8 x9 x10 x11 x12 x13 n (Read.val_main_v48 (F := Ideal) x0 x1 x12 x13) _ (flow1_eq x0 x1 x2 x3 x4 x5 x6 x7 x8 x9 x10 x11 x12 x13 n)
    (Read.lidx_main_v50 (ix2 n r)) (Read.ridx_main_v50 (ix2 n r)) r (fun k => by idx_eq) (fun k => by idx_eq)

/-- The third step: the flow expert. -/
theorem flow3_eq (r : Fin 64) :
    Read.val_main_v66 (F := Ideal) x0 x1 x12 x13 (ix2 n r) = Mixture.flowOut (Mixture.ofArrays x2 x3 x4 x5 x6 x7 x8 x9 x10 x11 x12 x13) (fun f => x0 (ix2 n f)) (fun k f => x1 (ix3 n k f)) r := by
  rw [Read.val_main_v66_apply, Ideal.addf_def, Read.val_main_v65_apply, Ideal.mulf_def, Read.val_main_v64_apply,
    Read.val_main_cst_6_apply, Ideal.ofBits_def, Read.val_main_v63_apply, Ideal.hostUnary_tanh_def,
    Read.val_main_v62_apply, Ideal.addf_def, Read.val_main_v59_apply, v61_eq]
  exact euler_eq x1 x2 x3 x4 x5 x6 x7 x8 x9 x10 x11 x12 x13 n (Read.val_main_v57 (F := Ideal) x0 x1 x12 x13) _ (flow2_eq x0 x1 x2 x3 x4 x5 x6 x7 x8 x9 x10 x11 x12 x13 n)
    (Read.lidx_main_v59 (ix2 n r)) (Read.ridx_main_v59 (ix2 n r)) r (fun k => by idx_eq) (fun k => by idx_eq)

end Cert.ReferenceIdeal.RefValue

end
-- ==== Proof.RefMixture.lean ====
/-
  The reference's two results at one cell are the mixture's.

  The new state is the sum of the three experts' outputs, each multiplied by its gate weight: the reference cuts the
  weight's column out of the gate array and spreads it over the 64 features, so at any feature it is the weight itself.
-/
import proofs.«168256_g38233798869014_cont_8to1_b_1562_16_alg».proof.Proof.RefGate
import proofs.«168256_g38233798869014_cont_8to1_b_1562_16_alg».proof.Proof.RefExperts
import proofs.«168256_g38233798869014_cont_8to1_b_1562_16_alg».proof.Proof.RefFlow

noncomputable section

open scoped BigOperators

namespace Cert.ReferenceIdeal.RefValue

open Cert.ReferenceIdeal Cert.ReferenceIdeal.Gen Idealize.ShloMosaic Idealize.ShloMosaic.ValueIdx Cert.Mixture

variable (x0 : (⟨S19683x64, .f32⟩ : BufTy).Contents (Elt Ideal)) (x1 : (⟨S19683x26x64, .f32⟩ : BufTy).Contents (Elt Ideal))
  (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal))
  (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal))
  (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal))
  (n : Fin 19683)

/-- The reference's first result, the new state, at cell `n` and feature `r`. -/
theorem ref_out (r : Fin 64) :
    Read.val_main_v77 (F := Ideal) x0 x1 x2 x3 x4 x5 x6 x7 x8 x9 x10 x11 x12 x13 (ix2 n r) = Mixture.out (Mixture.ofArrays x2 x3 x4 x5 x6 x7 x8 x9 x10 x11 x12 x13) (fun f => x0 (ix2 n f)) (fun k f => x1 (ix3 n k f)) r := by
  rw [Read.val_main_v77_apply, Ideal.addf_def, Read.val_main_v73_apply, Ideal.addf_def,
    Read.val_main_v69_apply, Ideal.mulf_def, Read.val_main_v72_apply, Ideal.mulf_def,
    Read.val_main_v76_apply, Ideal.mulf_def,
    Read.val_main_v68_apply, Read.val_main_v67_apply, Read.val_main_v71_apply, Read.val_main_v70_apply,
    Read.val_main_v75_apply, Read.val_main_v74_apply,
    show Read.idx_main_v67 (Read.idx_main_v68 (ix2 n r)) = ix2 n (0 : Fin 3) from by idx_eq,
    show Read.idx_main_v70 (Read.idx_main_v71 (ix2 n r)) = ix2 n (1 : Fin 3) from by idx_eq,
    show Read.idx_main_v74 (Read.idx_main_v75 (ix2 n r)) = ix2 n (2 : Fin 3) from by idx_eq,
    ref_gate x0 x1 x2 x3 x4 x5 x6 x7 x8 x9 x10 x11 x12 x13 n 0, ref_gate x0 x1 x2 x3 x4 x5 x6 x7 x8 x9 x10 x11 x12 x13 n 1, ref_gate x0 x1 x2 x3 x4 x5 x6 x7 x8 x9 x10 x11 x12 x13 n 2,
    localOut_eq x0 x1 x2 x3 x4 x5 x6 x7 x8 x9 x10 x11 x12 x13 n r, funcOut_eq x0 x1 x2 x3 x4 x5 x6 x7 x8 x9 x10 x11 x12 x13 n r, flow3_eq x0 x1 x2 x3 x4 x5 x6 x7 x8 x9 x10 x11 x12 x13 n r]
  rfl

end Cert.ReferenceIdeal.RefValue

end
-- ==== Proof.RefWhole.lean ====
/-
  The reference's two results as whole arrays: read at every index they are the specification's cell update and gate
  weights of that cell, so as arrays they are the whole-lattice functions of the arguments.
-/
import proofs.«168256_g38233798869014_cont_8to1_b_1562_16_alg».proof.Proof.RefMixture
import proofs.«168256_g38233798869014_cont_8to1_b_1562_16_alg».proof.Proof.MixtureWhole

noncomputable section

namespace Cert.ReferenceIdeal.RefValue

open Cert.ReferenceIdeal Cert.ReferenceIdeal.Gen Idealize.ShloMosaic Idealize.ShloMosaic.ValueIdx

theorem ref_whole_out (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) :
    Read.val_main_v77 (F := Ideal) x0 x1 x2 x3 x4 x5 x6 x7 x8 x9 x10 x11 x12 x13 = Cert.Mixture.wholeOut x0 x1 x2 x3 x4 x5 x6 x7 x8 x9 x10 x11 x12 x13 := by
  funext i
  obtain ⟨n, r, rfl⟩ : ∃ (n : Fin 19683) (r : Fin 64), i = ix2 n r := ⟨i 0, i 1, eq_ix2 i⟩
  exact ref_out x0 x1 x2 x3 x4 x5 x6 x7 x8 x9 x10 x11 x12 x13 n r

theorem ref_whole_gate (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) :
    Read.val_main_v23 (F := Ideal) x0 x1 x2 x3 x4 x5 = Cert.Mixture.wholeGate x0 x1 x2 x3 x4 x5 x6 x7 x8 x9 x10 x11 x12 x13 := by
  funext i
  obtain ⟨n, e, rfl⟩ : ∃ (n : Fin 19683) (e : Fin 3), i = ix2 n e := ⟨i 0, i 1, eq_ix2 i⟩
  exact ref_gate x0 x1 x2 x3 x4 x5 x6 x7 x8 x9 x10 x11 x12 x13 n e

end Cert.ReferenceIdeal.RefValue

end
-- ==== Proof.lean ====
/-
  A gated mixture of three experts over a lattice of 19683 cells, computed two ways.

  Each cell has a 64-vector state and 26 neighbours. From the state `x` and the neighbours' mean `μ` a gate (a hidden
  tanh layer, three logits, a softmax) weighs three experts: a local one, `tanh` of an affine map of `(x, μ)`; a
  message-passing one, a message from `(x, μ)` and an update from `(x, message)`; and a flow, three Euler steps of
  size one third along `s ↦ tanh(C·(s, μ) + b)` from `x`. The reference computes this cell-major, each affine map one
  product with the stacked pair. The kernel works feature-major, 2048 cells to a grid step: it adds the 26 neighbour
  slabs one by one and multiplies by the named constant 1/26, keeps each weight matrix as the two halves that meet
  the two stacked operands, and writes the mixed state and the gate weights of its 2048 cells, the last step's block
  cut at cell 19683.

  On the extended reals the two are one function. A sum over 128 stacked coordinates is the sum of the two sums over
  64 whatever the terms (addition is associative and commutative; no product is distributed and nothing is cancelled,
  so no finiteness is used); dividing by 26 is multiplying by 1/26; the maximum of minus infinity and a fold from
  minus infinity is the fold; and the exponential, hyperbolic tangent and quotient are the same functions on both
  sides. Both programs' results are therefore the specification's (`Cert.Mixture.wholeOut`, `wholeGate`) of the
  argument arrays.

  The frames. The reference is host operations only: its run is read back whole. The kernels run a pipeline whose
  tenth block overhangs the arrays; a lane of a step's result reads only that lane of its inputs, so at the ideal
  values what is written back inside the arrays does not depend on the lanes past their end. At the word level
  nothing is claimed of the results — the frame asks only that the arguments end as launched.
-/
import proofs.«168256_g38233798869014_cont_8to1_b_1562_16_alg».proof.Defs
import proofs.«168256_g38233798869014_cont_8to1_b_1562_16_alg».proof.Proof.Gen.Kernel
import proofs.«168256_g38233798869014_cont_8to1_b_1562_16_alg».proof.Proof.Gen.KernelIdeal
import proofs.«168256_g38233798869014_cont_8to1_b_1562_16_alg».proof.Proof.Gen.ReferenceIdeal
import proofs.«168256_g38233798869014_cont_8to1_b_1562_16_alg».proof.Proof.Gen.Pre_finite_inputs
import proofs.«168256_g38233798869014_cont_8to1_b_1562_16_alg».proof.Proof.Gen.ReferenceIdeal.Run
import proofs.«168256_g38233798869014_cont_8to1_b_1562_16_alg».proof.Proof.Gen.ReferenceIdeal.Read
import proofs.«168256_g38233798869014_cont_8to1_b_1562_16_alg».proof.Proof.BitsRun
import proofs.«168256_g38233798869014_cont_8to1_b_1562_16_alg».proof.Proof.IdealResult
import proofs.«168256_g38233798869014_cont_8to1_b_1562_16_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Block.frame (F := Bits) m ρ

/-- So does the idealized kernel. -/
theorem frame_ideal : Cert.frame_KernelIdeal := fun m ρ _ => Cert.KernelIdeal.Block.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's scale of the neighbour sum is named 1/26. -/
theorem preserves : Cert.preserves_Kernel_KernelIdeal :=
  IdealRules.named_const.statement Cert.KernelIdeal.κ "inv_26" .f32 0x3D1D89D9#32 ((1 / 26 : ℝ) : EReal) rfl

set_option maxHeartbeats 1000000 in
/-- Both programs end with the specification's two arrays of arguments that agree. -/
theorem algebraic : Cert.algebraic_KernelIdeal_ReferenceIdeal := by
  intro m ρ m' ρ' _ hagree
  refine ⟨fun c => Cert.Mixture.wholeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Mixture.wholeGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Block.run_values m ρ, ?_⟩
  refine (θ_run Cert.ReferenceIdeal.defs _ _).mono (fun _ h c => ?_)
    (Cert.ReferenceIdeal.Value.run (F := Ideal) m' ρ')
  obtain ⟨e0, e1, e2, e3, e4, e5, e6, e7, e8, e9, e10, e11, e12, e13⟩ := hagree c
  have hout : Cert.Mixture.wholeOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.Mixture.wholeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
    rw [e0, e1, e2, e3, e4, e5, e6, e7, e8, e9, e10, e11, e12, e13]
  have hgate : Cert.Mixture.wholeGate (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = Cert.Mixture.wholeGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
    rw [e0, e1, e2, e3, e4, e5, e6, e7, e8, e9, e10, e11, e12, e13]
  exact ⟨(h c).1.trans ((Cert.ReferenceIdeal.Read.val_main_v77_eq m' c).trans
      ((Cert.ReferenceIdeal.RefValue.ref_whole_out _ _ _ _ _ _ _ _ _ _ _ _ _ _).trans hout)),
    (h c).2.1.trans ((Cert.ReferenceIdeal.Read.val_main_v23_eq m' c).trans
      ((Cert.ReferenceIdeal.RefValue.ref_whole_gate (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans hgate)),
    (h c).2.2⟩

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
